-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v57)) (v1 : (c : Dev Cert.KernelIdeal.nD) → Buf (Elt Ideal) ((c.tc : Thread Cert.KernelIdeal.nD Cert.KernelIdeal.τ).loc Cert.KernelIdeal.main_v58)) (v2 : (c : Dev Cert.KernelIdeal.nD) → Buf (Elt Ideal) ((c.tc : Thread Cert.KernelIdeal.nD Cert.KernelIdeal.τ).loc Cert.KernelIdeal.main_v38_0)) (v3 : (c : Dev Cert.KernelIdeal.nD) → Buf (Elt Ideal) ((c.tc : Thread Cert.KernelIdeal.nD Cert.KernelIdeal.τ).loc Cert.KernelIdeal.main_v38_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v57) = v0 c
          ∧ r.2.mem ((c.tc : Thread Cert.KernelIdeal.nD Cert.KernelIdeal.τ).loc Cert.KernelIdeal.main_v58) = v1 c
          ∧ r.2.mem ((c.tc : Thread Cert.KernelIdeal.nD Cert.KernelIdeal.τ).loc Cert.KernelIdeal.main_v38_0) = v2 c
          ∧ r.2.mem ((c.tc : Thread Cert.KernelIdeal.nD Cert.KernelIdeal.τ).loc Cert.KernelIdeal.main_v38_1) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v76) = v0 c
          ∧ r.2.mem ((c.tc : Thread Cert.ReferenceIdeal.nD Cert.ReferenceIdeal.τ).loc Cert.ReferenceIdeal.main_v92) = v1 c
          ∧ r.2.mem ((c.tc : Thread Cert.ReferenceIdeal.nD Cert.ReferenceIdeal.τ).loc Cert.ReferenceIdeal.main_v54) = v2 c
          ∧ r.2.mem ((c.tc : Thread Cert.ReferenceIdeal.nD Cert.ReferenceIdeal.τ).loc Cert.ReferenceIdeal.main_v58) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x64 : Shape := ⟨2, ![50000, 64]⟩
abbrev S64x32 : Shape := ⟨2, ![64, 32]⟩
abbrev S32 : Shape := ⟨1, ![32]⟩
abbrev S32x64 : Shape := ⟨2, ![32, 64]⟩
abbrev S64 : Shape := ⟨1, ![64]⟩
abbrev S50000x32 : Shape := ⟨2, ![50000, 32]⟩
abbrev S1600000 : Shape := ⟨1, ![1600000]⟩
abbrev S500000 : Shape := ⟨1, ![500000]⟩
abbrev S_ : Shape := ⟨0, ![]⟩

class Facts : Prop where
  bcast_S_S50000x64 : S_.BroadcastsInDim S50000x64 (![] : Fin 0 → Fin S50000x64.rank)
  reducesTo_S50000x64_S_d0_1 : S50000x64.ReducesTo [0, 1] S_
  h_S_ : 0 < S_.numel
  bcast_S_S64x32 : S_.BroadcastsInDim S64x32 (![] : Fin 0 → Fin S64x32.rank)
  reducesTo_S64x32_S_d0_1 : S64x32.ReducesTo [0, 1] S_
  bcast_S_S32 : S_.BroadcastsInDim S32 (![] : Fin 0 → Fin S32.rank)
  reducesTo_S32_S_d0 : S32.ReducesTo [0] S_
  bcast_S_S32x64 : S_.BroadcastsInDim S32x64 (![] : Fin 0 → Fin S32x64.rank)
  reducesTo_S32x64_S_d0_1 : S32x64.ReducesTo [0, 1] S_
  bcast_S_S64 : S_.BroadcastsInDim S64 (![] : Fin 0 → Fin S64.rank)
  reducesTo_S64_S_d0 : S64.ReducesTo [0] S_
  bcast_S_S50000x32 : S_.BroadcastsInDim S50000x32 (![] : Fin 0 → Fin S50000x32.rank)
  reducesTo_S50000x32_S_d0_1 : S50000x32.ReducesTo [0, 1] S_

variable [Facts]

def fn_part1 {F : FTy → Type} [FloatOps F] (main_arg4 : FVec F S64 .f32) (main_arg5 : FVec F S50000x32 .f32) (main_v13 : IVec S_ 1) (main_v16 : IVec S32x64 1) : IVec S_ 1 :=
  let main_c_5 : IVec S_ 1 := constantI S_ 1 1#1
  let main_v17 : IVec S_ 1 := (fun x v => Host.reduce IntOp.andi x v reducesTo_S32x64_S_d0_1 h_S_) main_v16 main_c_5
  let main_v18 : IVec S_ 1 := andi main_v13 main_v17
  let main_v19 : FVec F S64 .f32 := Host.absf main_arg4
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S50000x32 .f32 := Host.absf main_arg5
  let main_cst_8 : FVec F S_ .f32 := constant S_ .f32 0x7F800000#32
  let main_v25 : FVec F S50000x32 .f32 := broadcastInDim S50000x32 ![] bcast_S_S50000x32 main_cst_8
  let main_v26 : IVec S50000x32 1 := cmpf .olt main_v24 main_v25
  let main_c_9 : IVec S_ 1 := constantI S_ 1 1#1
  let main_v27 : IVec S_ 1 := (fun x v => Host.reduce IntOp.andi x v reducesTo_S50000x32_S_d0_1 h_S_) main_v26 main_c_9
  let main_v28 : IVec S_ 1 := andi main_v23 main_v27
  main_v28

def fn {F : FTy → Type} [FloatOps F] (main_arg0 : FVec F S50000x64 .f32) (main_arg1 : FVec F S64x32 .f32) (main_arg2 : FVec F S32 .f32) (main_arg3 : FVec F S32x64 .f32) (main_arg4 : FVec F S64 .f32) (main_arg5 : FVec F S50000x32 .f32) (main_arg6 : IVec S1600000 32) (main_arg7 : IVec S1600000 32) (main_arg8 : IVec S500000 32) (main_arg9 : IVec S500000 32) (main_arg10 : IVec S500000 32) (main_arg11 : IVec S500000 32) : IVec S_ 1 :=
  let main_v0 : FVec F S50000x64 .f32 := Host.absf main_arg0
  let main_cst : FVec F S_ .f32 := constant S_ .f32 0x7F800000#32
  let main_v1 : FVec F S50000x64 .f32 := broadcastInDim S50000x64 ![] bcast_S_S50000x64 main_cst
  let main_v2 : IVec S50000x64 1 := cmpf .olt main_v0 main_v1
  let main_c : IVec S_ 1 := constantI S_ 1 1#1
  let main_v3 : IVec S_ 1 := (fun x v => Host.reduce IntOp.andi x v reducesTo_S50000x64_S_d0_1 h_S_) main_v2 main_c
  let main_v4 : FVec F S64x32 .f32 := Host.absf main_arg1
  let main_cst_0 : FVec F S_ .f32 := constant S_ .f32 0x7F800000#32
  let main_v5 : FVec F S64x32 .f32 := broadcastInDim S64x32 ![] bcast_S_S64x32 main_cst_0
  let main_v6 : IVec S64x32 1 := cmpf .olt main_v4 main_v5
  let main_c_1 : IVec S_ 1 := constantI S_ 1 1#1
  let main_v7 : IVec S_ 1 := (fun x v => Host.reduce IntOp.andi x v reducesTo_S64x32_S_d0_1 h_S_) main_v6 main_c_1
  let main_v8 : IVec S_ 1 := andi main_v3 main_v7
  let main_v9 : FVec F S32 .f32 := Host.absf main_arg2
  let main_cst_2 : FVec F S_ .f32 := constant S_ .f32 0x7F800000#32
  let main_v10 : FVec F S32 .f32 := broadcastInDim S32 ![] bcast_S_S32 main_cst_2
  let main_v11 : IVec S32 1 := cmpf .olt main_v9 main_v10
  let main_c_3 : IVec S_ 1 := constantI S_ 1 1#1
  let main_v12 : IVec S_ 1 := (fun x v => Host.reduce IntOp.andi x v reducesTo_S32_S_d0 h_S_) main_v11 main_c_3
  let main_v13 : IVec S_ 1 := andi main_v8 main_v12
  let main_v14 : FVec F S32x64 .f32 := Host.absf main_arg3
  let main_cst_4 : FVec F S_ .f32 := constant S_ .f32 0x7F800000#32
  let main_v15 : FVec F S32x64 .f32 := broadcastInDim S32x64 ![] bcast_S_S32x64 main_cst_4
  let main_v16 : IVec S32x64 1 := cmpf .olt main_v14 main_v15
  fn_part1 (F := F) main_arg4 main_arg5 main_v13 main_v16
-- ==== Kernel.lean ====
abbrev S50000x64 : Shape := ⟨2, ![50000, 64]⟩
abbrev S64x32 : Shape := ⟨2, ![64, 32]⟩
abbrev S32 : Shape := ⟨1, ![32]⟩
abbrev S32x64 : Shape := ⟨2, ![32, 64]⟩
abbrev S64 : Shape := ⟨1, ![64]⟩
abbrev S50000x32 : Shape := ⟨2, ![50000, 32]⟩
abbrev S1600000 : Shape := ⟨1, ![1600000]⟩
abbrev S500000 : Shape := ⟨1, ![500000]⟩
abbrev S_ : Shape := ⟨0, ![]⟩
abbrev S50000 : Shape := ⟨1, ![50000]⟩
abbrev S1600000x1 : Shape := ⟨2, ![1600000, 1]⟩
abbrev S50000x1 : Shape := ⟨2, ![50000, 1]⟩
abbrev S1600000x64 : Shape := ⟨2, ![1600000, 64]⟩
abbrev S2000x64 : Shape := ⟨2, ![2000, 64]⟩
abbrev S2000x1 : Shape := ⟨2, ![2000, 1]⟩
abbrev S2000x32 : Shape := ⟨2, ![2000, 32]⟩
abbrev S1x32 : Shape := ⟨2, ![1, 32]⟩
abbrev S1600000x32 : Shape := ⟨2, ![1600000, 32]⟩
abbrev S1x64 : Shape := ⟨2, ![1, 64]⟩
abbrev S1000000 : Shape := ⟨1, ![1000000]⟩
abbrev S1000000x1 : Shape := ⟨2, ![1000000, 1]⟩
abbrev S1000000x32 : Shape := ⟨2, ![1000000, 32]⟩

abbrev nBuf : Space → Nat
  | .hbm => 95
  | .vmem => 24
  | .smem => 0
  | _ => 0

abbrev bufTy : (tb : Table) → Fin (tcTables nBuf tb) → BufTy
  | .hbm, ⟨0, _⟩ => ⟨S50000x64, .f32⟩
  | .hbm, ⟨1, _⟩ => ⟨S64x32, .f32⟩
  | .hbm, ⟨2, _⟩ => ⟨S32, .f32⟩
  | .hbm, ⟨3, _⟩ => ⟨S32x64, .f32⟩
  | .hbm, ⟨4, _⟩ => ⟨S64, .f32⟩
  | .hbm, ⟨5, _⟩ => ⟨S50000x32, .f32⟩
  | .hbm, ⟨6, _⟩ => ⟨S1600000, .i32⟩
  | .hbm, ⟨7, _⟩ => ⟨S1600000, .i32⟩
  | .hbm, ⟨8, _⟩ => ⟨S500000, .i32⟩
  | .hbm, ⟨9, _⟩ => ⟨S500000, .i32⟩
  | .hbm, ⟨10, _⟩ => ⟨S500000, .i32⟩
  | .hbm, ⟨11, _⟩ => ⟨S500000, .i32⟩
  | .hbm, ⟨12, _⟩ => ⟨S_, .f32⟩
  | .hbm, ⟨13, _⟩ => ⟨S1600000, .f32⟩
  | .hbm, ⟨14, _⟩ => ⟨S_, .f32⟩
  | .hbm, ⟨15, _⟩ => ⟨S50000, .f32⟩
  | .hbm, ⟨16, _⟩ => ⟨S1600000x1, .i32⟩
  | .hbm, ⟨17, _⟩ => ⟨S50000, .f32⟩
  | .hbm, ⟨18, _⟩ => ⟨S_, .f32⟩
  | .hbm, ⟨19, _⟩ => ⟨S50000, .f32⟩
  | .hbm, ⟨20, _⟩ => ⟨S1600000x1, .i32⟩
  | .hbm, ⟨21, _⟩ => ⟨S50000, .f32⟩
  | .hbm, ⟨22, _⟩ => ⟨S_, .f32⟩
  | .hbm, ⟨23, _⟩ => ⟨S_, .f32⟩
  | .hbm, ⟨24, _⟩ => ⟨S50000, .f32⟩
  | .hbm, ⟨25, _⟩ => ⟨S50000, .f32⟩
  | .hbm, ⟨26, _⟩ => ⟨S_, .f32⟩
  | .hbm, ⟨27, _⟩ => ⟨S50000, .f32⟩
  | .hbm, ⟨28, _⟩ => ⟨S50000, .f32⟩
  | .hbm, ⟨29, _⟩ => ⟨S_, .f32⟩
  | .hbm, ⟨30, _⟩ => ⟨S_, .f32⟩
  | .hbm, ⟨31, _⟩ => ⟨S50000, .f32⟩
  | .hbm, ⟨32, _⟩ => ⟨S50000, .f32⟩
  | .hbm, ⟨33, _⟩ => ⟨S_, .f32⟩
  | .hbm, ⟨34, _⟩ => ⟨S50000, .f32⟩
  | .hbm, ⟨35, _⟩ => ⟨S50000, .f32⟩
  | .hbm, ⟨36, _⟩ => ⟨S50000x1, .f32⟩
  | .hbm, ⟨37, _⟩ => ⟨S50000x1, .f32⟩
  | .hbm, ⟨38, _⟩ => ⟨S50000x64, .f32⟩
  | .hbm, ⟨39, _⟩ => ⟨S50000x64, .f32⟩
  | .hbm, ⟨40, _⟩ => ⟨S_, .i32⟩
  | .hbm, ⟨41, _⟩ => ⟨S1600000, .i32⟩
  | .hbm, ⟨42, _⟩ => ⟨S1600000, .i1⟩
  | .hbm, ⟨43, _⟩ => ⟨S_, .i32⟩
  | .hbm, ⟨44, _⟩ => ⟨S1600000, .i32⟩
  | .hbm, ⟨45, _⟩ => ⟨S1600000, .i32⟩
  | .hbm, ⟨46, _⟩ => ⟨S1600000, .i32⟩
  | .hbm, ⟨47, _⟩ => ⟨S1600000x1, .i32⟩
  | .hbm, ⟨48, _⟩ => ⟨S1600000x64, .f32⟩
  | .hbm, ⟨49, _⟩ => ⟨S_, .f32⟩
  | .hbm, ⟨50, _⟩ => ⟨S50000x64, .f32⟩
  | .hbm, ⟨51, _⟩ => ⟨S1600000x1, .i32⟩
  | .hbm, ⟨52, _⟩ => ⟨S50000x64, .f32⟩
  | .hbm, ⟨53, _⟩ => ⟨S50000x32, .f32⟩
  | .hbm, ⟨54, _⟩ => ⟨S_, .i32⟩
  | .hbm, ⟨55, _⟩ => ⟨S1600000, .i32⟩
  | .hbm, ⟨56, _⟩ => ⟨S1600000, .i1⟩
  | .hbm, ⟨57, _⟩ => ⟨S_, .i32⟩
  | .hbm, ⟨58, _⟩ => ⟨S1600000, .i32⟩
  | .hbm, ⟨59, _⟩ => ⟨S1600000, .i32⟩
  | .hbm, ⟨60, _⟩ => ⟨S1600000, .i32⟩
  | .hbm, ⟨61, _⟩ => ⟨S1600000x1, .i32⟩
  | .hbm, ⟨62, _⟩ => ⟨S1600000x32, .f32⟩
  | .hbm, ⟨63, _⟩ => ⟨S_, .f32⟩
  | .hbm, ⟨64, _⟩ => ⟨S50000x32, .f32⟩
  | .hbm, ⟨65, _⟩ => ⟨S1600000x1, .i32⟩
  | .hbm, ⟨66, _⟩ => ⟨S50000x32, .f32⟩
  | .hbm, ⟨67, _⟩ => ⟨S50000x32, .f32⟩
  | .hbm, ⟨68, _⟩ => ⟨S50000x32, .f32⟩
  | .hbm, ⟨69, _⟩ => ⟨S50000x32, .f32⟩
  | .hbm, ⟨70, _⟩ => ⟨S1000000, .i32⟩
  | .hbm, ⟨71, _⟩ => ⟨S1000000, .i32⟩
  | .hbm, ⟨72, _⟩ => ⟨S_, .i32⟩
  | .hbm, ⟨73, _⟩ => ⟨S1000000, .i32⟩
  | .hbm, ⟨74, _⟩ => ⟨S1000000, .i1⟩
  | .hbm, ⟨75, _⟩ => ⟨S_, .i32⟩
  | .hbm, ⟨76, _⟩ => ⟨S1000000, .i32⟩
  | .hbm, ⟨77, _⟩ => ⟨S1000000, .i32⟩
  | .hbm, ⟨78, _⟩ => ⟨S1000000, .i32⟩
  | .hbm, ⟨79, _⟩ => ⟨S1000000x1, .i32⟩
  | .hbm, ⟨80, _⟩ => ⟨S1000000x32, .f32⟩
  | .hbm, ⟨81, _⟩ => ⟨S_, .i32⟩
  | .hbm, ⟨82, _⟩ => ⟨S1000000, .i32⟩
  | .hbm, ⟨83, _⟩ => ⟨S1000000, .i1⟩
  | .hbm, ⟨84, _⟩ => ⟨S_, .i32⟩
  | .hbm, ⟨85, _⟩ => ⟨S1000000, .i32⟩
  | .hbm, ⟨86, _⟩ => ⟨S1000000, .i32⟩
  | .hbm, ⟨87, _⟩ => ⟨S1000000, .i32⟩
  | .hbm, ⟨88, _⟩ => ⟨S1000000x1, .i32⟩
  | .hbm, ⟨89, _⟩ => ⟨S1000000x32, .f32⟩
  | .hbm, ⟨90, _⟩ => ⟨S1000000x32, .f32⟩
  | .hbm, ⟨91, _⟩ => ⟨S_, .f32⟩
  | .hbm, ⟨92, _⟩ => ⟨S1000000, .f32⟩
  | .hbm, ⟨93, _⟩ => ⟨S500000, .f32⟩
  | .hbm, ⟨94, _⟩ => ⟨S500000, .f32⟩
  | .local _ .vmem, ⟨0, _⟩ => ⟨S2000x64, .f32⟩
  | .local _ .vmem, ⟨1, _⟩ => ⟨S2000x64, .f32⟩
  | .local _ .vmem, ⟨2, _⟩ => ⟨S2000x1, .f32⟩
  | .local _ .vmem, ⟨3, _⟩ => ⟨S2000x1, .f32⟩
  | .local _ .vmem, ⟨4, _⟩ => ⟨S2000x1, .f32⟩
  | .local _ .vmem, ⟨5, _⟩ => ⟨S2000x1, .f32⟩
  | .local _ .vmem, ⟨6, _⟩ => ⟨S64x32, .f32⟩
  | .local _ .vmem, ⟨7, _⟩ => ⟨S32, .f32⟩
  | .local _ .vmem, ⟨8, _⟩ => ⟨S2000x32, .f32⟩
  | .local _ .vmem, ⟨9, _⟩ => ⟨S2000x32, .f32⟩
  | .local _ .vmem, ⟨10, _⟩ => ⟨S2000x32, .f32⟩
  | .local _ .vmem, ⟨11, _⟩ => ⟨S2000x32, .f32⟩
  | .local _ .vmem, ⟨12, _⟩ => ⟨S2000x1, .f32⟩
  | .local _ .vmem, ⟨13, _⟩ => ⟨S2000x1, .f32⟩
  | .local _ .vmem, ⟨14, _⟩ => ⟨S32x64, .f32⟩
  | .local _ .vmem, ⟨15, _⟩ => ⟨S64, .f32⟩
  | .local _ .vmem, ⟨16, _⟩ => ⟨S2000x32, .f32⟩
  | .local _ .vmem, ⟨17, _⟩ => ⟨S2000x32, .f32⟩
  | .local _ .vmem, ⟨18, _⟩ => ⟨S2000x32, .f32⟩
  | .local _ .vmem, ⟨19, _⟩ => ⟨S2000x32, .f32⟩
  | .local _ .vmem, ⟨20, _⟩ => ⟨S2000x32, .f32⟩
  | .local _ .vmem, ⟨21, _⟩ => ⟨S2000x32, .f32⟩
  | .local _ .vmem, ⟨22, _⟩ => ⟨S2000x32, .f32⟩
  | .local _ .vmem, ⟨23, _⟩ => ⟨S2000x32, .f32⟩
  | _, _ => ⟨S50000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_cst : Ref sig .tc := ⟨.hbm, 12, rfl⟩
abbrev main_v0 : Ref sig .tc := ⟨.hbm, 13, rfl⟩
abbrev main_cst_0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_cst_1 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_cst_2 : Ref sig .tc := ⟨.hbm, 22, rfl⟩
abbrev main_call0_v0 : Ref sig .tc := ⟨.hbm, 23, rfl⟩
abbrev main_call0_v1 : Ref sig .tc := ⟨.hbm, 24, rfl⟩
abbrev main_v7 : Ref sig .tc := ⟨.hbm, 25, rfl⟩
abbrev main_cst_3 : Ref sig .tc := ⟨.hbm, 26, rfl⟩
abbrev main_v8 : Ref sig .tc := ⟨.hbm, 27, rfl⟩
abbrev main_v9 : Ref sig .tc := ⟨.hbm, 28, rfl⟩
abbrev main_cst_4 : Ref sig .tc := ⟨.hbm, 29, rfl⟩
abbrev main_call1_v0 : Ref sig .tc := ⟨.hbm, 30, rfl⟩
abbrev main_call1_v1 : Ref sig .tc := ⟨.hbm, 31, rfl⟩
abbrev main_v10 : Ref sig .tc := ⟨.hbm, 32, rfl⟩
abbrev main_cst_5 : Ref sig .tc := ⟨.hbm, 33, rfl⟩
abbrev main_v11 : Ref sig .tc := ⟨.hbm, 34, rfl⟩
abbrev main_v12 : Ref sig .tc := ⟨.hbm, 35, rfl⟩
abbrev main_v13 : Ref sig .tc := ⟨.hbm, 36, rfl⟩
abbrev main_v14 : Ref sig .tc := ⟨.hbm, 37, rfl⟩
abbrev main_v15 : Ref sig .tc := ⟨.hbm, 38, rfl⟩
abbrev main_v16 : Ref sig .tc := ⟨.hbm, 39, rfl⟩
abbrev main_c : Ref sig .tc := ⟨.hbm, 40, rfl⟩
abbrev main_v17 : Ref sig .tc := ⟨.hbm, 41, rfl⟩
abbrev main_v18 : Ref sig .tc := ⟨.hbm, 42, rfl⟩
abbrev main_c_6 : Ref sig .tc := ⟨.hbm, 43, rfl⟩
abbrev main_v19 : Ref sig .tc := ⟨.hbm, 44, rfl⟩
abbrev main_v20 : Ref sig .tc := ⟨.hbm, 45, rfl⟩
abbrev main_v21 : Ref sig .tc := ⟨.hbm, 46, rfl⟩
abbrev main_v22 : Ref sig .tc := ⟨.hbm, 47, rfl⟩
abbrev main_v23 : Ref sig .tc := ⟨.hbm, 48, rfl⟩
abbrev main_cst_7 : Ref sig .tc := ⟨.hbm, 49, rfl⟩
abbrev main_v24 : Ref sig .tc := ⟨.hbm, 50, rfl⟩
abbrev main_v25 : Ref sig .tc := ⟨.hbm, 51, rfl⟩
abbrev main_v26 : Ref sig .tc := ⟨.hbm, 52, rfl⟩
abbrev main_v27 : Ref sig .tc := ⟨.hbm, 53, rfl⟩
abbrev main_c_8 : Ref sig .tc := ⟨.hbm, 54, rfl⟩
abbrev main_v28 : Ref sig .tc := ⟨.hbm, 55, rfl⟩
abbrev main_v29 : Ref sig .tc := ⟨.hbm, 56, rfl⟩
abbrev main_c_9 : Ref sig .tc := ⟨.hbm, 57, rfl⟩
abbrev main_v30 : Ref sig .tc := ⟨.hbm, 58, rfl⟩
abbrev main_v31 : Ref sig .tc := ⟨.hbm, 59, rfl⟩
abbrev main_v32 : Ref sig .tc := ⟨.hbm, 60, rfl⟩
abbrev main_v33 : Ref sig .tc := ⟨.hbm, 61, rfl⟩
abbrev main_v34 : Ref sig .tc := ⟨.hbm, 62, rfl⟩
abbrev main_cst_10 : Ref sig .tc := ⟨.hbm, 63, rfl⟩
abbrev main_v35 : Ref sig .tc := ⟨.hbm, 64, rfl⟩
abbrev main_v36 : Ref sig .tc := ⟨.hbm, 65, rfl⟩
abbrev main_v37 : Ref sig .tc := ⟨.hbm, 66, rfl⟩
abbrev main_v38_0 : Ref sig .tc := ⟨.hbm, 67, rfl⟩
abbrev main_v38_1 : Ref sig .tc := ⟨.hbm, 68, rfl⟩
abbrev main_v38_2 : Ref sig .tc := ⟨.hbm, 69, rfl⟩
abbrev main_v39 : Ref sig .tc := ⟨.hbm, 70, rfl⟩
abbrev main_v40 : Ref sig .tc := ⟨.hbm, 71, rfl⟩
abbrev main_c_11 : Ref sig .tc := ⟨.hbm, 72, rfl⟩
abbrev main_v41 : Ref sig .tc := ⟨.hbm, 73, rfl⟩
abbrev main_v42 : Ref sig .tc := ⟨.hbm, 74, rfl⟩
abbrev main_c_12 : Ref sig .tc := ⟨.hbm, 75, rfl⟩
abbrev main_v43 : Ref sig .tc := ⟨.hbm, 76, rfl⟩
abbrev main_v44 : Ref sig .tc := ⟨.hbm, 77, rfl⟩
abbrev main_v45 : Ref sig .tc := ⟨.hbm, 78, rfl⟩
abbrev main_v46 : Ref sig .tc := ⟨.hbm, 79, rfl⟩
abbrev main_v47 : Ref sig .tc := ⟨.hbm, 80, rfl⟩
abbrev main_c_13 : Ref sig .tc := ⟨.hbm, 81, rfl⟩
abbrev main_v48 : Ref sig .tc := ⟨.hbm, 82, rfl⟩
abbrev main_v49 : Ref sig .tc := ⟨.hbm, 83, rfl⟩
abbrev main_c_14 : Ref sig .tc := ⟨.hbm, 84, rfl⟩
abbrev main_v50 : Ref sig .tc := ⟨.hbm, 85, rfl⟩
abbrev main_v51 : Ref sig .tc := ⟨.hbm, 86, rfl⟩
abbrev main_v52 : Ref sig .tc := ⟨.hbm, 87, rfl⟩
abbrev main_v53 : Ref sig .tc := ⟨.hbm, 88, rfl⟩
abbrev main_v54 : Ref sig .tc := ⟨.hbm, 89, rfl⟩
abbrev main_v55 : Ref sig .tc := ⟨.hbm, 90, rfl⟩
abbrev main_cst_15 : Ref sig .tc := ⟨.hbm, 91, rfl⟩
abbrev main_v56 : Ref sig .tc := ⟨.hbm, 92, rfl⟩
abbrev main_v57 : Ref sig .tc := ⟨.hbm, 93, rfl⟩
abbrev main_v58 : Ref sig .tc := ⟨.hbm, 94, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg3_0 : Ref sig .tc := ⟨.vmem, 15, rfl⟩
abbrev cc1_stg4_0 : Ref sig .tc := ⟨.vmem, 16, rfl⟩
abbrev cc1_stg4_1 : Ref sig .tc := ⟨.vmem, 17, rfl⟩
abbrev cc1_stg5_0 : Ref sig .tc := ⟨.vmem, 18, rfl⟩
abbrev cc1_stg5_1 : Ref sig .tc := ⟨.vmem, 19, rfl⟩
abbrev cc1_stg6_0 : Ref sig .tc := ⟨.vmem, 20, rfl⟩
abbrev cc1_stg6_1 : Ref sig .tc := ⟨.vmem, 21, rfl⟩
abbrev cc1_stg7_0 : Ref sig .tc := ⟨.vmem, 22, rfl⟩
abbrev cc1_stg7_1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem3_0 : DmaSem sig := 15
abbrev cc1_sem4_0 : DmaSem sig := 16
abbrev cc1_sem4_1 : DmaSem sig := 17
abbrev cc1_sem5_0 : DmaSem sig := 18
abbrev cc1_sem5_1 : DmaSem sig := 19
abbrev cc1_sem6_0 : DmaSem sig := 20
abbrev cc1_sem6_1 : DmaSem sig := 21
abbrev cc1_sem7_0 : DmaSem sig := 22
abbrev cc1_sem7_1 : DmaSem sig := 23

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S64x32 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S32 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S2000x32 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x32 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S32x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S2000x32 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S2000x32 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S2000x32 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev stage1_7 : Fin 2 → Memref sig .tc .vmem S2000x32 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

class Facts₀ : Prop where
  bcast_S_S1600000 : S_.BroadcastsInDim S1600000 (![] : Fin 0 → Fin S1600000.rank)
  bcast_S_S50000 : S_.BroadcastsInDim S50000 (![] : Fin 0 → Fin S50000.rank)
  bcast_S1600000_S1600000x1_0 : S1600000.BroadcastsInDim S1600000x1 (![0] : Fin 1 → Fin S1600000x1.rank)
  bcast_S50000_S50000x1_0 : S50000.BroadcastsInDim S50000x1 (![0] : Fin 1 → Fin S50000x1.rank)
  bcast_S50000x1_S50000x64_0_1 : S50000x1.BroadcastsInDim S50000x64 (![0, 1] : Fin 2 → Fin S50000x64.rank)
  bcast_S_S50000x64 : S_.BroadcastsInDim S50000x64 (![] : Fin 0 → Fin S50000x64.rank)
  inb_S2000x64_S2000x64_0_0 : ∀ a, (![0, 0] : Fin 2 → Nat) a + S2000x64.size a ≤ S2000x64.size a
  h_S2000x64 : 0 < S2000x64.numel
  shapeCasts_S2000x64_S2000x64 : S2000x64.ShapeCasts S2000x64
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  broadcasts_S2000x1_S2000x64 : S2000x1.Broadcasts S2000x64
  bitsLt_bf16_f32 : FTy.bits .bf16 < FTy.bits .f32
  inb_S64x32_S64x32_0_0 : ∀ a, (![0, 0] : Fin 2 → Nat) a + S64x32.size a ≤ S64x32.size a
  h_S64x32 : 0 < S64x32.numel
  inb_S32_S32_0 : ∀ a, (![0] : Fin 1 → Nat) a + S32.size a ≤ S32.size a
  h_S32 : 0 < S32.numel
  shapeCasts_S32_S1x32 : S32.ShapeCasts S1x32
  broadcasts_S1x32_S2000x32 : S1x32.Broadcasts S2000x32
  broadcasts_S2000x1_S2000x32 : S2000x1.Broadcasts S2000x32
  inb_S2000x32_S2000x32_0_0 : ∀ a, (![0, 0] : Fin 2 → Nat) a + S2000x32.size a ≤ S2000x32.size a
  h_S2000x32 : 0 < S2000x32.numel
  bcast_S_S50000x32 : S_.BroadcastsInDim S50000x32 (![] : Fin 0 → Fin S50000x32.rank)
  shapeCasts_S2000x32_S2000x32 : S2000x32.ShapeCasts S2000x32
  inb_S32x64_S32x64_0_0 : ∀ a, (![0, 0] : Fin 2 → Nat) a + S32x64.size a ≤ S32x64.size a
  h_S32x64 : 0 < S32x64.numel
  inb_S64_S64_0 : ∀ a, (![0] : Fin 1 → Nat) a + S64.size a ≤ S64.size a
  h_S64 : 0 < S64.numel
  shapeCasts_S64_S1x64 : S64.ShapeCasts S1x64
  broadcasts_S1x64_S2000x64 : S1x64.Broadcasts S2000x64
  slices_S2000x64_o0_0_S2000x32 : S2000x64.Slices ![0, 0] S2000x32
  slices_S2000x64_o0_32_S2000x32 : S2000x64.Slices ![0, 32] S2000x32
  concatenates_S500000_S500000_S1000000_d0 : Shape.Concatenates [S500000, S500000] S1000000 0
  bcast_S_S1000000 : S_.BroadcastsInDim S1000000 (![] : Fin 0 → Fin S1000000.rank)
  bcast_S1000000_S1000000x1_0 : S1000000.BroadcastsInDim S1000000x1 (![0] : Fin 1 → Fin S1000000x1.rank)
  reducesTo_S1000000x32_S1000000_d1 : S1000000x32.ReducesTo [1] S1000000
  h_S_ : 0 < S_.numel
  slices_S1000000_S500000_0 : S1000000.Slices ![0] S500000
  slices_S1000000_S500000_500000 : S1000000.Slices ![500000] S500000
  scatter_S50000_S1600000x1_S1600000_n_0_0_1_wf : ScatterDims.WF S50000 S1600000x1 S1600000 [] [0] [0] 1
  gather_S50000x64_S1600000x1_S1600000x64_1_0_n_n_0_1_164_wf : GatherDims.WF S50000x64 S1600000x1 S1600000x64 [1] [0] [] [0] [] 1 ![1, 64]
  scatter_S50000x64_S1600000x1_S1600000x64_1_0_0_1_wf : ScatterDims.WF S50000x64 S1600000x1 S1600000x64 [1] [0] [0] 1
  dot_S2000x64_S64x32_S2000x32_1_0_0_1_n_n_wf : DotDims.WF S2000x64 S64x32 S2000x32 [1] [0] [0] [1] [] []
  gather_S50000x32_S1600000x1_S1600000x32_1_0_n_n_0_1_132_wf : GatherDims.WF S50000x32 S1600000x1 S1600000x32 [1] [0] [] [0] [] 1 ![1, 32]
  scatter_S50000x32_S1600000x1_S1600000x32_1_0_0_1_wf : ScatterDims.WF S50000x32 S1600000x1 S1600000x32 [1] [0] [0] 1
  dot_S2000x32_S32x64_S2000x64_1_0_0_1_n_n_wf : DotDims.WF S2000x32 S32x64 S2000x64 [1] [0] [0] [1] [] []
  gather_S50000x32_S1000000x1_S1000000x32_1_0_n_n_0_1_132_wf : GatherDims.WF S50000x32 S1000000x1 S1000000x32 [1] [0] [] [0] [] 1 ![1, 32]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x64.size a ≤ S50000x64.size a
  hwx0_0 : ∀ i : grid0.Coords, EltTy.bits .f32 = 32 ∨ (Rect.block (s := S50000x64) S2000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x1.size a ≤ S50000x1.size a
  hwx0_1 : ∀ i : grid0.Coords, EltTy.bits .f32 = 32 ∨ (Rect.block (s := S50000x1) S2000x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x1.size a ≤ S50000x1.size a
  hwx0_2 : ∀ i : grid0.Coords, EltTy.bits .f32 = 32 ∨ (Rect.block (s := S50000x1) S2000x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x32.size a ≤ S64x32.size a
  hwx0_3 : ∀ i : grid0.Coords, EltTy.bits .f32 = 32 ∨ (Rect.block (s := S64x32) S64x32.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S32.size a ≤ S32.size a
  hwx0_4 : ∀ i : grid0.Coords, EltTy.bits .f32 = 32 ∨ (Rect.block (s := S32) S32.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2000x32.size a ≤ S50000x32.size a
  hwx0_5 : ∀ i : grid0.Coords, EltTy.bits .f32 = 32 ∨ (Rect.block (s := S50000x32) S2000x32.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x32.size a ≤ S50000x32.size a
  hwx1_0 : ∀ i : grid1.Coords, EltTy.bits .f32 = 32 ∨ (Rect.block (s := S50000x32) S2000x32.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x1.size a ≤ S50000x1.size a
  hwx1_1 : ∀ i : grid1.Coords, EltTy.bits .f32 = 32 ∨ (Rect.block (s := S50000x1) S2000x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S32x64.size a ≤ S32x64.size a
  hwx1_2 : ∀ i : grid1.Coords, EltTy.bits .f32 = 32 ∨ (Rect.block (s := S32x64) S32x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S64.size a ≤ S64.size a
  hwx1_3 : ∀ i : grid1.Coords, EltTy.bits .f32 = 32 ∨ (Rect.block (s := S64) S64.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S2000x32.size a ≤ S50000x32.size a
  hwx1_4 : ∀ i : grid1.Coords, EltTy.bits .f32 = 32 ∨ (Rect.block (s := S50000x32) S2000x32.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S2000x32.size a ≤ S50000x32.size a
  hwx1_5 : ∀ i : grid1.Coords, EltTy.bits .f32 = 32 ∨ (Rect.block (s := S50000x32) S2000x32.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S2000x32.size a ≤ S50000x32.size a
  hwx1_6 : ∀ i : grid1.Coords, EltTy.bits .f32 = 32 ∨ (Rect.block (s := S50000x32) S2000x32.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S2000x32.size a ≤ S50000x32.size a
  hwx1_7 : ∀ i : grid1.Coords, EltTy.bits .f32 = 32 ∨ (Rect.block (s := S50000x32) S2000x32.size (cc1_transform_7 i) (hinb1_7 i)).WholeWords (EltTy.packing .f32)

variable [Facts₀]

def scatter_S50000_S1600000x1_S1600000_n_0_0_1 : ScatterDims S50000 S1600000x1 S1600000 where
  updateWindowDims := []
  insertedWindowDims := [0]
  scatterDimsToOperandDims := [0]
  indexVectorDim := 1
  wf := scatter_S50000_S1600000x1_S1600000_n_0_0_1_wf
def gather_S50000x64_S1600000x1_S1600000x64_1_0_n_n_0_1_164 : GatherDims S50000x64 S1600000x1 S1600000x64 where
  offsetDims := [1]
  collapsedSliceDims := [0]
  operandBatchingDims := []
  startIndicesBatchingDims := []
  startIndexMap := [0]
  indexVectorDim := 1
  sliceSizes := ![1, 64]
  wf := gather_S50000x64_S1600000x1_S1600000x64_1_0_n_n_0_1_164_wf
def scatter_S50000x64_S1600000x1_S1600000x64_1_0_0_1 : ScatterDims S50000x64 S1600000x1 S1600000x64 where
  updateWindowDims := [1]
  insertedWindowDims := [0]
  scatterDimsToOperandDims := [0]
  indexVectorDim := 1
  wf := scatter_S50000x64_S1600000x1_S1600000x64_1_0_0_1_wf
def dot_S2000x64_S64x32_S2000x32_1_0_0_1_n_n : DotDims S2000x64 S64x32 S2000x32 where
  lhsContracting := [1]
  rhsContracting := [0]
  lhsNonContracting := [0]
  rhsNonContracting := [1]
  lhsBatch := []
  rhsBatch := []
  wf := dot_S2000x64_S64x32_S2000x32_1_0_0_1_n_n_wf
def gather_S50000x32_S1600000x1_S1600000x32_1_0_n_n_0_1_132 : GatherDims S50000x32 S1600000x1 S1600000x32 where
  offsetDims := [1]
  collapsedSliceDims := [0]
  operandBatchingDims := []
  startIndicesBatchingDims := []
  startIndexMap := [0]
  indexVectorDim := 1
  sliceSizes := ![1, 32]
  wf := gather_S50000x32_S1600000x1_S1600000x32_1_0_n_n_0_1_132_wf
def scatter_S50000x32_S1600000x1_S1600000x32_1_0_0_1 : ScatterDims S50000x32 S1600000x1 S1600000x32 where
  updateWindowDims := [1]
  insertedWindowDims := [0]
  scatterDimsToOperandDims := [0]
  indexVectorDim := 1
  wf := scatter_S50000x32_S1600000x1_S1600000x32_1_0_0_1_wf
def dot_S2000x32_S32x64_S2000x64_1_0_0_1_n_n : DotDims S2000x32 S32x64 S2000x64 where
  lhsContracting := [1]
  rhsContracting := [0]
  lhsNonContracting := [0]
  rhsNonContracting := [1]
  lhsBatch := []
  rhsBatch := []
  wf := dot_S2000x32_S32x64_S2000x64_1_0_0_1_n_n_wf
def gather_S50000x32_S1000000x1_S1000000x32_1_0_n_n_0_1_132 : GatherDims S50000x32 S1000000x1 S1000000x32 where
  offsetDims := [1]
  collapsedSliceDims := [0]
  operandBatchingDims := []
  startIndicesBatchingDims := []
  startIndexMap := [0]
  indexVectorDim := 1
  sliceSizes := ![1, 32]
  wf := gather_S50000x32_S1000000x1_S1000000x32_1_0_n_n_0_1_132_wf

abbrev win0_0 : Pipeline.Window sig grid0 :=
  Pipeline.Window.ofSpec (Memref.whole main_v26) S2000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v14) S2000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v13) S2000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg1) S64x32.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg2) S32.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v27) S2000x32.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v37) S2000x32.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v14) S2000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg3) S32x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg4) S64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg5) S2000x32.size cc1_transform_4 reads1_4 false false 2 stage1_4 sem1_4
    hrank1 hreads1_4 hinb1_4 nbuf1_4 (Memref.isWhole_whole _) hwx1_4 hstage1_4

abbrev win1_5 : Pipeline.Window sig grid1 :=
  Pipeline.Window.ofSpec (Memref.whole main_v38_0) S2000x32.size cc1_transform_5 reads1_5 true false 2 stage1_5 sem1_5
    hrank1 hreads1_5 hinb1_5 nbuf1_5 (Memref.isWhole_whole _) hwx1_5 hstage1_5

abbrev win1_6 : Pipeline.Window sig grid1 :=
  Pipeline.Window.ofSpec (Memref.whole main_v38_1) S2000x32.size cc1_transform_6 reads1_6 true false 2 stage1_6 sem1_6
    hrank1 hreads1_6 hinb1_6 nbuf1_6 (Memref.isWhole_whole _) hwx1_6 hstage1_6

abbrev win1_7 : Pipeline.Window sig grid1 :=
  Pipeline.Window.ofSpec (Memref.whole main_v38_2) S2000x32.size cc1_transform_7 reads1_7 true false 2 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

class Facts : Prop extends Facts₀ where

variable [Facts]
-- ==== ReferenceIdeal.lean ====
abbrev S50000x64 : Shape := ⟨2, ![50000, 64]⟩
abbrev S64x32 : Shape := ⟨2, ![64, 32]⟩
abbrev S32 : Shape := ⟨1, ![32]⟩
abbrev S32x64 : Shape := ⟨2, ![32, 64]⟩
abbrev S64 : Shape := ⟨1, ![64]⟩
abbrev S50000x32 : Shape := ⟨2, ![50000, 32]⟩
abbrev S1600000 : Shape := ⟨1, ![1600000]⟩
abbrev S500000 : Shape := ⟨1, ![500000]⟩
abbrev S_ : Shape := ⟨0, ![]⟩
abbrev S50000 : Shape := ⟨1, ![50000]⟩
abbrev S1600000x1 : Shape := ⟨2, ![1600000, 1]⟩
abbrev S50000x1 : Shape := ⟨2, ![50000, 1]⟩
abbrev S1600000x64 : Shape := ⟨2, ![1600000, 64]⟩
abbrev S1x32 : Shape := ⟨2, ![1, 32]⟩
abbrev S1600000x32 : Shape := ⟨2, ![1600000, 32]⟩
abbrev S1x64 : Shape := ⟨2, ![1, 64]⟩
abbrev S500000x1 : Shape := ⟨2, ![500000, 1]⟩
abbrev S500000x32 : Shape := ⟨2, ![500000, 32]⟩

abbrev nBuf : Space → Nat
  | .hbm => 135
  | .vmem => 0
  | .smem => 0
  | _ => 0

abbrev hbmTy0_0 (i : Nat) : BufTy := match i % 128 with
  | 0 => ⟨S50000x64, .f32⟩
  | 1 => ⟨S64x32, .f32⟩
  | 2 => ⟨S32, .f32⟩
  | 3 => ⟨S32x64, .f32⟩
  | 4 => ⟨S64, .f32⟩
  | 5 => ⟨S50000x32, .f32⟩
  | 6 => ⟨S1600000, .i32⟩
  | 7 => ⟨S1600000, .i32⟩
  | 8 => ⟨S500000, .i32⟩
  | 9 => ⟨S500000, .i32⟩
  | 10 => ⟨S500000, .i32⟩
  | 11 => ⟨S500000, .i32⟩
  | 12 => ⟨S_, .f32⟩
  | 13 => ⟨S1600000, .f32⟩
  | 14 => ⟨S_, .f32⟩
  | 15 => ⟨S50000, .f32⟩
  | 16 => ⟨S1600000x1, .i32⟩
  | 17 => ⟨S50000, .f32⟩
  | 18 => ⟨S_, .f32⟩
  | 19 => ⟨S50000, .f32⟩
  | 20 => ⟨S1600000x1, .i32⟩
  | 21 => ⟨S50000, .f32⟩
  | 22 => ⟨S_, .f32⟩
  | 23 => ⟨S_, .f32⟩
  | 24 => ⟨S50000, .f32⟩
  | 25 => ⟨S50000, .f32⟩
  | 26 => ⟨S_, .f32⟩
  | 27 => ⟨S50000, .f32⟩
  | 28 => ⟨S50000, .f32⟩
  | 29 => ⟨S_, .f32⟩
  | 30 => ⟨S_, .f32⟩
  | 31 => ⟨S50000, .f32⟩
  | 32 => ⟨S50000, .f32⟩
  | 33 => ⟨S_, .f32⟩
  | 34 => ⟨S50000, .f32⟩
  | 35 => ⟨S50000, .f32⟩
  | 36 => ⟨S50000x1, .f32⟩
  | 37 => ⟨S50000x64, .f32⟩
  | 38 => ⟨S50000x64, .f32⟩
  | 39 => ⟨S_, .i32⟩
  | 40 => ⟨S1600000, .i32⟩
  | 41 => ⟨S1600000, .i1⟩
  | 42 => ⟨S_, .i32⟩
  | 43 => ⟨S1600000, .i32⟩
  | 44 => ⟨S1600000, .i32⟩
  | 45 => ⟨S1600000, .i32⟩
  | 46 => ⟨S1600000x1, .i32⟩
  | 47 => ⟨S1600000x64, .f32⟩
  | 48 => ⟨S_, .f32⟩
  | 49 => ⟨S50000x64, .f32⟩
  | 50 => ⟨S1600000x1, .i32⟩
  | 51 => ⟨S50000x64, .f32⟩
  | 52 => ⟨S50000x1, .f32⟩
  | 53 => ⟨S50000x64, .f32⟩
  | 54 => ⟨S50000x64, .f32⟩
  | 55 => ⟨S50000x32, .f32⟩
  | 56 => ⟨S1x32, .f32⟩
  | 57 => ⟨S50000x32, .f32⟩
  | 58 => ⟨S50000x32, .f32⟩
  | 59 => ⟨S_, .f32⟩
  | 60 => ⟨S50000x32, .f32⟩
  | 61 => ⟨S50000x32, .f32⟩
  | 62 => ⟨S50000x1, .f32⟩
  | 63 => ⟨S50000x32, .f32⟩
  | 64 => ⟨S50000x32, .f32⟩
  | 65 => ⟨S_, .i32⟩
  | 66 => ⟨S1600000, .i32⟩
  | 67 => ⟨S1600000, .i1⟩
  | 68 => ⟨S_, .i32⟩
  | 69 => ⟨S1600000, .i32⟩
  | 70 => ⟨S1600000, .i32⟩
  | 71 => ⟨S1600000, .i32⟩
  | 72 => ⟨S1600000x1, .i32⟩
  | 73 => ⟨S1600000x32, .f32⟩
  | 74 => ⟨S_, .f32⟩
  | 75 => ⟨S50000x32, .f32⟩
  | 76 => ⟨S1600000x1, .i32⟩
  | 77 => ⟨S50000x32, .f32⟩
  | 78 => ⟨S50000x1, .f32⟩
  | 79 => ⟨S50000x32, .f32⟩
  | 80 => ⟨S50000x32, .f32⟩
  | 81 => ⟨S50000x64, .f32⟩
  | 82 => ⟨S1x64, .f32⟩
  | 83 => ⟨S50000x64, .f32⟩
  | 84 => ⟨S50000x64, .f32⟩
  | 85 => ⟨S50000x32, .f32⟩
  | 86 => ⟨S50000x32, .f32⟩
  | 87 => ⟨S_, .f32⟩
  | 88 => ⟨S50000x32, .f32⟩
  | 89 => ⟨S50000x32, .f32⟩
  | 90 => ⟨S50000x32, .f32⟩
  | 91 => ⟨S50000x32, .f32⟩
  | 92 => ⟨S50000x32, .f32⟩
  | 93 => ⟨S_, .i32⟩
  | 94 => ⟨S500000, .i32⟩
  | 95 => ⟨S500000, .i1⟩
  | 96 => ⟨S_, .i32⟩
  | 97 => ⟨S500000, .i32⟩
  | 98 => ⟨S500000, .i32⟩
  | 99 => ⟨S500000, .i32⟩
  | 100 => ⟨S500000x1, .i32⟩
  | 101 => ⟨S500000x32, .f32⟩
  | 102 => ⟨S_, .i32⟩
  | 103 => ⟨S500000, .i32⟩
  | 104 => ⟨S500000, .i1⟩
  | 105 => ⟨S_, .i32⟩
  | 106 => ⟨S500000, .i32⟩
  | 107 => ⟨S500000, .i32⟩
  | 108 => ⟨S500000, .i32⟩
  | 109 => ⟨S500000x1, .i32⟩
  | 110 => ⟨S500000x32, .f32⟩
  | 111 => ⟨S500000x32, .f32⟩
  | 112 => ⟨S_, .f32⟩
  | 113 => ⟨S500000, .f32⟩
  | 114 => ⟨S_, .i32⟩
  | 115 => ⟨S500000, .i32⟩
  | 116 => ⟨S500000, .i1⟩
  | 117 => ⟨S_, .i32⟩
  | 118 => ⟨S500000, .i32⟩
  | 119 => ⟨S500000, .i32⟩
  | 120 => ⟨S500000, .i32⟩
  | 121 => ⟨S500000x1, .i32⟩
  | 122 => ⟨S500000x32, .f32⟩
  | 123 => ⟨S_, .i32⟩
  | 124 => ⟨S500000, .i32⟩
  | 125 => ⟨S500000, .i1⟩
  | 126 => ⟨S_, .i32⟩
  | 127 => ⟨S500000, .i32⟩
  | _ => ⟨S50000x64, .f32⟩

abbrev hbmTy0_1 (i : Nat) : BufTy := match i % 128 with
  | 0 => ⟨S500000, .i32⟩
  | 1 => ⟨S500000, .i32⟩
  | 2 => ⟨S500000x1, .i32⟩
  | 3 => ⟨S500000x32, .f32⟩
  | 4 => ⟨S500000x32, .f32⟩
  | 5 => ⟨S_, .f32⟩
  | 6 => ⟨S500000, .f32⟩
  | _ => ⟨S50000x64, .f32⟩

abbrev hbmTy (i : Nat) : BufTy := match i / 128 with
  | 0 => hbmTy0_0 i
  | 1 => hbmTy0_1 i
  | _ => ⟨S50000x64, .f32⟩

abbrev bufTy : (tb : Table) → Fin (tcTables nBuf tb) → BufTy
  | .hbm, ⟨i, _⟩ => hbmTy i
  | _, _ => ⟨S50000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_cst : Ref sig .tc := ⟨.hbm, 12, rfl⟩
abbrev main_v0 : Ref sig .tc := ⟨.hbm, 13, rfl⟩
abbrev main_cst_0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_cst_1 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_cst_2 : Ref sig .tc := ⟨.hbm, 22, rfl⟩
abbrev main_call0_v0 : Ref sig .tc := ⟨.hbm, 23, rfl⟩
abbrev main_call0_v1 : Ref sig .tc := ⟨.hbm, 24, rfl⟩
abbrev main_v7 : Ref sig .tc := ⟨.hbm, 25, rfl⟩
abbrev main_cst_3 : Ref sig .tc := ⟨.hbm, 26, rfl⟩
abbrev main_v8 : Ref sig .tc := ⟨.hbm, 27, rfl⟩
abbrev main_v9 : Ref sig .tc := ⟨.hbm, 28, rfl⟩
abbrev main_cst_4 : Ref sig .tc := ⟨.hbm, 29, rfl⟩
abbrev main_call1_v0 : Ref sig .tc := ⟨.hbm, 30, rfl⟩
abbrev main_call1_v1 : Ref sig .tc := ⟨.hbm, 31, rfl⟩
abbrev main_v10 : Ref sig .tc := ⟨.hbm, 32, rfl⟩
abbrev main_cst_5 : Ref sig .tc := ⟨.hbm, 33, rfl⟩
abbrev main_v11 : Ref sig .tc := ⟨.hbm, 34, rfl⟩
abbrev main_v12 : Ref sig .tc := ⟨.hbm, 35, rfl⟩
abbrev main_v13 : Ref sig .tc := ⟨.hbm, 36, rfl⟩
abbrev main_v14 : Ref sig .tc := ⟨.hbm, 37, rfl⟩
abbrev main_v15 : Ref sig .tc := ⟨.hbm, 38, rfl⟩
abbrev main_c : Ref sig .tc := ⟨.hbm, 39, rfl⟩
abbrev main_v16 : Ref sig .tc := ⟨.hbm, 40, rfl⟩
abbrev main_v17 : Ref sig .tc := ⟨.hbm, 41, rfl⟩
abbrev main_c_6 : Ref sig .tc := ⟨.hbm, 42, rfl⟩
abbrev main_v18 : Ref sig .tc := ⟨.hbm, 43, rfl⟩
abbrev main_v19 : Ref sig .tc := ⟨.hbm, 44, rfl⟩
abbrev main_v20 : Ref sig .tc := ⟨.hbm, 45, rfl⟩
abbrev main_v21 : Ref sig .tc := ⟨.hbm, 46, rfl⟩
abbrev main_v22 : Ref sig .tc := ⟨.hbm, 47, rfl⟩
abbrev main_cst_7 : Ref sig .tc := ⟨.hbm, 48, rfl⟩
abbrev main_v23 : Ref sig .tc := ⟨.hbm, 49, rfl⟩
abbrev main_v24 : Ref sig .tc := ⟨.hbm, 50, rfl⟩
abbrev main_v25 : Ref sig .tc := ⟨.hbm, 51, rfl⟩
abbrev main_v26 : Ref sig .tc := ⟨.hbm, 52, rfl⟩
abbrev main_v27 : Ref sig .tc := ⟨.hbm, 53, rfl⟩
abbrev main_v28 : Ref sig .tc := ⟨.hbm, 54, rfl⟩
abbrev main_v29 : Ref sig .tc := ⟨.hbm, 55, rfl⟩
abbrev main_v30 : Ref sig .tc := ⟨.hbm, 56, rfl⟩
abbrev main_v31 : Ref sig .tc := ⟨.hbm, 57, rfl⟩
abbrev main_v32 : Ref sig .tc := ⟨.hbm, 58, rfl⟩
abbrev main_call2_cst : Ref sig .tc := ⟨.hbm, 59, rfl⟩
abbrev main_call2_v0 : Ref sig .tc := ⟨.hbm, 60, rfl⟩
abbrev main_v33 : Ref sig .tc := ⟨.hbm, 61, rfl⟩
abbrev main_v34 : Ref sig .tc := ⟨.hbm, 62, rfl⟩
abbrev main_v35 : Ref sig .tc := ⟨.hbm, 63, rfl⟩
abbrev main_v36 : Ref sig .tc := ⟨.hbm, 64, rfl⟩
abbrev main_c_8 : Ref sig .tc := ⟨.hbm, 65, rfl⟩
abbrev main_v37 : Ref sig .tc := ⟨.hbm, 66, rfl⟩
abbrev main_v38 : Ref sig .tc := ⟨.hbm, 67, rfl⟩
abbrev main_c_9 : Ref sig .tc := ⟨.hbm, 68, rfl⟩
abbrev main_v39 : Ref sig .tc := ⟨.hbm, 69, rfl⟩
abbrev main_v40 : Ref sig .tc := ⟨.hbm, 70, rfl⟩
abbrev main_v41 : Ref sig .tc := ⟨.hbm, 71, rfl⟩
abbrev main_v42 : Ref sig .tc := ⟨.hbm, 72, rfl⟩
abbrev main_v43 : Ref sig .tc := ⟨.hbm, 73, rfl⟩
abbrev main_cst_10 : Ref sig .tc := ⟨.hbm, 74, rfl⟩
abbrev main_v44 : Ref sig .tc := ⟨.hbm, 75, rfl⟩
abbrev main_v45 : Ref sig .tc := ⟨.hbm, 76, rfl⟩
abbrev main_v46 : Ref sig .tc := ⟨.hbm, 77, rfl⟩
abbrev main_v47 : Ref sig .tc := ⟨.hbm, 78, rfl⟩
abbrev main_v48 : Ref sig .tc := ⟨.hbm, 79, rfl⟩
abbrev main_v49 : Ref sig .tc := ⟨.hbm, 80, rfl⟩
abbrev main_v50 : Ref sig .tc := ⟨.hbm, 81, rfl⟩
abbrev main_v51 : Ref sig .tc := ⟨.hbm, 82, rfl⟩
abbrev main_v52 : Ref sig .tc := ⟨.hbm, 83, rfl⟩
abbrev main_v53 : Ref sig .tc := ⟨.hbm, 84, rfl⟩
abbrev main_v54 : Ref sig .tc := ⟨.hbm, 85, rfl⟩
abbrev main_v55 : Ref sig .tc := ⟨.hbm, 86, rfl⟩
abbrev main_cst_11 : Ref sig .tc := ⟨.hbm, 87, rfl⟩
abbrev main_v56 : Ref sig .tc := ⟨.hbm, 88, rfl⟩
abbrev main_v57 : Ref sig .tc := ⟨.hbm, 89, rfl⟩
abbrev main_v58 : Ref sig .tc := ⟨.hbm, 90, rfl⟩
abbrev main_v59 : Ref sig .tc := ⟨.hbm, 91, rfl⟩
abbrev main_v60 : Ref sig .tc := ⟨.hbm, 92, rfl⟩
abbrev main_c_12 : Ref sig .tc := ⟨.hbm, 93, rfl⟩
abbrev main_v61 : Ref sig .tc := ⟨.hbm, 94, rfl⟩
abbrev main_v62 : Ref sig .tc := ⟨.hbm, 95, rfl⟩
abbrev main_c_13 : Ref sig .tc := ⟨.hbm, 96, rfl⟩
abbrev main_v63 : Ref sig .tc := ⟨.hbm, 97, rfl⟩
abbrev main_v64 : Ref sig .tc := ⟨.hbm, 98, rfl⟩
abbrev main_v65 : Ref sig .tc := ⟨.hbm, 99, rfl⟩
abbrev main_v66 : Ref sig .tc := ⟨.hbm, 100, rfl⟩
abbrev main_v67 : Ref sig .tc := ⟨.hbm, 101, rfl⟩
abbrev main_c_14 : Ref sig .tc := ⟨.hbm, 102, rfl⟩
abbrev main_v68 : Ref sig .tc := ⟨.hbm, 103, rfl⟩
abbrev main_v69 : Ref sig .tc := ⟨.hbm, 104, rfl⟩
abbrev main_c_15 : Ref sig .tc := ⟨.hbm, 105, rfl⟩
abbrev main_v70 : Ref sig .tc := ⟨.hbm, 106, rfl⟩
abbrev main_v71 : Ref sig .tc := ⟨.hbm, 107, rfl⟩
abbrev main_v72 : Ref sig .tc := ⟨.hbm, 108, rfl⟩
abbrev main_v73 : Ref sig .tc := ⟨.hbm, 109, rfl⟩
abbrev main_v74 : Ref sig .tc := ⟨.hbm, 110, rfl⟩
abbrev main_v75 : Ref sig .tc := ⟨.hbm, 111, rfl⟩
abbrev main_cst_16 : Ref sig .tc := ⟨.hbm, 112, rfl⟩
abbrev main_v76 : Ref sig .tc := ⟨.hbm, 113, rfl⟩
abbrev main_c_17 : Ref sig .tc := ⟨.hbm, 114, rfl⟩
abbrev main_v77 : Ref sig .tc := ⟨.hbm, 115, rfl⟩
abbrev main_v78 : Ref sig .tc := ⟨.hbm, 116, rfl⟩
abbrev main_c_18 : Ref sig .tc := ⟨.hbm, 117, rfl⟩
abbrev main_v79 : Ref sig .tc := ⟨.hbm, 118, rfl⟩
abbrev main_v80 : Ref sig .tc := ⟨.hbm, 119, rfl⟩
abbrev main_v81 : Ref sig .tc := ⟨.hbm, 120, rfl⟩
abbrev main_v82 : Ref sig .tc := ⟨.hbm, 121, rfl⟩
abbrev main_v83 : Ref sig .tc := ⟨.hbm, 122, rfl⟩
abbrev main_c_19 : Ref sig .tc := ⟨.hbm, 123, rfl⟩
abbrev main_v84 : Ref sig .tc := ⟨.hbm, 124, rfl⟩
abbrev main_v85 : Ref sig .tc := ⟨.hbm, 125, rfl⟩
abbrev main_c_20 : Ref sig .tc := ⟨.hbm, 126, rfl⟩
abbrev main_v86 : Ref sig .tc := ⟨.hbm, 127, rfl⟩
abbrev main_v87 : Ref sig .tc := ⟨.hbm, 128, rfl⟩
abbrev main_v88 : Ref sig .tc := ⟨.hbm, 129, rfl⟩
abbrev main_v89 : Ref sig .tc := ⟨.hbm, 130, rfl⟩
abbrev main_v90 : Ref sig .tc := ⟨.hbm, 131, rfl⟩
abbrev main_v91 : Ref sig .tc := ⟨.hbm, 132, rfl⟩
abbrev main_cst_21 : Ref sig .tc := ⟨.hbm, 133, rfl⟩
abbrev main_v92 : Ref sig .tc := ⟨.hbm, 134, rfl⟩

abbrev nD : Nat := 1
abbrev τ : Topo := Topo.v7x

variable {F : FTy → Type} [FloatOps F]

class Facts₀ : Prop where
  bcast_S_S1600000 : S_.BroadcastsInDim S1600000 (![] : Fin 0 → Fin S1600000.rank)
  bcast_S_S50000 : S_.BroadcastsInDim S50000 (![] : Fin 0 → Fin S50000.rank)
  bcast_S1600000_S1600000x1_0 : S1600000.BroadcastsInDim S1600000x1 (![0] : Fin 1 → Fin S1600000x1.rank)
  bcast_S50000_S50000x1_0 : S50000.BroadcastsInDim S50000x1 (![0] : Fin 1 → Fin S50000x1.rank)
  bcast_S50000x1_S50000x64_0_1 : S50000x1.BroadcastsInDim S50000x64 (![0, 1] : Fin 2 → Fin S50000x64.rank)
  bcast_S_S50000x64 : S_.BroadcastsInDim S50000x64 (![] : Fin 0 → Fin S50000x64.rank)
  bcast_S32_S1x32_1 : S32.BroadcastsInDim S1x32 (![1] : Fin 1 → Fin S1x32.rank)
  bcast_S1x32_S50000x32_0_1 : S1x32.BroadcastsInDim S50000x32 (![0, 1] : Fin 2 → Fin S50000x32.rank)
  bcast_S_S50000x32 : S_.BroadcastsInDim S50000x32 (![] : Fin 0 → Fin S50000x32.rank)
  bcast_S50000x1_S50000x32_0_1 : S50000x1.BroadcastsInDim S50000x32 (![0, 1] : Fin 2 → Fin S50000x32.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  slices_S50000x64_S50000x32_0_0 : S50000x64.Slices ![0, 0] S50000x32
  slices_S50000x64_S50000x32_0_32 : S50000x64.Slices ![0, 32] S50000x32
  bcast_S_S500000 : S_.BroadcastsInDim S500000 (![] : Fin 0 → Fin S500000.rank)
  bcast_S500000_S500000x1_0 : S500000.BroadcastsInDim S500000x1 (![0] : Fin 1 → Fin S500000x1.rank)
  reducesTo_S500000x32_S500000_d1 : S500000x32.ReducesTo [1] S500000
  h_S_ : 0 < S_.numel
  scatter_S50000_S1600000x1_S1600000_n_0_0_1_wf : ScatterDims.WF S50000 S1600000x1 S1600000 [] [0] [0] 1
  gather_S50000x64_S1600000x1_S1600000x64_1_0_n_n_0_1_164_wf : GatherDims.WF S50000x64 S1600000x1 S1600000x64 [1] [0] [] [0] [] 1 ![1, 64]
  scatter_S50000x64_S1600000x1_S1600000x64_1_0_0_1_wf : ScatterDims.WF S50000x64 S1600000x1 S1600000x64 [1] [0] [0] 1
  dot_S50000x64_S64x32_S50000x32_1_0_0_1_n_n_wf : DotDims.WF S50000x64 S64x32 S50000x32 [1] [0] [0] [1] [] []
  gather_S50000x32_S1600000x1_S1600000x32_1_0_n_n_0_1_132_wf : GatherDims.WF S50000x32 S1600000x1 S1600000x32 [1] [0] [] [0] [] 1 ![1, 32]
  scatter_S50000x32_S1600000x1_S1600000x32_1_0_0_1_wf : ScatterDims.WF S50000x32 S1600000x1 S1600000x32 [1] [0] [0] 1
  dot_S50000x32_S32x64_S50000x64_1_0_0_1_n_n_wf : DotDims.WF S50000x32 S32x64 S50000x64 [1] [0] [0] [1] [] []
  gather_S50000x32_S500000x1_S500000x32_1_0_n_n_0_1_132_wf : GatherDims.WF S50000x32 S500000x1 S500000x32 [1] [0] [] [0] [] 1 ![1, 32]

variable [Facts₀]

def scatter_S50000_S1600000x1_S1600000_n_0_0_1 : ScatterDims S50000 S1600000x1 S1600000 where
  updateWindowDims := []
  insertedWindowDims := [0]
  scatterDimsToOperandDims := [0]
  indexVectorDim := 1
  wf := scatter_S50000_S1600000x1_S1600000_n_0_0_1_wf
def gather_S50000x64_S1600000x1_S1600000x64_1_0_n_n_0_1_164 : GatherDims S50000x64 S1600000x1 S1600000x64 where
  offsetDims := [1]
  collapsedSliceDims := [0]
  operandBatchingDims := []
  startIndicesBatchingDims := []
  startIndexMap := [0]
  indexVectorDim := 1
  sliceSizes := ![1, 64]
  wf := gather_S50000x64_S1600000x1_S1600000x64_1_0_n_n_0_1_164_wf
def scatter_S50000x64_S1600000x1_S1600000x64_1_0_0_1 : ScatterDims S50000x64 S1600000x1 S1600000x64 where
  updateWindowDims := [1]
  insertedWindowDims := [0]
  scatterDimsToOperandDims := [0]
  indexVectorDim := 1
  wf := scatter_S50000x64_S1600000x1_S1600000x64_1_0_0_1_wf
def dot_S50000x64_S64x32_S50000x32_1_0_0_1_n_n : DotDims S50000x64 S64x32 S50000x32 where
  lhsContracting := [1]
  rhsContracting := [0]
  lhsNonContracting := [0]
  rhsNonContracting := [1]
  lhsBatch := []
  rhsBatch := []
  wf := dot_S50000x64_S64x32_S50000x32_1_0_0_1_n_n_wf
def gather_S50000x32_S1600000x1_S1600000x32_1_0_n_n_0_1_132 : GatherDims S50000x32 S1600000x1 S1600000x32 where
  offsetDims := [1]
  collapsedSliceDims := [0]
  operandBatchingDims := []
  startIndicesBatchingDims := []
  startIndexMap := [0]
  indexVectorDim := 1
  sliceSizes := ![1, 32]
  wf := gather_S50000x32_S1600000x1_S1600000x32_1_0_n_n_0_1_132_wf
def scatter_S50000x32_S1600000x1_S1600000x32_1_0_0_1 : ScatterDims S50000x32 S1600000x1 S1600000x32 where
  updateWindowDims := [1]
  insertedWindowDims := [0]
  scatterDimsToOperandDims := [0]
  indexVectorDim := 1
  wf := scatter_S50000x32_S1600000x1_S1600000x32_1_0_0_1_wf
def dot_S50000x32_S32x64_S50000x64_1_0_0_1_n_n : DotDims S50000x32 S32x64 S50000x64 where
  lhsContracting := [1]
  rhsContracting := [0]
  lhsNonContracting := [0]
  rhsNonContracting := [1]
  lhsBatch := []
  rhsBatch := []
  wf := dot_S50000x32_S32x64_S50000x64_1_0_0_1_n_n_wf
def gather_S50000x32_S500000x1_S500000x32_1_0_n_n_0_1_132 : GatherDims S50000x32 S500000x1 S500000x32 where
  offsetDims := [1]
  collapsedSliceDims := [0]
  operandBatchingDims := []
  startIndicesBatchingDims := []
  startIndexMap := [0]
  indexVectorDim := 1
  sliceSizes := ![1, 32]
  wf := gather_S50000x32_S500000x1_S500000x32_1_0_n_n_0_1_132_wf

class Facts : Prop extends Facts₀ where

variable [Facts]
-- ==== Proof.KernelRun.lean ====
/-
  The idealized kernel's run, with its results read.

  The program is nine segments in order: five stretches of host operations, the first dense layer's grid of 25 row
  blocks, a stretch of host operations, the second layer's grid of 25 row blocks, and a last stretch of host operations.
  Every weakly fair execution runs them in that order and terminates; the contents of the buffers at each boundary are a
  fold from the launch memory, and the final memory holds, at every buffer that is not scoped, the last boundary's
  contents. Read here at the four result buffers and at the twelve argument buffers, which no segment writes.
-/
import proofs.«112123_j61976378081862_2_alg».proof.Proof.Gen.KernelIdeal.Frame

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution terminates with each result buffer at the last boundary's contents and the arguments as
    launched: the segments' launch, the last thread state read against the final memory. -/
theorem run_results : θ_run defs (onTc (τ := τ) (main (F := F))) ⟨m, fun _ => 0, ρ⟩ (fun r => ∀ c : Dev nD,
      r.2.mem ((c.tc : Thread nD τ).loc main_v57) = W9 m ρ c (Proc.devRef .tc main_v57)
      ∧ r.2.mem ((c.tc : Thread nD τ).loc main_v58) = W9 m ρ c (Proc.devRef .tc main_v58)
      ∧ r.2.mem ((c.tc : Thread nD τ).loc main_v38_0) = W9 m ρ c (Proc.devRef .tc main_v38_0)
      ∧ r.2.mem ((c.tc : Thread nD τ).loc main_v38_1) = W9 m ρ c (Proc.devRef .tc main_v38_1)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m ρ c b)
    (hfin := fun c s' => by
      iintro ⟨⟨Hh, -⟩, HSI⟩
      unfold StableHlo.held
      imodintro
      iapply (pointsTo_read_all (Pipeline.ucRefs τ sig) (fun b => (((c : Thread nD τ)).1, b)) (W9 m ρ c) s')
      isplitl [Hh] <;> iassumption)
    (hQ := fun s h c =>
      ⟨h c _ (mem_uc main_v57 (by decide)),
       h c _ (mem_uc main_v58 (by decide)),
       h c _ (mem_uc main_v38_0 (by decide)),
       h c _ (mem_uc main_v38_1 (by decide)),
       (h c _ (mem_uc main_arg0 (by decide))).trans (W9_main_arg0 m ρ c),
       (h c _ (mem_uc main_arg1 (by decide))).trans (W9_main_arg1 m ρ c),
       (h c _ (mem_uc main_arg2 (by decide))).trans (W9_main_arg2 m ρ c),
       (h c _ (mem_uc main_arg3 (by decide))).trans (W9_main_arg3 m ρ c),
       (h c _ (mem_uc main_arg4 (by decide))).trans (W9_main_arg4 m ρ c),
       (h c _ (mem_uc main_arg5 (by decide))).trans (W9_main_arg5 m ρ c),
       (h c _ (mem_uc main_arg6 (by decide))).trans (W9_main_arg6 m ρ c),
       (h c _ (mem_uc main_arg7 (by decide))).trans (W9_main_arg7 m ρ c),
       (h c _ (mem_uc main_arg8 (by decide))).trans (W9_main_arg8 m ρ c),
       (h c _ (mem_uc main_arg9 (by decide))).trans (W9_main_arg9 m ρ c),
       (h c _ (mem_uc main_arg10 (by decide))).trans (W9_main_arg10 m ρ c),
       (h c _ (mem_uc main_arg11 (by decide))).trans (W9_main_arg11 m ρ c)⟩)

end Cert.KernelIdeal.Hand

end
-- ==== Proof.Spec.lean ====
/-
  The computation both programs perform, stage by stage, as functions of arrays on the extended reals.

  A two-layer graph convolution with symmetric degree normalisation over N = 50000 nodes and E = 1600000 directed edges
  (src e → dst e), a reparameterisation, and a dot-product decoder over two lists of 500000 node pairs:
    • degNorm e — per node, max (1, the number of edges whose endpoint e is that node) raised to the power −1/2;
    • aggr h src dst — per node d, the sum over the edges with dst e = d of row src e of h (an index below zero is moved up
      by N before it is read; the gather clamps it into range);
    • layer1 A s W b s' — max ((A scaled row-wise by s) · W + b, 0) scaled row-wise by s';
    • affine2 A s W b — (A scaled row-wise by s) · W + b, whose first 32 columns are μ and whose last 32 are log σ²;
      σ = exp (log σ² / 2), z = μ + σ · ε;
    • decode z u v — per pair r, the dot product of rows u r and v r of z.
  The four results are the decoded positive pairs, the decoded negative pairs, μ and σ.
-/
import proofs.«112123_j61976378081862_2_alg».proof.Proof.Gen.ReferenceIdeal
import Idealize.ShloMosaic.PureOps.Ideal

noncomputable section

namespace Cert.Spec

open Cert.ReferenceIdeal Cert.ReferenceIdeal.Facts₀ Cert.ReferenceIdeal.Facts Idealize.ShloMosaic

/-- max (1, count of e = node) ^ (−1/2), per node. -/
def degNorm (e : IVec S1600000 32) : FVec Ideal S50000 .f32 :=
  Host.powf (maximumf (broadcastInDim S50000 ![] bcast_S_S50000 (id (constant S_ .f32 0x3F800000#32))) (Host.scatterAdd scatter_S50000_S1600000x1_S1600000_n_0_0_1 (broadcastInDim S50000 ![] bcast_S_S50000 (constant S_ .f32 0x00000000#32)) (broadcastInDim S1600000x1 ![0] bcast_S1600000_S1600000x1_0 e) (broadcastInDim S1600000 ![] bcast_S_S1600000 (constant S_ .f32 0x3F800000#32)))) (broadcastInDim S50000 ![] bcast_S_S50000 (constant S_ .f32 0xBF000000#32))

/-- A per-node vector as a column. -/
def colOf (v : FVec Ideal S50000 .f32) : FVec Ideal S50000x1 .f32 := broadcastInDim S50000x1 ![0] bcast_S50000_S50000x1_0 v

/-- The edge endpoints as gather indices: below zero moved up by N, made a column. -/
def wrapE (e : IVec S1600000 32) : IVec S1600000x1 32 :=
  broadcastInDim S1600000x1 ![0] bcast_S1600000_S1600000x1_0 (select (cmpi .slt e (broadcastInDim S1600000 ![] bcast_S_S1600000 (constantI S_ 32 0#32))) (addi e (broadcastInDim S1600000 ![] bcast_S_S1600000 (constantI S_ 32 50000#32))) e)

/-- The rows of x scaled by a column of factors. -/
def scaled64 (x : FVec Ideal S50000x64 .f32) (s : FVec Ideal S50000x1 .f32) : FVec Ideal S50000x64 .f32 :=
  mulf x (broadcastInDim S50000x64 ![0, 1] bcast_S50000x1_S50000x64_0_1 s)

/-- Message passing over 64 features: per node, the sum of the source rows of its incoming edges. -/
def aggr64 (h : FVec Ideal S50000x64 .f32) (src dst : IVec S1600000 32) : FVec Ideal S50000x64 .f32 :=
  Host.scatterAdd scatter_S50000x64_S1600000x1_S1600000x64_1_0_0_1 (broadcastInDim S50000x64 ![] bcast_S_S50000x64 (constant S_ .f32 0x00000000#32)) (broadcastInDim S1600000x1 ![0] bcast_S1600000_S1600000x1_0 dst) (Host.gather gather_S50000x64_S1600000x1_S1600000x64_1_0_n_n_0_1_164 h (wrapE src))

/-- Message passing over 32 features. -/
def aggr32 (h : FVec Ideal S50000x32 .f32) (src dst : IVec S1600000 32) : FVec Ideal S50000x32 .f32 :=
  Host.scatterAdd scatter_S50000x32_S1600000x1_S1600000x32_1_0_0_1 (broadcastInDim S50000x32 ![] bcast_S_S50000x32 (constant S_ .f32 0x00000000#32)) (broadcastInDim S1600000x1 ![0] bcast_S1600000_S1600000x1_0 dst) (Host.gather gather_S50000x32_S1600000x1_S1600000x32_1_0_n_n_0_1_132 h (wrapE src))

/-- The first dense layer: max ((A scaled by s) · W + b, 0) scaled by s'. -/
def layer1 (A : FVec Ideal S50000x64 .f32) (s : FVec Ideal S50000x1 .f32) (W : FVec Ideal S64x32 .f32) (b : FVec Ideal S32 .f32)
    (s' : FVec Ideal S50000x1 .f32) : FVec Ideal S50000x32 .f32 :=
  mulf (maximumf (addf (Host.dotGeneral dot_S50000x64_S64x32_S50000x32_1_0_0_1_n_n none (mulf A (broadcastInDim S50000x64 ![0, 1] bcast_S50000x1_S50000x64_0_1 s)) W) (broadcastInDim S50000x32 ![0, 1] bcast_S1x32_S50000x32_0_1 (broadcastInDim S1x32 ![1] bcast_S32_S1x32_1 b))) (broadcastInDim S50000x32 ![] bcast_S_S50000x32 (constant S_ .f32 0x00000000#32))) (broadcastInDim S50000x32 ![0, 1] bcast_S50000x1_S50000x32_0_1 s')

/-- The second dense layer's affine part: (A scaled by s) · W + b. -/
def affine2 (A : FVec Ideal S50000x32 .f32) (s : FVec Ideal S50000x1 .f32) (W : FVec Ideal S32x64 .f32) (b : FVec Ideal S64 .f32) :
    FVec Ideal S50000x64 .f32 :=
  addf (Host.dotGeneral dot_S50000x32_S32x64_S50000x64_1_0_0_1_n_n none (mulf A (broadcastInDim S50000x32 ![0, 1] bcast_S50000x1_S50000x32_0_1 s)) W) (broadcastInDim S50000x64 ![0, 1] bcast_S1x64_S50000x64_0_1 (broadcastInDim S1x64 ![1] bcast_S64_S1x64_1 b))

/-- μ: the first 32 columns. -/
def muOf (acc : FVec Ideal S50000x64 .f32) : FVec Ideal S50000x32 .f32 :=
  extractStridedSlice S50000x32 ![0, 0] acc slices_S50000x64_S50000x32_0_0

/-- σ: exp of half of the last 32 columns. -/
def sigmaOf (acc : FVec Ideal S50000x64 .f32) : FVec Ideal S50000x32 .f32 :=
  Host.exp (Host.divf (extractStridedSlice S50000x32 ![0, 32] acc slices_S50000x64_S50000x32_0_32) (broadcastInDim S50000x32 ![] bcast_S_S50000x32 (constant S_ .f32 0x40000000#32)))

/-- z = μ + σ · ε. -/
def zOf (acc : FVec Ideal S50000x64 .f32) (eps : FVec Ideal S50000x32 .f32) : FVec Ideal S50000x32 .f32 :=
  addf (muOf acc) (mulf (sigmaOf acc) eps)

/-- The pair endpoints as gather indices. -/
def wrapP (e : IVec S500000 32) : IVec S500000x1 32 :=
  broadcastInDim S500000x1 ![0] bcast_S500000_S500000x1_0 (select (cmpi .slt e (broadcastInDim S500000 ![] bcast_S_S500000 (constantI S_ 32 0#32))) (addi e (broadcastInDim S500000 ![] bcast_S_S500000 (constantI S_ 32 50000#32))) e)

/-- Per pair, the dot product of the two endpoint rows of z. -/
def decode (z : FVec Ideal S50000x32 .f32) (u v : IVec S500000 32) : FVec Ideal S500000 .f32 :=
  Host.reduceAdd (mulf (Host.gather gather_S50000x32_S500000x1_S500000x32_1_0_n_n_0_1_132 z (wrapP u)) (Host.gather gather_S50000x32_S500000x1_S500000x32_1_0_n_n_0_1_132 z (wrapP v))) (constant S_ .f32 0x00000000#32) reducesTo_S500000x32_S500000_d1 h_S_

/-! ## The whole computation, of the argument arrays -/

section Whole

variable (x : FVec Ideal S50000x64 .f32) (W1 : FVec Ideal S64x32 .f32) (b1 : FVec Ideal S32 .f32) (W2 : FVec Ideal S32x64 .f32)
  (b2 : FVec Ideal S64 .f32) (eps : FVec Ideal S50000x32 .f32) (src dst : IVec S1600000 32)

/-- The first layer's aggregated messages. -/
def agg1 : FVec Ideal S50000x64 .f32 := aggr64 (scaled64 x (colOf (degNorm src))) src dst

/-- The hidden features, already scaled for the second round of messages. -/
def hidden : FVec Ideal S50000x32 .f32 := layer1 (agg1 x src dst) (colOf (degNorm dst)) W1 b1 (colOf (degNorm src))

/-- The second layer's aggregated messages. -/
def agg2 : FVec Ideal S50000x32 .f32 := aggr32 (hidden x W1 b1 src dst) src dst

/-- The second layer's affine output, μ and log σ² side by side. -/
def acc : FVec Ideal S50000x64 .f32 := affine2 (agg2 x W1 b1 src dst) (colOf (degNorm dst)) W2 b2

def mu : FVec Ideal S50000x32 .f32 := muOf (acc x W1 b1 W2 b2 src dst)
def sigma : FVec Ideal S50000x32 .f32 := sigmaOf (acc x W1 b1 W2 b2 src dst)
def zz : FVec Ideal S50000x32 .f32 := zOf (acc x W1 b1 W2 b2 src dst) eps

end Whole

end Cert.Spec

end
-- ==== Proof.LibPlainDot.lean ====
/-
  A plain matrix product read at an entry.

  For the dimension numbers of an `M×K` by `K×N` product (contract the left operand's axis 1 with the right
  operand's axis 0, no batch axes), a `tpu.matmul` into the zero accumulator, read on the extended reals at the
  entry `(p, q)`, is `∑ k, lhs (p, k) · rhs (k, q)`; so is the host's `dot_general`. Any record with these six lists
  is `DotDims.plain M K N` (the well-formedness field is a proposition), so a printed record is rewritten to it by `rfl`.
-/
import Idealize.ShloMosaic.PureOps.Ideal.Laws
import Idealize.ShloMosaic.Lib.ValueIdx

noncomputable section

namespace Cert.PlainDot

open Idealize.ShloMosaic Idealize.ShloMosaic.ValueIdx
open scoped BigOperators

variable {M K N : Nat}

/-- The left operand's index at result entry `j` and contraction position `k` is `(j 0, k)`. -/
theorem lhsIdx_eq (j : (⟨2, ![M, N]⟩ : Shape).Idx) (k : Fin K) :
    (DotDims.plain M K N).lhsIdx j ((contrEquiv1 (DotDims.plain M K N) K rfl rfl).symm k) = ix2 (j 0) k := by
  have hk := contrEquiv1_symm_val (DotDims.plain M K N) K rfl rfl k
  funext a
  apply Fin.ext
  match a with
  | ⟨0, _⟩ =>
    show ((DotDims.plain M K N).lhsIdx j _ 0).val = (j 0).val
    unfold DotDims.lhsIdx
    rw [dif_neg (show ¬(0 : Fin 2) ∈ (DotDims.plain M K N).lhsBatch from List.not_mem_nil),
      dif_pos (show (0 : Fin 2) ∈ (DotDims.plain M K N).lhsNonContracting from List.mem_singleton.mpr rfl)]
    rfl
  | ⟨1, _⟩ => exact ((DotDims.plain M K N).lhsIdx_val_of_single rfl j _).trans hk

/-- The right operand's index at result entry `j` and contraction position `k` is `(k, j 1)`. -/
theorem rhsIdx_eq (j : (⟨2, ![M, N]⟩ : Shape).Idx) (k : Fin K) :
    (DotDims.plain M K N).rhsIdx j ((contrEquiv1 (DotDims.plain M K N) K rfl rfl).symm k) = ix2 k (j 1) := by
  have hk := contrEquiv1_symm_val (DotDims.plain M K N) K rfl rfl k
  funext a
  apply Fin.ext
  match a with
  | ⟨0, _⟩ => exact ((DotDims.plain M K N).rhsIdx_val_of_single rfl j _).trans hk
  | ⟨1, _⟩ =>
    show ((DotDims.plain M K N).rhsIdx j _ 1).val = (j 1).val
    unfold DotDims.rhsIdx
    rw [dif_neg (show ¬(1 : Fin 2) ∈ (DotDims.plain M K N).rhsBatch from List.not_mem_nil),
      dif_pos (show (1 : Fin 2) ∈ (DotDims.plain M K N).rhsNonContracting from List.mem_singleton.mpr rfl)]
    rfl

/-- The contraction sum of a plain product at `(p, q)` is the sum over `k` of `lhs (p, k) · rhs (k, q)`. -/
theorem contraction_eq (lhs : (⟨2, ![M, K]⟩ : Shape).Idx → EReal) (rhs : (⟨2, ![K, N]⟩ : Shape).Idx → EReal) (p : Fin M) (q : Fin N) :
    (∑ k : (DotDims.plain M K N).contr.Idx, lhs ((DotDims.plain M K N).lhsIdx (ix2 p q) k) * rhs ((DotDims.plain M K N).rhsIdx (ix2 p q) k))
      = ∑ k : Fin K, lhs (ix2 p k) * rhs (ix2 k q) := by
  rw [← Equiv.sum_comp (contrEquiv1 (DotDims.plain M K N) K rfl rfl).symm]
  refine Finset.sum_congr rfl fun k _ => ?_
  rw [lhsIdx_eq, rhsIdx_eq]
  rfl

/-- A `tpu.matmul` of plain dimension numbers into the zero accumulator, at `(p, q)`. -/
theorem matmul_zero_apply (prec : Option ContractPrecision) (lhs : FVec Ideal ⟨2, ![M, K]⟩ .f32) (rhs : FVec Ideal ⟨2, ![K, N]⟩ .f32)
    (p : Fin M) (q : Fin N) :
    FloatOps.matmul (DotDims.plain M K N) prec lhs rhs (constant ⟨2, ![M, N]⟩ .f32 0x00000000#32) (ix2 p q)
      = ∑ k : Fin K, lhs (ix2 p k) * rhs (ix2 k q) := by
  rw [Ideal.matmul_constant_zero_apply]
  exact contraction_eq lhs rhs p q

/-- The host's `dot_general` of plain dimension numbers, at `(p, q)`. -/
theorem dotGeneral_apply (prec : Option ContractPrecision) (sched : HostSchedule) (lhs : FVec Ideal ⟨2, ![M, K]⟩ .f32)
    (rhs : FVec Ideal ⟨2, ![K, N]⟩ .f32) (p : Fin M) (q : Fin N) :
    FloatOps.dotGeneral (DotDims.plain M K N) prec sched lhs rhs (ix2 p q) = ∑ k : Fin K, lhs (ix2 p k) * rhs (ix2 k q) := by
  rw [Ideal.dotGeneral_apply]
  exact contraction_eq lhs rhs p q

end Cert.PlainDot

end
-- ==== Proof.LibHostLin.lean ====
/-
  The host's dense layer, read at an entry.

  On the extended reals the host computes a dense layer of an [N, K] array x as max (x · W + b, 0): a product of plain
  dimension numbers, the bias vector b : [C] spread first to a row [1, C] and then over the N rows, and the maximum with
  the zero scalar spread over [N, C]. At the entry (p, q) that is max ((∑ k, x (p, k) · W (k, q)) + b q) 0; without the
  maximum, (∑ k, x (p, k) · W (k, q)) + b q. A bias vector reshaped to a row has entry (0, q) equal to entry q. The
  extents are arbitrary.
-/
import Idealize.ShloMosaic.Lib.ValueLayout
import Idealize.ShloMosaic.Lib.Pipeline.Value
import proofs.«112123_j61976378081862_2_alg».proof.Proof.LibPlainDot

noncomputable section

namespace HostLin

open Idealize.ShloMosaic Idealize.ShloMosaic.ValueIdx
open scoped BigOperators

variable {α : Type}

/-- A vector spread to a row and then over N rows: entry (p, q) is entry q. -/
theorem bias_bcast_apply {N C : Nat}
    (h1 : (⟨1, ![C]⟩ : Shape).BroadcastsInDim ⟨2, ![1, C]⟩ (![1] : Fin 1 → Fin 2))
    (h2 : (⟨2, ![1, C]⟩ : Shape).BroadcastsInDim ⟨2, ![N, C]⟩ (![0, 1] : Fin 2 → Fin 2))
    (b : (⟨1, ![C]⟩ : Shape).Idx → α) (p : Fin N) (q : Fin C) :
    broadcastInDim ⟨2, ![N, C]⟩ ![0, 1] h2 (broadcastInDim ⟨2, ![1, C]⟩ ![1] h1 b) (ix2 p q) = b (ix1 q) := by
  rw [broadcastInDim_apply ![0, 1] h2 _ (ix2 p q) (ix2 (0 : Fin 1) q) (fun a => by
    match a with
    | ⟨0, _⟩ => simp [ix2]
    | ⟨1, _⟩ =>
      show q.val = if C = 1 then 0 else q.val
      split_ifs with hC
      · subst hC; omega
      · rfl)]
  rw [broadcastInDim_apply ![1] h1 b (ix2 (0 : Fin 1) q) (ix1 q) (fun a => by
    match a with
    | ⟨0, _⟩ =>
      show q.val = if C = 1 then 0 else q.val
      split_ifs with hC
      · subst hC; omega
      · rfl)]

/-- A scalar spread over a shape is that scalar at every index. -/
theorem scalar_bcast_apply {t : Shape} (h : (⟨0, ![]⟩ : Shape).BroadcastsInDim t (![] : Fin 0 → Fin t.rank))
    (y : (⟨0, ![]⟩ : Shape).Idx → α) (i : t.Idx) : broadcastInDim t ![] h y i = y ix0 :=
  broadcastInDim_apply ![] h y i ix0 (fun a => a.elim0)

/-- A vector reshaped to a row: entry (0, q) is entry q. -/
theorem row_apply {C : Nat} (h : (⟨1, ![C]⟩ : Shape).ShapeCasts ⟨2, ![1, C]⟩) (b : (⟨1, ![C]⟩ : Shape).Idx → α) (q : Fin C) :
    shapeCast ⟨2, ![1, C]⟩ b h (ix2 (0 : Fin 1) q) = b (ix1 q) :=
  shapeCast_a_1a_apply b h 0 q

/-- The host's affine layer x · W + b at (p, q). -/
theorem affine_apply {N K C : Nat} (d : DotDims ⟨2, ![N, K]⟩ ⟨2, ![K, C]⟩ ⟨2, ![N, C]⟩) (hd : d = DotDims.plain N K C)
    (h1 : (⟨1, ![C]⟩ : Shape).BroadcastsInDim ⟨2, ![1, C]⟩ (![1] : Fin 1 → Fin 2))
    (h2 : (⟨2, ![1, C]⟩ : Shape).BroadcastsInDim ⟨2, ![N, C]⟩ (![0, 1] : Fin 2 → Fin 2))
    (x : FVec Ideal ⟨2, ![N, K]⟩ .f32) (W : FVec Ideal ⟨2, ![K, C]⟩ .f32) (b : FVec Ideal ⟨1, ![C]⟩ .f32) (p : Fin N) (q : Fin C) :
    addf (Host.dotGeneral d none x W) (broadcastInDim ⟨2, ![N, C]⟩ ![0, 1] h2 (broadcastInDim ⟨2, ![1, C]⟩ ![1] h1 b)) (ix2 p q)
      = (∑ k : Fin K, x (ix2 p k) * W (ix2 k q)) + b (ix1 q) := by
  subst hd
  rw [addf_apply, bias_bcast_apply]
  exact congrArg (· + b (ix1 q)) (Cert.PlainDot.dotGeneral_apply none .single x W p q)

/-- The host's dense layer max (x · W + b, 0) at (p, q). -/
theorem relu_apply {N K C : Nat} (d : DotDims ⟨2, ![N, K]⟩ ⟨2, ![K, C]⟩ ⟨2, ![N, C]⟩) (hd : d = DotDims.plain N K C)
    (h1 : (⟨1, ![C]⟩ : Shape).BroadcastsInDim ⟨2, ![1, C]⟩ (![1] : Fin 1 → Fin 2))
    (h2 : (⟨2, ![1, C]⟩ : Shape).BroadcastsInDim ⟨2, ![N, C]⟩ (![0, 1] : Fin 2 → Fin 2))
    (h0 : (⟨0, ![]⟩ : Shape).BroadcastsInDim ⟨2, ![N, C]⟩ (![] : Fin 0 → Fin 2))
    (x : FVec Ideal ⟨2, ![N, K]⟩ .f32) (W : FVec Ideal ⟨2, ![K, C]⟩ .f32) (b : FVec Ideal ⟨1, ![C]⟩ .f32) (p : Fin N) (q : Fin C) :
    maximumf (addf (Host.dotGeneral d none x W) (broadcastInDim ⟨2, ![N, C]⟩ ![0, 1] h2 (broadcastInDim ⟨2, ![1, C]⟩ ![1] h1 b)))
        (broadcastInDim ⟨2, ![N, C]⟩ ![] h0 (constant (F := Ideal) ⟨0, ![]⟩ .f32 0x00000000#32)) (ix2 p q)
      = max ((∑ k : Fin K, x (ix2 p k) * W (ix2 k q)) + b (ix1 q)) 0 := by
  rw [maximumf_apply, affine_apply d hd h1 h2, scalar_bcast_apply, constant_apply]
  exact congrArg (max _) Ideal.ofBits_zero_f32

end HostLin

end
-- ==== Proof.LibKeepdims.lean ====
/-
  Column vectors read at an index: what a keepdims row reduction needs.

  A row reduction that keeps its axis (a sum along the lanes of an [a, b] array, kept as an [a, 1] column and
  spread back over [a, b]) prints as three operations: the lane sum [a, b] → [a], a shape cast [a] → [a, 1] and
  a broadcast [a, 1] → [a, b]. Each is read here at an index written with explicit coordinates:
    • the sum, at p, is ∑_k of the source at (p, k);
    • the cast, at (p, 0), is the vector at p (row-major position p · 1 + 0 = p on both sides);
    • the broadcast, at (p, q), is the column at (p, 0).
  All three are stated for any extents a and b.
-/
import Idealize.ShloMosaic.Lib.Pipeline.Value
import Idealize.ShloMosaic.Lib.ValueIdx
import Idealize.ShloMosaic.PureOps.Ideal.Laws

namespace Keepdims

open Idealize.ShloMosaic Idealize.ShloMosaic.ValueIdx

variable {α : Type}

/-- A vector of length a viewed as an [a, 1] column reads, at (p, z), the vector at p: the column's second
    coordinate can only be 0, so both indices sit at row-major position p. -/
theorem shapeCast_a_a1_apply {a : ℕ} (v : (⟨1, ![a]⟩ : Shape).Idx → α)
    (h : (⟨1, ![a]⟩ : Shape).ShapeCasts ⟨2, ![a, 1]⟩) (p : Fin a) (z : Fin 1) :
    shapeCast ⟨2, ![a, 1]⟩ v h (ix2 p z) = v (ix1 p) := by
  refine shapeCast_apply v h (ix2 p z) (ix1 p) ?_
  rw [Shape.rowMajor_val_one, Shape.rowMajor_val_two]
  show p.val = p.val * 1 + z.val
  have := z.isLt; omega

/-- An [a, 1] column spread over [a, b] reads, at (p, q), the column at (p, 0): the row coordinate is kept
    (also when a = 1, where it can only be 0) and the unit axis is read at 0. -/
theorem broadcastTo_a1_ab_apply {a b : ℕ} (v : (⟨2, ![a, 1]⟩ : Shape).Idx → α)
    (h : (⟨2, ![a, 1]⟩ : Shape).Broadcasts ⟨2, ![a, b]⟩) (p : Fin a) (q : Fin b) :
    broadcastTo ⟨2, ![a, b]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ => rfl

/-- The index of an [a, b] array that lies over p of the reduced [a] with lane k put back is (p, k). -/
theorem lift_lane {a b : ℕ} (h : (⟨2, ![a, b]⟩ : Shape).Reduces [1] (⟨1, ![a]⟩ : Shape)) (p : Fin a)
    (k : Fin ((⟨2, ![a, b]⟩ : Shape).size 1)) : h.lift (ix1 p) k = ix2 p (⟨k.val, k.isLt⟩ : Fin b) := by
  funext c; apply Fin.ext
  fin_cases c <;> rfl

/-- On the extended reals the sum of an [a, b] array along its lanes is, at p, the sum over k of the entries
    (p, k): the reduction starts from the zero word, the neutral element of the sum, and there is no rounding
    for the order of the additions to matter. -/
theorem laneSum_apply {a b : ℕ} (src : FVec Ideal ⟨2, ![a, b]⟩ .f32)
    (h : (⟨2, ![a, b]⟩ : Shape).Reduces [1] (⟨1, ![a]⟩ : Shape)) (hφ : FKind.Formats .f32)
    (hacc : (0x00000000#32 : BitVec 32) = 0x00000000#32) (p : Fin a) :
    multiReduction (F := Ideal) .add [1] ⟨1, ![a]⟩ src 0x00000000#32 h hφ hacc (ix1 p) = ∑ k : Fin b, src (ix2 p k) := by
  refine (Ideal.multiReduction_add_single src 0x00000000#32 h hφ hacc (ix1 p)).trans ?_
  exact Finset.sum_congr rfl fun k _ => congrArg src (lift_lane h p k)

end Keepdims
-- ==== Proof.LibScaledDense.lean ====
/-
  A dense layer whose input rows are first scaled by a column of row factors, read at an entry, for any extents.

  The layer takes x : [N, K], a column s : [N, 1] of row factors, weights W : [K, C] and a bias b : [C]; its affine part
  at (p, q) is (∑ k, (x (p, k) · s (p, 0)) · W (k, q)) + b q. Two arrangements compute it on the extended reals, and
  both are read here at an entry: a kernel tile (the factors spread along the lanes, both operands narrowed to bf16,
  which changes nothing on the extended reals, a matrix product into the zero accumulator, the bias made a one-row
  matrix and spread over the rows) and the host (the factors spread by broadcast_in_dim, a dot_general, the bias
  spread twice). On top of the affine part: the maximum with zero followed by a second row scaling, a slice of columns,
  and the exponential of half an entry, which a kernel writes as a product with the word of 0.5 and the host as a
  quotient by the word of 2: on the extended reals the quotient by the real 2 IS the product with 1/2, at every
  extended real.
-/
import Idealize.ShloMosaic.PureOps.Ideal.Laws
import Idealize.ShloMosaic.Lib.ValueIdx
import Idealize.ShloMosaic.Lib.ValueLayout
import Idealize.ShloMosaic.Lib.Pipeline.Value
import proofs.«112123_j61976378081862_2_alg».proof.Proof.LibPlainDot
import proofs.«112123_j61976378081862_2_alg».proof.Proof.LibHostLin
import proofs.«112123_j61976378081862_2_alg».proof.Proof.LibKeepdims

noncomputable section

namespace ScaledDense

open Idealize.ShloMosaic Idealize.ShloMosaic.ValueIdx
open scoped BigOperators

/-- The scaled product at (r, q): ∑ k, (x (r, k) · s (r, 0)) · W (k, q). -/
def rowDot {B K C : ℕ} (x : (⟨2, ![B, K]⟩ : Shape).Idx → EReal) (s : (⟨2, ![B, 1]⟩ : Shape).Idx → EReal)
    (W : (⟨2, ![K, C]⟩ : Shape).Idx → EReal) (r : Fin B) (q : Fin C) : EReal :=
  ∑ k : Fin K, (x (ix2 r k) * s (ix2 r (0 : Fin 1))) * W (ix2 k q)

/-- The scaled product of row r of a block is the scaled product of the row p of the array the block's row is. -/
theorem rowDot_congr {B N K C : ℕ} {x : (⟨2, ![B, K]⟩ : Shape).Idx → EReal} {s : (⟨2, ![B, 1]⟩ : Shape).Idx → EReal}
    {W W' : (⟨2, ![K, C]⟩ : Shape).Idx → EReal} {A : (⟨2, ![N, K]⟩ : Shape).Idx → EReal} {S : (⟨2, ![N, 1]⟩ : Shape).Idx → EReal}
    {r : Fin B} {p : Fin N} (q : Fin C) (hx : ∀ k, x (ix2 r k) = A (ix2 p k)) (hs : s (ix2 r (0 : Fin 1)) = S (ix2 p (0 : Fin 1)))
    (hW : ∀ k, W (ix2 k q) = W' (ix2 k q)) : rowDot x s W r q = rowDot A S W' p q := by
  unfold rowDot
  refine Finset.sum_congr rfl fun k _ => ?_
  rw [hx k, hs, hW k]

/-! ## A kernel tile -/

/-- The tile's product: rows scaled along the lanes, operands narrowed, product into the zero accumulator. -/
theorem tile_dot_apply {B K C : ℕ} (d : DotDims ⟨2, ![B, K]⟩ ⟨2, ![K, C]⟩ ⟨2, ![B, C]⟩) (hd : d = DotDims.plain B K C)
    (hc0 : (⟨2, ![B, K]⟩ : Shape).ShapeCasts ⟨2, ![B, K]⟩) (hc1 : (⟨2, ![B, 1]⟩ : Shape).ShapeCasts ⟨2, ![B, 1]⟩)
    (hb : (⟨2, ![B, 1]⟩ : Shape).Broadcasts ⟨2, ![B, K]⟩) (ht : FTy.bf16.bits < FTy.f32.bits)
    (x : FVec Ideal ⟨2, ![B, K]⟩ .f32) (s : FVec Ideal ⟨2, ![B, 1]⟩ .f32) (W : FVec Ideal ⟨2, ![K, C]⟩ .f32) (r : Fin B) (q : Fin C) :
    matmul d none (truncf .bf16 (mulf (shapeCast ⟨2, ![B, K]⟩ x hc0) (broadcastTo ⟨2, ![B, K]⟩ (shapeCast ⟨2, ![B, 1]⟩ s hc1) hb)) ht)
        (truncf .bf16 W ht) (constant ⟨2, ![B, C]⟩ .f32 0x00000000#32) (ix2 r q)
      = rowDot x s W r q := by
  subst hd
  refine (Ideal.matmul_constant_zero_apply _ none _ _ (ix2 r q)).trans ?_
  refine (Cert.PlainDot.contraction_eq _ _ r q).trans ?_
  unfold rowDot
  refine Finset.sum_congr rfl fun k _ => ?_
  simp only [truncf_apply, mulf_apply, shapeCast_self, Keepdims.broadcastTo_a1_ab_apply]

/-- The tile's affine part: the product plus the bias made a one-row matrix and spread over the rows. -/
theorem tile_affine_apply {B K C : ℕ} (d : DotDims ⟨2, ![B, K]⟩ ⟨2, ![K, C]⟩ ⟨2, ![B, C]⟩) (hd : d = DotDims.plain B K C)
    (hc0 : (⟨2, ![B, K]⟩ : Shape).ShapeCasts ⟨2, ![B, K]⟩) (hc1 : (⟨2, ![B, 1]⟩ : Shape).ShapeCasts ⟨2, ![B, 1]⟩)
    (hb : (⟨2, ![B, 1]⟩ : Shape).Broadcasts ⟨2, ![B, K]⟩) (ht : FTy.bf16.bits < FTy.f32.bits)
    (hr : (⟨1, ![C]⟩ : Shape).ShapeCasts ⟨2, ![1, C]⟩) (hrb : (⟨2, ![1, C]⟩ : Shape).Broadcasts ⟨2, ![B, C]⟩)
    (x : FVec Ideal ⟨2, ![B, K]⟩ .f32) (s : FVec Ideal ⟨2, ![B, 1]⟩ .f32) (W : FVec Ideal ⟨2, ![K, C]⟩ .f32)
    (b : FVec Ideal ⟨1, ![C]⟩ .f32) (r : Fin B) (q : Fin C) :
    addf (matmul d none (truncf .bf16 (mulf (shapeCast ⟨2, ![B, K]⟩ x hc0) (broadcastTo ⟨2, ![B, K]⟩ (shapeCast ⟨2, ![B, 1]⟩ s hc1) hb)) ht)
          (truncf .bf16 W ht) (constant ⟨2, ![B, C]⟩ .f32 0x00000000#32))
        (broadcastTo ⟨2, ![B, C]⟩ (shapeCast ⟨2, ![1, C]⟩ b hr) hrb) (ix2 r q)
      = rowDot x s W r q + b (ix1 q) := by
  rw [addf_apply, tile_dot_apply d hd hc0 hc1 hb ht x s W r q, broadcastTo_1b_ab_apply, shapeCast_a_1a_apply]

/-- The tile of the first layer: the maximum of the affine part with zero, times a second column of row factors. -/
theorem tile_relu_scaled_apply {B K C : ℕ} (d : DotDims ⟨2, ![B, K]⟩ ⟨2, ![K, C]⟩ ⟨2, ![B, C]⟩) (hd : d = DotDims.plain B K C)
    (hc0 : (⟨2, ![B, K]⟩ : Shape).ShapeCasts ⟨2, ![B, K]⟩) (hc1 : (⟨2, ![B, 1]⟩ : Shape).ShapeCasts ⟨2, ![B, 1]⟩)
    (hb : (⟨2, ![B, 1]⟩ : Shape).Broadcasts ⟨2, ![B, K]⟩) (ht : FTy.bf16.bits < FTy.f32.bits)
    (hr : (⟨1, ![C]⟩ : Shape).ShapeCasts ⟨2, ![1, C]⟩) (hrb : (⟨2, ![1, C]⟩ : Shape).Broadcasts ⟨2, ![B, C]⟩)
    (hb2 : (⟨2, ![B, 1]⟩ : Shape).Broadcasts ⟨2, ![B, C]⟩)
    (x : FVec Ideal ⟨2, ![B, K]⟩ .f32) (s : FVec Ideal ⟨2, ![B, 1]⟩ .f32) (W : FVec Ideal ⟨2, ![K, C]⟩ .f32)
    (b : FVec Ideal ⟨1, ![C]⟩ .f32) (s2 : FVec Ideal ⟨2, ![B, 1]⟩ .f32) (r : Fin B) (q : Fin C) :
    mulf (maximumf
          (addf (matmul d none (truncf .bf16 (mulf (shapeCast ⟨2, ![B, K]⟩ x hc0) (broadcastTo ⟨2, ![B, K]⟩ (shapeCast ⟨2, ![B, 1]⟩ s hc1) hb)) ht)
              (truncf .bf16 W ht) (constant ⟨2, ![B, C]⟩ .f32 0x00000000#32))
            (broadcastTo ⟨2, ![B, C]⟩ (shapeCast ⟨2, ![1, C]⟩ b hr) hrb))
          (broadcast ⟨2, ![B, C]⟩ (Scalar.ofBits (F := Ideal) .f32 0x00000000#32)))
        (broadcastTo ⟨2, ![B, C]⟩ (shapeCast ⟨2, ![B, 1]⟩ s2 hc1) hb2) (ix2 r q)
      = max (rowDot x s W r q + b (ix1 q)) 0 * s2 (ix2 r (0 : Fin 1)) := by
  rw [mulf_apply, maximumf_apply, tile_affine_apply d hd hc0 hc1 hb ht hr hrb x s W b r q, broadcast_apply,
    Keepdims.broadcastTo_a1_ab_apply, shapeCast_self]
  exact congrArg (fun z => max (rowDot x s W r q + b (ix1 q)) z * s2 (ix2 r (0 : Fin 1))) Ideal.ofBits_zero_f32

/-! ## The host -/

/-- A column of row factors spread over [N, K] by broadcast_in_dim reads, at (p, k), the column at (p, 0). -/
theorem col_bcast_apply {α : Type} {N K : ℕ}
    (h : (⟨2, ![N, 1]⟩ : Shape).BroadcastsInDim ⟨2, ![N, K]⟩ (![0, 1] : Fin 2 → Fin 2))
    (s : (⟨2, ![N, 1]⟩ : Shape).Idx → α) (p : Fin N) (k : Fin K) :
    broadcastInDim ⟨2, ![N, K]⟩ ![0, 1] h s (ix2 p k) = s (ix2 p (0 : Fin 1)) := by
  refine broadcastInDim_apply ![0, 1] h s (ix2 p k) (ix2 p (0 : Fin 1)) fun a => ?_
  match a with
  | ⟨0, _⟩ =>
    show p.val = if N = 1 then 0 else p.val
    split_ifs with hN
    · subst hN; omega
    · rfl
  | ⟨1, _⟩ => simp [ix2]

/-- The host's affine part over scaled rows at (p, q). -/
theorem host_affine_apply {N K C : ℕ} (d : DotDims ⟨2, ![N, K]⟩ ⟨2, ![K, C]⟩ ⟨2, ![N, C]⟩) (hd : d = DotDims.plain N K C)
    (hs : (⟨2, ![N, 1]⟩ : Shape).BroadcastsInDim ⟨2, ![N, K]⟩ (![0, 1] : Fin 2 → Fin 2))
    (h1 : (⟨1, ![C]⟩ : Shape).BroadcastsInDim ⟨2, ![1, C]⟩ (![1] : Fin 1 → Fin 2))
    (h2 : (⟨2, ![1, C]⟩ : Shape).BroadcastsInDim ⟨2, ![N, C]⟩ (![0, 1] : Fin 2 → Fin 2))
    (x : FVec Ideal ⟨2, ![N, K]⟩ .f32) (s : FVec Ideal ⟨2, ![N, 1]⟩ .f32) (W : FVec Ideal ⟨2, ![K, C]⟩ .f32)
    (b : FVec Ideal ⟨1, ![C]⟩ .f32) (p : Fin N) (q : Fin C) :
    addf (Host.dotGeneral d none (mulf x (broadcastInDim ⟨2, ![N, K]⟩ ![0, 1] hs s)) W)
        (broadcastInDim ⟨2, ![N, C]⟩ ![0, 1] h2 (broadcastInDim ⟨2, ![1, C]⟩ ![1] h1 b)) (ix2 p q)
      = rowDot x s W p q + b (ix1 q) := by
  rw [HostLin.affine_apply d hd h1 h2]
  unfold rowDot
  refine congrArg (· + b (ix1 q)) (Finset.sum_congr rfl fun k _ => ?_)
  rw [mulf_apply, col_bcast_apply]

/-- The host's first layer: the maximum of the affine part with the zero scalar, times the second column spread. -/
theorem host_relu_scaled_apply {N K C : ℕ} (d : DotDims ⟨2, ![N, K]⟩ ⟨2, ![K, C]⟩ ⟨2, ![N, C]⟩) (hd : d = DotDims.plain N K C)
    (hs : (⟨2, ![N, 1]⟩ : Shape).BroadcastsInDim ⟨2, ![N, K]⟩ (![0, 1] : Fin 2 → Fin 2))
    (h1 : (⟨1, ![C]⟩ : Shape).BroadcastsInDim ⟨2, ![1, C]⟩ (![1] : Fin 1 → Fin 2))
    (h2 : (⟨2, ![1, C]⟩ : Shape).BroadcastsInDim ⟨2, ![N, C]⟩ (![0, 1] : Fin 2 → Fin 2))
    (h0 : (⟨0, ![]⟩ : Shape).BroadcastsInDim ⟨2, ![N, C]⟩ (![] : Fin 0 → Fin 2))
    (hs2 : (⟨2, ![N, 1]⟩ : Shape).BroadcastsInDim ⟨2, ![N, C]⟩ (![0, 1] : Fin 2 → Fin 2))
    (x : FVec Ideal ⟨2, ![N, K]⟩ .f32) (s : FVec Ideal ⟨2, ![N, 1]⟩ .f32) (W : FVec Ideal ⟨2, ![K, C]⟩ .f32)
    (b : FVec Ideal ⟨1, ![C]⟩ .f32) (s2 : FVec Ideal ⟨2, ![N, 1]⟩ .f32) (p : Fin N) (q : Fin C) :
    mulf (maximumf
          (addf (Host.dotGeneral d none (mulf x (broadcastInDim ⟨2, ![N, K]⟩ ![0, 1] hs s)) W)
            (broadcastInDim ⟨2, ![N, C]⟩ ![0, 1] h2 (broadcastInDim ⟨2, ![1, C]⟩ ![1] h1 b)))
          (broadcastInDim ⟨2, ![N, C]⟩ ![] h0 (constant (F := Ideal) ⟨0, ![]⟩ .f32 0x00000000#32)))
        (broadcastInDim ⟨2, ![N, C]⟩ ![0, 1] hs2 s2) (ix2 p q)
      = max (rowDot x s W p q + b (ix1 q)) 0 * s2 (ix2 p (0 : Fin 1)) := by
  rw [mulf_apply, maximumf_apply, host_affine_apply d hd hs h1 h2, HostLin.scalar_bcast_apply, constant_apply, col_bcast_apply]
  exact congrArg (fun z => max (rowDot x s W p q + b (ix1 q)) z * s2 (ix2 p (0 : Fin 1))) Ideal.ofBits_zero_f32

/-! ## Columns o … o + C − 1 of an array -/

/-- A slice of C columns starting at column o, all rows kept, reads at (p, q) the array at (p, o + q). -/
theorem colSlice_apply {α : Type} {N C2 C o : ℕ} (ho : o + C ≤ C2) (y : (⟨2, ![N, C2]⟩ : Shape).Idx → α)
    (hs : (⟨2, ![N, C2]⟩ : Shape).Slices (![0, o] : Fin 2 → ℕ) ⟨2, ![N, C]⟩) (p : Fin N) (q : Fin C) :
    extractStridedSlice ⟨2, ![N, C]⟩ ![0, o] y hs (ix2 p q) = y (ix2 p (⟨o + q.val, by omega⟩ : Fin C2)) := by
  refine extractStridedSlice_apply ![0, o] y hs (ix2 p q) _ fun a => ?_
  match a with
  | ⟨0, _⟩ => exact (Nat.zero_add _).symm
  | ⟨1, _⟩ => rfl

/-! ## Half of an entry -/

/-- The word of 2.0 denotes the real 2. -/
theorem ofBits_two : Ideal.ofBits .f32 0x40000000#32 = ((2 : ℝ) : EReal) := by
  simp [Ideal.ofBits, Ideal.ieee, -EReal.coe_mul]; norm_num

/-- The word of 0.5 denotes the real 1/2. -/
theorem ofBits_half : Ideal.ofBits .f32 0x3F000000#32 = ((1 / 2 : ℝ) : EReal) := by
  simp [Ideal.ofBits, Ideal.ieee, -EReal.coe_mul]; norm_num

/-- On the extended reals the quotient by the word of 2.0 is the product with the word of 0.5, at every extended real. -/
theorem div_two_eq_mul_half (x : EReal) :
    Ideal.div x (Ideal.ofBits .f32 0x40000000#32) = x * Ideal.ofBits .f32 0x3F000000#32 := by
  rw [ofBits_two, ofBits_half]
  exact Ideal.div_coe (by norm_num : (2 : ℝ) ≠ 0) x

/-- exp of half an entry as a kernel writes it: the product with the 0.5 word spread over the tile. -/
theorem tile_exp_half_apply {s : Shape} (y : FVec Ideal s .f32) (i : s.Idx) :
    exp (mulf y (broadcast s (Scalar.ofBits (F := Ideal) .f32 0x3F000000#32))) i = Ideal.exp (y i * Ideal.ofBits .f32 0x3F000000#32) := rfl

/-- exp of half an entry as the host writes it: the quotient by the 2.0 scalar spread over the array. -/
theorem host_exp_half_apply {s : Shape} (h0 : (⟨0, ![]⟩ : Shape).BroadcastsInDim s (![] : Fin 0 → Fin s.rank)) (y : FVec Ideal s .f32) (i : s.Idx) :
    Host.exp (Host.divf y (broadcastInDim s ![] h0 (constant (F := Ideal) ⟨0, ![]⟩ .f32 0x40000000#32))) i
      = Ideal.exp (y i * Ideal.ofBits .f32 0x3F000000#32) := by
  show Ideal.exp (Ideal.div (y i) (broadcastInDim s ![] h0 (constant (F := Ideal) ⟨0, ![]⟩ .f32 0x40000000#32) i)) = _
  rw [HostLin.scalar_bcast_apply, constant_apply, div_two_eq_mul_half]

end ScaledDense

end
-- ==== Proof.Region0.lean ====
/-
  The first dense layer as the grid of 25 row blocks computes it.

  Point t of the grid takes rows 2000·t … 2000·t + 1999 of the aggregated messages and of the two columns of degree
  factors, and the whole weight matrix and bias; its body stores max ((rows scaled by the first column) · W + b, 0)
  scaled by the second column into rows 2000·t … 2000·t + 1999 of the result. Entry (p, q) of the dense layer depends on
  row p of its inputs only, so block t of the result is block t of the layer taken of the whole arrays; the 25 blocks
  tile the 50000 rows, so the array the region leaves is the layer of the arrays the region found.
-/
import proofs.«112123_j61976378081862_2_alg».proof.Proof.Gen.KernelIdeal.Frame
import proofs.«112123_j61976378081862_2_alg».proof.Proof.Spec
import proofs.«112123_j61976378081862_2_alg».proof.Proof.LibScaledDense
import Idealize.ShloMosaic.Lib.Pipeline.Value
import Idealize.ShloMosaic.Lib.ValueIdx

set_option maxRecDepth 16384

noncomputable section

namespace Cert.KernelIdeal.Region0

open Cert.KernelIdeal Cert.KernelIdeal.Gen
open Idealize.ShloMosaic Idealize.ShloMosaic.TcCoe Idealize.ShloMosaic.ValueIdx Idealize.SL.Sem
open Idealize.ShloMosaic.Pipeline (Dat)

theorem hz2 : (![0, 0] : Fin 2 → Nat) = fun _ => 0 := funext fun a => by fin_cases a <;> rfl
theorem hz1 : (![0] : Fin 1 → Nat) = fun _ => 0 := funext fun a => by fin_cases a <;> rfl

/-- One entry of a tile: row r of the tile's blocks being row p of the arrays, the body's value at (r, q) is the layer's
    value at (p, q). -/
theorem tile_eq (x0 : Vec Ideal S2000x64 .f32) (x1 x2 : Vec Ideal S2000x1 .f32) (x3 : Vec Ideal S64x32 .f32) (x4 : Vec Ideal S32 .f32)
    (A : FVec Ideal Cert.ReferenceIdeal.S50000x64 .f32) (S S2 : FVec Ideal Cert.ReferenceIdeal.S50000x1 .f32)
    (W : FVec Ideal Cert.ReferenceIdeal.S64x32 .f32) (b : FVec Ideal Cert.ReferenceIdeal.S32 .f32)
    (r : Fin 2000) (q : Fin 32) (p : Fin 50000)
    (h0 : ∀ k : Fin 64, x0 (ix2 r k) = A (ix2 p k)) (h1 : x1 (ix2 r (0 : Fin 1)) = S (ix2 p (0 : Fin 1)))
    (h2 : x2 (ix2 r (0 : Fin 1)) = S2 (ix2 p (0 : Fin 1))) (h3 : ∀ k : Fin 64, x3 (ix2 k q) = W (ix2 k q))
    (h4 : x4 (ix1 q) = b (ix1 q)) :
    k0_pay1 x0 x1 x3 x4 x2 (ix2 r q) = Cert.Spec.layer1 A S W b S2 (ix2 p q) := by
  refine (ScaledDense.tile_relu_scaled_apply (B := 2000) (K := 64) (C := 32) dot_S2000x64_S64x32_S2000x32_1_0_0_1_n_n rfl
    shapeCasts_S2000x64_S2000x64 shapeCasts_S2000x1_S2000x1 broadcasts_S2000x1_S2000x64 bitsLt_bf16_f32 shapeCasts_S32_S1x32
    broadcasts_S1x32_S2000x32 broadcasts_S2000x1_S2000x32 x0 x1 x3 x4 x2 r q).trans ?_
  unfold Cert.Spec.layer1
  refine Eq.symm ((ScaledDense.host_relu_scaled_apply (N := 50000) (K := 64) (C := 32) _ rfl _ _ _ _ _ A S W b S2 p q).trans ?_)
  rw [ScaledDense.rowDot_congr q h0 h1 h3, h4, h2]

variable (V : (c : Dev nD) → (b : Ref sig .tc) → Buf (Elt Ideal) ((c : Thread nD τ).loc b))

/-- The layer of the arrays the region finds. -/
abbrev G (c : Dev nD) : FVec Ideal Cert.ReferenceIdeal.S50000x32 .f32 :=
  Cert.Spec.layer1 (V c main_v26) (V c main_v14) (V c main_arg1) (V c main_arg2) (V c main_v13)

/-- The printed index maps over the grid: the row-blocked windows sit at block row t, the weights and the bias at block 0. -/
theorem idx_facts : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 1) = 0
    ∧ win0_5.index t (0 : Fin 2) = t.val ∧ win0_5.index t (1 : Fin 2) = 0 :=
  (by decide +kernel : ∀ t : Fin grid0.N, _)

/-- WHAT POINT t WRITES BACK is block t of the layer of the whole arrays. -/
theorem flushed_eq (c : Dev nD) (t : Fin cfg0.N) :
    (dat0 V c).flushed 5 t = ((cfg0.win 5).blk t).view.read (Elt Ideal) (G V c) := by
  show (cfg0.win 5).cut (grid0.coords t) ((dat0 V c).after 5 t) = _
  rw [after0_5]
  unfold out0_5
  rw [View.canon_unit_zero hz2]
  simp only [View.ld_unit_zero (S := S2000x64) hz2, View.ld_unit_zero (S := S2000x1) hz2, View.ld_unit_zero (S := S64x32) hz2,
    View.ld_unit_zero (S := S32) hz1]
  obtain ⟨e00, e01, e10, e11, e20, e21, e30, e31, e40, e50, e51⟩ := idx_facts t
  have hN : cfg0.N = 25 := N_0
  have ht : t.val < 25 := hN ▸ t.isLt
  funext j
  show k0_pay1 (iblk0 V c 0 t) (iblk0 V c 1 t) (iblk0 V c 3 t) (iblk0 V c 4 t) (iblk0 V c 2 t) j
    = G V c (((cfg0.win 5).blk t).view.emb j)
  obtain ⟨r, q, rfl⟩ : ∃ (r : Fin 2000) (q : Fin 32), j = ix2 r q := ⟨j 0, j 1, eq_ix2 j⟩
  have hr := r.isLt
  have hq := q.isLt
  have hemb : ((cfg0.win 5).blk t).view.emb (ix2 r q) = ix2 (⟨2000 * t.val + r.val, by omega⟩ : Fin 50000) q := by
    funext a; apply Fin.ext
    match a with
    | ⟨0, _⟩ => show win0_5.index t (0 : Fin 2) * 2000 + 1 * r.val = 2000 * t.val + r.val; rw [e50]; omega
    | ⟨1, _⟩ => show win0_5.index t (1 : Fin 2) * 32 + 1 * q.val = q.val; rw [e51]; omega
  rw [hemb]
  refine tile_eq _ _ _ _ _ _ _ _ _ _ r q _ (fun k => ?_) ?_ ?_ (fun k => ?_) ?_
  · show V c main_v26 (((cfg0.win 0).blk t).view.emb (ix2 r k)) = V c main_v26 _
    congr 1; funext a; apply Fin.ext
    have hk := k.isLt
    match a with
    | ⟨0, _⟩ => show win0_0.index t (0 : Fin 2) * 2000 + 1 * r.val = 2000 * t.val + r.val; rw [e00]; omega
    | ⟨1, _⟩ => show win0_0.index t (1 : Fin 2) * 64 + 1 * k.val = k.val; rw [e01]; omega
  · show V c main_v14 (((cfg0.win 1).blk t).view.emb (ix2 r (0 : Fin 1))) = V c main_v14 _
    congr 1; funext a; apply Fin.ext
    match a with
    | ⟨0, _⟩ => show win0_1.index t (0 : Fin 2) * 2000 + 1 * r.val = 2000 * t.val + r.val; rw [e10]; omega
    | ⟨1, _⟩ => show win0_1.index t (1 : Fin 2) * 1 + 1 * 0 = 0; rw [e11]
  · show V c main_v13 (((cfg0.win 2).blk t).view.emb (ix2 r (0 : Fin 1))) = V c main_v13 _
    congr 1; funext a; apply Fin.ext
    match a with
    | ⟨0, _⟩ => show win0_2.index t (0 : Fin 2) * 2000 + 1 * r.val = 2000 * t.val + r.val; rw [e20]; omega
    | ⟨1, _⟩ => show win0_2.index t (1 : Fin 2) * 1 + 1 * 0 = 0; rw [e21]
  · show V c main_arg1 (((cfg0.win 3).blk t).view.emb (ix2 k q)) = V c main_arg1 _
    congr 1; funext a; apply Fin.ext
    have hk := k.isLt
    match a with
    | ⟨0, _⟩ => show win0_3.index t (0 : Fin 2) * 64 + 1 * k.val = k.val; rw [e30]; omega
    | ⟨1, _⟩ => show win0_3.index t (1 : Fin 2) * 32 + 1 * q.val = q.val; rw [e31]; omega
  · show V c main_arg2 (((cfg0.win 4).blk t).view.emb (ix1 q)) = V c main_arg2 _
    congr 1; funext a; apply Fin.ext
    match a with
    | ⟨0, _⟩ => show win0_4.index t (0 : Fin 1) * 32 + 1 * q.val = q.val; rw [e40]; omega

/-- An index of the result array is in point t's block iff each coordinate is in the block's range on its axis. -/
theorem mem_blk (t : Fin cfg0.N) (i : S50000x32.Idx) :
    i ∈ ((cfg0.win 5).blk t).view.set ↔ ∀ a : Fin 2, win0_5.index t a * S2000x32.size a ≤ (i a).val ∧ (i a).val < win0_5.index t a * S2000x32.size a + S2000x32.size a := by
  show i ∈ ((View.whole main_v27).slice (win0_5.rect t)).set ↔ _
  rw [View.set_slice_whole, Rect.mem_set_unit]
  exact Iff.rfl

/-- THE ARRAY the region leaves is the layer of the arrays it found: row p lies in the block of point p / 2000. -/
theorem final (c : Dev nD) : (dat0 V c).arrAt 5 cfg0.N = G V c :=
  (dat0 V c).arrAt_eq_of_cover 5 (G V c) (fun t _ => flushed_eq V c t) fun i => by
    have hN : cfg0.N = 25 := N_0
    have hi0 : (i 0).val < 50000 := (i 0).isLt
    have hi1 : (i 1).val < 32 := (i 1).isLt
    refine ⟨⟨(i 0).val / 2000, by rw [hN]; omega⟩, flush0_5 _, ?_⟩
    obtain ⟨-, -, -, -, -, -, -, -, -, e50, e51⟩ := idx_facts ⟨(i 0).val / 2000, by rw [hN]; omega⟩
    rw [mem_blk]
    intro a
    match a with
    | ⟨0, _⟩ =>
      show win0_5.index _ (0 : Fin 2) * 2000 ≤ (i 0).val ∧ (i 0).val < win0_5.index _ (0 : Fin 2) * 2000 + 2000
      rw [e50]; show (i 0).val / 2000 * 2000 ≤ (i 0).val ∧ (i 0).val < (i 0).val / 2000 * 2000 + 2000; omega
    | ⟨1, _⟩ =>
      show win0_5.index _ (1 : Fin 2) * 32 ≤ (i 1).val ∧ (i 1).val < win0_5.index _ (1 : Fin 2) * 32 + 32
      rw [e51]; omega

end Cert.KernelIdeal.Region0

end
-- ==== Proof.Region1.lean ====
/-
  The second dense layer and the reparameterisation as the grid of 25 row blocks computes them.

  Point t takes rows 2000·t … 2000·t + 1999 of the aggregated messages, of the column of degree factors and of the noise ε,
  and the whole weight matrix and bias. Its body forms the affine part (rows scaled by the column) · W + b of width 64,
  and stores its first 32 columns (μ), the exponential of half of its last 32 columns (σ: a product with the word of 0.5,
  where the host divides by the word of 2.0 — the same extended real), and μ + σ · ε, each into rows 2000·t … 2000·t + 1999
  of its result. Every entry depends on one row of the inputs, so each block is the block of the whole-array function, and the 25
  blocks tile the 50000 rows.
-/
import proofs.«112123_j61976378081862_2_alg».proof.Proof.Gen.KernelIdeal.Frame
import proofs.«112123_j61976378081862_2_alg».proof.Proof.Spec
import proofs.«112123_j61976378081862_2_alg».proof.Proof.LibScaledDense
import Idealize.ShloMosaic.Lib.Pipeline.Value
import Idealize.ShloMosaic.Lib.ValueIdx

set_option maxRecDepth 16384

noncomputable section

namespace Cert.KernelIdeal.Region1

open Cert.KernelIdeal Cert.KernelIdeal.Gen
open Idealize.ShloMosaic Idealize.ShloMosaic.TcCoe Idealize.ShloMosaic.ValueIdx Idealize.SL.Sem
open Idealize.ShloMosaic.Pipeline (Dat)

theorem hz2 : (![0, 0] : Fin 2 → Nat) = fun _ => 0 := funext fun a => by fin_cases a <;> rfl
theorem hz1 : (![0] : Fin 1 → Nat) = fun _ => 0 := funext fun a => by fin_cases a <;> rfl

section Tile

variable (x0 : Vec Ideal S2000x32 .f32) (x1 : Vec Ideal S2000x1 .f32) (x2 : Vec Ideal S32x64 .f32) (x3 : Vec Ideal S64 .f32)
  (x4 : Vec Ideal S2000x32 .f32)
  (A : FVec Ideal Cert.ReferenceIdeal.S50000x32 .f32) (S : FVec Ideal Cert.ReferenceIdeal.S50000x1 .f32)
  (W : FVec Ideal Cert.ReferenceIdeal.S32x64 .f32) (b : FVec Ideal Cert.ReferenceIdeal.S64 .f32)
  (E : FVec Ideal Cert.ReferenceIdeal.S50000x32 .f32)
  (r : Fin 2000) (p : Fin 50000)
  (h0 : ∀ k : Fin 32, x0 (ix2 r k) = A (ix2 p k)) (h1 : x1 (ix2 r (0 : Fin 1)) = S (ix2 p (0 : Fin 1)))
  (h2 : ∀ (k : Fin 32) (q : Fin 64), x2 (ix2 k q) = W (ix2 k q)) (h3 : ∀ q : Fin 64, x3 (ix1 q) = b (ix1 q))

include h0 h1 h2 h3

/-- One entry of the tile's affine part: row r of the blocks being row p of the arrays. -/
theorem acc_tile (q : Fin 64) : k1_pay1 x0 x1 x2 x3 (ix2 r q) = Cert.Spec.affine2 A S W b (ix2 p q) := by
  refine (ScaledDense.tile_affine_apply (B := 2000) (K := 32) (C := 64) dot_S2000x32_S32x64_S2000x64_1_0_0_1_n_n rfl
    shapeCasts_S2000x32_S2000x32 shapeCasts_S2000x1_S2000x1 broadcasts_S2000x1_S2000x32 bitsLt_bf16_f32 shapeCasts_S64_S1x64
    broadcasts_S1x64_S2000x64 x0 x1 x2 x3 r q).trans ?_
  unfold Cert.Spec.affine2
  refine Eq.symm ((ScaledDense.host_affine_apply (N := 50000) (K := 32) (C := 64) _ rfl _ _ _ A S W b p q).trans ?_)
  rw [ScaledDense.rowDot_congr q h0 h1 (fun k => h2 k q), h3 q]

/-- μ at (r, q). -/
theorem mu_tile (q : Fin 32) : k1_pay2 x0 x1 x2 x3 (ix2 r q) = Cert.Spec.muOf (Cert.Spec.affine2 A S W b) (ix2 p q) := by
  unfold k1_pay2 Cert.Spec.muOf
  refine (ScaledDense.colSlice_apply (N := 2000) (C2 := 64) (C := 32) (o := 0) (by omega) _ _ r q).trans ?_
  refine Eq.symm ((ScaledDense.colSlice_apply (N := 50000) (C2 := 64) (C := 32) (o := 0) (by omega) _ _ p q).trans ?_)
  exact (acc_tile x0 x1 x2 x3 A S W b r p h0 h1 h2 h3 _).symm

/-- σ at (r, q): exp of half of column 32 + q of the affine part. -/
theorem sigma_tile (q : Fin 32) : k1_pay3 x0 x1 x2 x3 (ix2 r q) = Cert.Spec.sigmaOf (Cert.Spec.affine2 A S W b) (ix2 p q) := by
  unfold k1_pay3 Cert.Spec.sigmaOf
  refine (ScaledDense.tile_exp_half_apply _ (ix2 r q)).trans ?_
  refine Eq.symm ((ScaledDense.host_exp_half_apply _ _ (ix2 p q)).trans ?_)
  rw [ScaledDense.colSlice_apply (N := 2000) (C2 := 64) (C := 32) (o := 32) (by omega) _ _ r q,
    ScaledDense.colSlice_apply (N := 50000) (C2 := 64) (C := 32) (o := 32) (by omega) _ _ p q,
    acc_tile x0 x1 x2 x3 A S W b r p h0 h1 h2 h3 _]

/-- z at (r, q). -/
theorem z_tile (q : Fin 32) (h4 : x4 (ix2 r q) = E (ix2 p q)) :
    k1_pay4 x0 x1 x2 x3 x4 (ix2 r q) = Cert.Spec.zOf (Cert.Spec.affine2 A S W b) E (ix2 p q) := by
  unfold k1_pay4 Cert.Spec.zOf
  rw [addf_apply, mulf_apply, addf_apply, mulf_apply, mu_tile x0 x1 x2 x3 A S W b r p h0 h1 h2 h3 q,
    sigma_tile x0 x1 x2 x3 A S W b r p h0 h1 h2 h3 q, h4]

end Tile

variable (V : (c : Dev nD) → (b : Ref sig .tc) → Buf (Elt Ideal) ((c : Thread nD τ).loc b))

/-- The affine part of the arrays the region finds. -/
abbrev ACC (c : Dev nD) : FVec Ideal Cert.ReferenceIdeal.S50000x64 .f32 :=
  Cert.Spec.affine2 (V c main_v37) (V c main_v14) (V c main_arg3) (V c main_arg4)

/-- The printed index maps over the grid: the row-blocked windows sit at block row t, the weights and the bias at block 0. -/
theorem idx_facts : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 1) = 0
    ∧ win1_4.index t (0 : Fin 2) = t.val ∧ win1_4.index t (1 : Fin 2) = 0
    ∧ win1_5.index t (0 : Fin 2) = t.val ∧ win1_5.index t (1 : Fin 2) = 0
    ∧ win1_6.index t (0 : Fin 2) = t.val ∧ win1_6.index t (1 : Fin 2) = 0
    ∧ win1_7.index t (0 : Fin 2) = t.val ∧ win1_7.index t (1 : Fin 2) = 0 :=
  (by decide +kernel : ∀ t : Fin grid1.N, _)

/-- Row r of point t's input blocks is row 2000·t + r of the arrays the region finds. -/
theorem blocks (c : Dev nD) (t : Fin cfg1.N) (r : Fin 2000) (p : Fin 50000) (hp : p.val = 2000 * t.val + r.val) :
    (∀ k : Fin 32, iblk1 V c 0 t (ix2 r k) = V c main_v37 (ix2 p k))
    ∧ iblk1 V c 1 t (ix2 r (0 : Fin 1)) = V c main_v14 (ix2 p (0 : Fin 1))
    ∧ (∀ (k : Fin 32) (q : Fin 64), iblk1 V c 2 t (ix2 k q) = V c main_arg3 (ix2 k q))
    ∧ (∀ q : Fin 64, iblk1 V c 3 t (ix1 q) = V c main_arg4 (ix1 q))
    ∧ (∀ q : Fin 32, iblk1 V c 4 t (ix2 r q) = V c main_arg5 (ix2 p q)) := by
  obtain ⟨e00, e01, e10, e11, e20, e21, e30, e40, e41, -⟩ := idx_facts t
  have hr := r.isLt
  refine ⟨fun k => ?_, ?_, fun k q => ?_, fun q => ?_, fun q => ?_⟩
  · show V c main_v37 (((cfg1.win 0).blk t).view.emb (ix2 r k)) = V c main_v37 _
    congr 1; funext a; apply Fin.ext
    have hk := k.isLt
    match a with
    | ⟨0, _⟩ => show win1_0.index t (0 : Fin 2) * 2000 + 1 * r.val = p.val; rw [e00, hp]; omega
    | ⟨1, _⟩ => show win1_0.index t (1 : Fin 2) * 32 + 1 * k.val = k.val; rw [e01]; omega
  · show V c main_v14 (((cfg1.win 1).blk t).view.emb (ix2 r (0 : Fin 1))) = V c main_v14 _
    congr 1; funext a; apply Fin.ext
    match a with
    | ⟨0, _⟩ => show win1_1.index t (0 : Fin 2) * 2000 + 1 * r.val = p.val; rw [e10, hp]; omega
    | ⟨1, _⟩ => show win1_1.index t (1 : Fin 2) * 1 + 1 * 0 = 0; rw [e11]
  · show V c main_arg3 (((cfg1.win 2).blk t).view.emb (ix2 k q)) = V c main_arg3 _
    congr 1; funext a; apply Fin.ext
    have hk := k.isLt
    have hq := q.isLt
    match a with
    | ⟨0, _⟩ => show win1_2.index t (0 : Fin 2) * 32 + 1 * k.val = k.val; rw [e20]; omega
    | ⟨1, _⟩ => show win1_2.index t (1 : Fin 2) * 64 + 1 * q.val = q.val; rw [e21]; omega
  · show V c main_arg4 (((cfg1.win 3).blk t).view.emb (ix1 q)) = V c main_arg4 _
    congr 1; funext a; apply Fin.ext
    have hq := q.isLt
    match a with
    | ⟨0, _⟩ => show win1_3.index t (0 : Fin 1) * 64 + 1 * q.val = q.val; rw [e30]; omega
  · show V c main_arg5 (((cfg1.win 4).blk t).view.emb (ix2 r q)) = V c main_arg5 _
    congr 1; funext a; apply Fin.ext
    have hq := q.isLt
    match a with
    | ⟨0, _⟩ => show win1_4.index t (0 : Fin 2) * 2000 + 1 * r.val = p.val; rw [e40, hp]; omega
    | ⟨1, _⟩ => show win1_4.index t (1 : Fin 2) * 32 + 1 * q.val = q.val; rw [e41]; omega

/-- WHAT POINT t WRITES BACK to μ's array is block t of μ of the whole arrays. -/
theorem flushed5_eq (c : Dev nD) (t : Fin cfg1.N) :
    (dat1 V c).flushed 5 t = ((cfg1.win 5).blk t).view.read (Elt Ideal) (Cert.Spec.muOf (ACC V c)) := by
  show (cfg1.win 5).cut (grid1.coords t) ((dat1 V c).after 5 t) = _
  rw [after1_5]
  unfold out1_5
  rw [View.canon_unit_zero hz2]
  simp only [View.ld_unit_zero (S := S2000x32) hz2, View.ld_unit_zero (S := S2000x1) hz2, View.ld_unit_zero (S := S32x64) hz2,
    View.ld_unit_zero (S := S64) hz1]
  obtain ⟨-, -, -, -, -, -, -, -, -, e50, e51, -⟩ := idx_facts t
  have hN : cfg1.N = 25 := N_1
  have ht : t.val < 25 := hN ▸ t.isLt
  funext j
  show k1_pay2 (iblk1 V c 0 t) (iblk1 V c 1 t) (iblk1 V c 2 t) (iblk1 V c 3 t) j
    = Cert.Spec.muOf (ACC V c) (((cfg1.win 5).blk t).view.emb j)
  obtain ⟨r, q, rfl⟩ : ∃ (r : Fin 2000) (q : Fin 32), j = ix2 r q := ⟨j 0, j 1, eq_ix2 j⟩
  have hr := r.isLt
  have hq := q.isLt
  have hemb : ((cfg1.win 5).blk t).view.emb (ix2 r q) = ix2 (⟨2000 * t.val + r.val, by omega⟩ : Fin 50000) q := by
    funext a; apply Fin.ext
    match a with
    | ⟨0, _⟩ => show win1_5.index t (0 : Fin 2) * 2000 + 1 * r.val = 2000 * t.val + r.val; rw [e50]; omega
    | ⟨1, _⟩ => show win1_5.index t (1 : Fin 2) * 32 + 1 * q.val = q.val; rw [e51]; omega
  rw [hemb]
  obtain ⟨b0, b1, b2, b3, -⟩ := blocks V c t r ⟨2000 * t.val + r.val, by omega⟩ rfl
  exact mu_tile _ _ _ _ _ _ _ _ r _ b0 b1 b2 b3 q

/-- WHAT POINT t WRITES BACK to σ's array is block t of σ of the whole arrays. -/
theorem flushed6_eq (c : Dev nD) (t : Fin cfg1.N) :
    (dat1 V c).flushed 6 t = ((cfg1.win 6).blk t).view.read (Elt Ideal) (Cert.Spec.sigmaOf (ACC V c)) := by
  show (cfg1.win 6).cut (grid1.coords t) ((dat1 V c).after 6 t) = _
  rw [after1_6]
  unfold out1_6
  rw [View.canon_unit_zero hz2]
  simp only [View.ld_unit_zero (S := S2000x32) hz2, View.ld_unit_zero (S := S2000x1) hz2, View.ld_unit_zero (S := S32x64) hz2,
    View.ld_unit_zero (S := S64) hz1]
  obtain ⟨-, -, -, -, -, -, -, -, -, -, -, e60, e61, -⟩ := idx_facts t
  have hN : cfg1.N = 25 := N_1
  have ht : t.val < 25 := hN ▸ t.isLt
  funext j
  show k1_pay3 (iblk1 V c 0 t) (iblk1 V c 1 t) (iblk1 V c 2 t) (iblk1 V c 3 t) j
    = Cert.Spec.sigmaOf (ACC V c) (((cfg1.win 6).blk t).view.emb j)
  obtain ⟨r, q, rfl⟩ : ∃ (r : Fin 2000) (q : Fin 32), j = ix2 r q := ⟨j 0, j 1, eq_ix2 j⟩
  have hr := r.isLt
  have hq := q.isLt
  have hemb : ((cfg1.win 6).blk t).view.emb (ix2 r q) = ix2 (⟨2000 * t.val + r.val, by omega⟩ : Fin 50000) q := by
    funext a; apply Fin.ext
    match a with
    | ⟨0, _⟩ => show win1_6.index t (0 : Fin 2) * 2000 + 1 * r.val = 2000 * t.val + r.val; rw [e60]; omega
    | ⟨1, _⟩ => show win1_6.index t (1 : Fin 2) * 32 + 1 * q.val = q.val; rw [e61]; omega
  rw [hemb]
  obtain ⟨b0, b1, b2, b3, -⟩ := blocks V c t r ⟨2000 * t.val + r.val, by omega⟩ rfl
  exact sigma_tile _ _ _ _ _ _ _ _ r _ b0 b1 b2 b3 q

/-- WHAT POINT t WRITES BACK to z's array is block t of z of the whole arrays. -/
theorem flushed7_eq (c : Dev nD) (t : Fin cfg1.N) :
    (dat1 V c).flushed 7 t = ((cfg1.win 7).blk t).view.read (Elt Ideal) (Cert.Spec.zOf (ACC V c) (V c main_arg5)) := by
  show (cfg1.win 7).cut (grid1.coords t) ((dat1 V c).after 7 t) = _
  rw [after1_7]
  unfold out1_7
  rw [View.canon_unit_zero hz2]
  simp only [View.ld_unit_zero (S := S2000x32) hz2, View.ld_unit_zero (S := S2000x1) hz2, View.ld_unit_zero (S := S32x64) hz2,
    View.ld_unit_zero (S := S64) hz1]
  obtain ⟨-, -, -, -, -, -, -, -, -, -, -, -, -, e70, e71⟩ := idx_facts t
  have hN : cfg1.N = 25 := N_1
  have ht : t.val < 25 := hN ▸ t.isLt
  funext j
  show k1_pay4 (iblk1 V c 0 t) (iblk1 V c 1 t) (iblk1 V c 2 t) (iblk1 V c 3 t) (iblk1 V c 4 t) j
    = Cert.Spec.zOf (ACC V c) (V c main_arg5) (((cfg1.win 7).blk t).view.emb j)
  obtain ⟨r, q, rfl⟩ : ∃ (r : Fin 2000) (q : Fin 32), j = ix2 r q := ⟨j 0, j 1, eq_ix2 j⟩
  have hr := r.isLt
  have hq := q.isLt
  have hemb : ((cfg1.win 7).blk t).view.emb (ix2 r q) = ix2 (⟨2000 * t.val + r.val, by omega⟩ : Fin 50000) q := by
    funext a; apply Fin.ext
    match a with
    | ⟨0, _⟩ => show win1_7.index t (0 : Fin 2) * 2000 + 1 * r.val = 2000 * t.val + r.val; rw [e70]; omega
    | ⟨1, _⟩ => show win1_7.index t (1 : Fin 2) * 32 + 1 * q.val = q.val; rw [e71]; omega
  rw [hemb]
  obtain ⟨b0, b1, b2, b3, b4⟩ := blocks V c t r ⟨2000 * t.val + r.val, by omega⟩ rfl
  exact z_tile _ _ _ _ _ _ _ _ _ _ r _ b0 b1 b2 b3 q (b4 q)

theorem mem5 (t : Fin cfg1.N) (i : S50000x32.Idx) (h : 2000 * t.val ≤ (i 0).val ∧ (i 0).val < 2000 * t.val + 2000) :
    i ∈ ((cfg1.win 5).blk t).view.set := by
  obtain ⟨-, -, -, -, -, -, -, -, -, e0, e1, -⟩ := idx_facts t
  have hi1 : (i 1).val < 32 := (i 1).isLt
  show i ∈ ((View.whole main_v38_0).slice (win1_5.rect t)).set
  rw [View.set_slice_whole, Rect.mem_set_unit]
  intro a
  match a with
  | ⟨0, _⟩ => show win1_5.index t (0 : Fin 2) * 2000 ≤ (i 0).val ∧ (i 0).val < win1_5.index t (0 : Fin 2) * 2000 + 2000; rw [e0]; omega
  | ⟨1, _⟩ => show win1_5.index t (1 : Fin 2) * 32 ≤ (i 1).val ∧ (i 1).val < win1_5.index t (1 : Fin 2) * 32 + 32; rw [e1]; omega

theorem mem6 (t : Fin cfg1.N) (i : S50000x32.Idx) (h : 2000 * t.val ≤ (i 0).val ∧ (i 0).val < 2000 * t.val + 2000) :
    i ∈ ((cfg1.win 6).blk t).view.set := by
  obtain ⟨-, -, -, -, -, -, -, -, -, -, -, e0, e1, -⟩ := idx_facts t
  have hi1 : (i 1).val < 32 := (i 1).isLt
  show i ∈ ((View.whole main_v38_1).slice (win1_6.rect t)).set
  rw [View.set_slice_whole, Rect.mem_set_unit]
  intro a
  match a with
  | ⟨0, _⟩ => show win1_6.index t (0 : Fin 2) * 2000 ≤ (i 0).val ∧ (i 0).val < win1_6.index t (0 : Fin 2) * 2000 + 2000; rw [e0]; omega
  | ⟨1, _⟩ => show win1_6.index t (1 : Fin 2) * 32 ≤ (i 1).val ∧ (i 1).val < win1_6.index t (1 : Fin 2) * 32 + 32; rw [e1]; omega

theorem mem7 (t : Fin cfg1.N) (i : S50000x32.Idx) (h : 2000 * t.val ≤ (i 0).val ∧ (i 0).val < 2000 * t.val + 2000) :
    i ∈ ((cfg1.win 7).blk t).view.set := by
  obtain ⟨-, -, -, -, -, -, -, -, -, -, -, -, -, e0, e1⟩ := idx_facts t
  have hi1 : (i 1).val < 32 := (i 1).isLt
  show i ∈ ((View.whole main_v38_2).slice (win1_7.rect t)).set
  rw [View.set_slice_whole, Rect.mem_set_unit]
  intro a
  match a with
  | ⟨0, _⟩ => show win1_7.index t (0 : Fin 2) * 2000 ≤ (i 0).val ∧ (i 0).val < win1_7.index t (0 : Fin 2) * 2000 + 2000; rw [e0]; omega
  | ⟨1, _⟩ => show win1_7.index t (1 : Fin 2) * 32 ≤ (i 1).val ∧ (i 1).val < win1_7.index t (1 : Fin 2) * 32 + 32; rw [e1]; omega

/-- THE ARRAYS the region leaves: μ, σ and z of the arrays it found. -/
theorem final5 (c : Dev nD) : (dat1 V c).arrAt 5 cfg1.N = Cert.Spec.muOf (ACC V c) :=
  (dat1 V c).arrAt_eq_of_cover 5 _ (fun t _ => flushed5_eq V c t) fun i => by
    have hN : cfg1.N = 25 := N_1
    have hi0 : (i 0).val < 50000 := (i 0).isLt
    refine ⟨⟨(i 0).val / 2000, by rw [hN]; omega⟩, flush1_5 _, mem5 _ i ?_⟩
    show 2000 * ((i 0).val / 2000) ≤ (i 0).val ∧ (i 0).val < 2000 * ((i 0).val / 2000) + 2000
    omega

theorem final6 (c : Dev nD) : (dat1 V c).arrAt 6 cfg1.N = Cert.Spec.sigmaOf (ACC V c) :=
  (dat1 V c).arrAt_eq_of_cover 6 _ (fun t _ => flushed6_eq V c t) fun i => by
    have hN : cfg1.N = 25 := N_1
    have hi0 : (i 0).val < 50000 := (i 0).isLt
    refine ⟨⟨(i 0).val / 2000, by rw [hN]; omega⟩, flush1_6 _, mem6 _ i ?_⟩
    show 2000 * ((i 0).val / 2000) ≤ (i 0).val ∧ (i 0).val < 2000 * ((i 0).val / 2000) + 2000
    omega

theorem final7 (c : Dev nD) : (dat1 V c).arrAt 7 cfg1.N = Cert.Spec.zOf (ACC V c) (V c main_arg5) :=
  (dat1 V c).arrAt_eq_of_cover 7 _ (fun t _ => flushed7_eq V c t) fun i => by
    have hN : cfg1.N = 25 := N_1
    have hi0 : (i 0).val < 50000 := (i 0).isLt
    refine ⟨⟨(i 0).val / 2000, by rw [hN]; omega⟩, flush1_7 _, mem7 _ i ?_⟩
    show 2000 * ((i 0).val / 2000) ≤ (i 0).val ∧ (i 0).val < 2000 * ((i 0).val / 2000) + 2000
    omega

end Cert.KernelIdeal.Region1

end
-- ==== Proof.LibRowGather.lean ====
/-
  A row gather read at an index. What `x[idx]` of a table `x : [N, C]` at an integer vector `idx : [R]` lowers to is a
  gather with offset axis 1, collapsed slice axis 0, start index map [0], slice sizes [1, C] and index vector axis 1
  over the indices as `[R, 1]`: row `r` of the result is the table's row whose number is `idx[r, 0]` read as a signed
  integer and clamped into `[0, N - 1]`; column `c` of the result is column `c` of that row. The extents N, C, R are
  arbitrary (N positive).
-/
import Idealize.ShloMosaic.Lib.ValueIdx

namespace RowGather

open Idealize.ShloMosaic Idealize.ShloMosaic.ValueIdx

variable {α : Type}

/-- The dimension numbers of a row gather for a table `[N, C]`, start indices `[R, 1]` and result `[R, C]`. -/
abbrev rowDims (N C R : Nat)
    (wf : GatherDims.WF ⟨2, ![N, C]⟩ ⟨2, ![R, 1]⟩ ⟨2, ![R, C]⟩ [1] [0] [] [0] [] 1 ![1, C]) :
    GatherDims ⟨2, ![N, C]⟩ ⟨2, ![R, 1]⟩ ⟨2, ![R, C]⟩ where
  offsetDims := [1]
  collapsedSliceDims := [0]
  operandBatchingDims := []
  startIndicesBatchingDims := []
  startIndexMap := [0]
  indexVectorDim := 1
  sliceSizes := ![1, C]
  wf := wf

/-- The gathered array at (r, c) is the table at (clamp (idx (r, 0)), c). -/
theorem gather_row_apply {N C R w : Nat} (hN : 0 < N)
    (wf : GatherDims.WF ⟨2, ![N, C]⟩ ⟨2, ![R, 1]⟩ ⟨2, ![R, C]⟩ [1] [0] [] [0] [] 1 ![1, C])
    (x : (⟨2, ![N, C]⟩ : Shape).Idx → α) (idx : IVec ⟨2, ![R, 1]⟩ w) (r : Fin R) (c : Fin C) :
    Host.gather (rowDims N C R wf) x idx (ix2 r c)
      = x (ix2 ⟨min (idx (ix2 r (0 : Fin 1))).toInt.toNat (N - 1), by omega⟩ c) := by
  unfold Host.gather
  congr 1
  funext a
  refine Fin.ext ?_
  match a with
  | ⟨0, _⟩ =>
    show (rowDims N C R wf).start (ix2 r c) idx (0 : Fin 2) + (rowDims N C R wf).batchCoord (ix2 r c) (0 : Fin 2)
        + (rowDims N C R wf).offCoord (ix2 r c) (0 : Fin 2) = min (idx (ix2 r (0 : Fin 1))).toInt.toNat (N - 1)
    rw [GatherDims.batchCoord_eq_zero _ _ _ List.not_mem_nil, GatherDims.offCoord_eq_zero _ _ _
      (fun h => ((GatherDims.mem_sKept _ _).mp h).1 (List.mem_singleton.mpr rfl))]
    simp only [Nat.add_zero]
    unfold GatherDims.start
    rw [dif_pos (show (0 : Fin 2) ∈ (rowDims N C R wf).startIndexMap from List.mem_singleton.mpr rfl)]
    have hsi : (rowDims N C R wf).siIdx (ix2 r c) ⟨List.idxOf (0 : Fin 2) (rowDims N C R wf).startIndexMap,
        List.idxOf_lt_length_iff.2 (List.mem_singleton.mpr rfl)⟩ = ix2 r (0 : Fin 1) := by
      funext b; refine Fin.ext ?_
      match b with
      | ⟨0, _⟩ => rfl
      | ⟨1, _⟩ => rfl
    rw [hsi]
    rfl
  | ⟨1, _⟩ =>
    have hs : (rowDims N C R wf).start (ix2 r c) idx (1 : Fin 2) = 0 := by
      unfold GatherDims.start
      exact dif_neg (by decide : (1 : Fin 2) ∉ ([0] : List (Fin 2)))
    have ho : (rowDims N C R wf).offCoord (ix2 r c) (1 : Fin 2) = c.val := by
      unfold GatherDims.offCoord
      rw [dif_pos ((GatherDims.mem_sKept _ _).mpr
        ⟨(by decide : (1 : Fin 2) ∉ ([0] : List (Fin 2))), List.not_mem_nil⟩)]
      rfl
    show (rowDims N C R wf).start (ix2 r c) idx (1 : Fin 2) + (rowDims N C R wf).batchCoord (ix2 r c) (1 : Fin 2)
        + (rowDims N C R wf).offCoord (ix2 r c) (1 : Fin 2) = c.val
    rw [GatherDims.batchCoord_eq_zero _ _ _ List.not_mem_nil, hs, ho]
    omega

end RowGather
-- ==== Proof.LibPairDecode.lean ====
/-
  Dot products of pairs of rows of a table, decoded for two lists of pairs at once or for each list by itself.

  A table z : [N, C] and two integer vectors u, v : [R] give the vector whose entry r is ∑ k, z (u r, k) · z (v r, k),
  the rows taken the way the host's gather takes them: an index below zero is first moved up by n (a compare, an add and
  a select), the result is made a column [R, 1], read as a signed integer and clamped into [0, N − 1]. On the extended
  reals the host's sum over the last axis from the zero scalar is that plain sum.

  Two lists of pairs, (a, a') and (b, b'), each of length R, can be decoded separately, or joined first — a ++ b and
  a' ++ b' of length T = R + R — decoded in one pass and the result cut into its first R and last R entries. Entry i of the
  first cut reads row i of the joined vectors, which is row i of a and a'; entry i of the second cut reads row R + i,
  which is row i of b and b'. So the cuts are the separately decoded vectors. Any extents; the table's entries may be
  any extended reals.
-/
import Idealize.ShloMosaic.PureOps.Ideal.Laws
import Idealize.ShloMosaic.Lib.ValueIdx
import Idealize.ShloMosaic.Lib.ValueLayout
import Idealize.ShloMosaic.Lib.Pipeline.Value
import proofs.«112123_j61976378081862_2_alg».proof.Proof.LibKeepdims
import proofs.«112123_j61976378081862_2_alg».proof.Proof.LibRowGather
import proofs.«112123_j61976378081862_2_alg».proof.Proof.LibHostLin

noncomputable section

namespace PairDecode

open Idealize.ShloMosaic Idealize.ShloMosaic.ValueIdx
open scoped BigOperators

/-- An index below zero moved up by n. -/
def wrap (n v : BitVec 32) : BitVec 32 := Scalar.select (IntOp.cmpi .slt v 0#32) (IntOp.addi v n) v

/-- The dot product of the table's rows numbered u and v, each read signed and clamped into [0, N − 1]. -/
def rowPair {N C : ℕ} (hN : 0 < N) (z : (⟨2, ![N, C]⟩ : Shape).Idx → EReal) (u v : BitVec 32) : EReal :=
  ∑ k : Fin C, z (ix2 (⟨min u.toInt.toNat (N - 1), by omega⟩ : Fin N) k) * z (ix2 (⟨min v.toInt.toNat (N - 1), by omega⟩ : Fin N) k)

/-- The wrapped indices as a column, read at (r, z): the wrap of entry r. -/
theorem wrapCol_apply {R : ℕ} (n : BitVec 32)
    (h0 h0' : (⟨0, ![]⟩ : Shape).BroadcastsInDim ⟨1, ![R]⟩ (![] : Fin 0 → Fin 1))
    (hc : (⟨1, ![R]⟩ : Shape).BroadcastsInDim ⟨2, ![R, 1]⟩ (![0] : Fin 1 → Fin 2))
    (v : IVec ⟨1, ![R]⟩ 32) (r : Fin R) (z : Fin 1) :
    broadcastInDim ⟨2, ![R, 1]⟩ ![0] hc
        (select (cmpi .slt v (broadcastInDim ⟨1, ![R]⟩ ![] h0 (constantI ⟨0, ![]⟩ 32 0#32)))
          (addi v (broadcastInDim ⟨1, ![R]⟩ ![] h0' (constantI ⟨0, ![]⟩ 32 n))) v) (ix2 r z)
      = wrap n (v (ix1 r)) := by
  rw [broadcastInDim_apply ![0] hc _ (ix2 r z) (ix1 r) (fun a => by
    match a with
    | ⟨0, _⟩ =>
      show r.val = if R = 1 then 0 else r.val
      split_ifs with hR
      · subst hR; omega
      · rfl)]
  rw [select_apply]
  show Scalar.select (IntOp.cmpi .slt (v (ix1 r)) (broadcastInDim ⟨1, ![R]⟩ ![] h0 (constantI ⟨0, ![]⟩ 32 0#32) (ix1 r)))
      (IntOp.addi (v (ix1 r)) (broadcastInDim ⟨1, ![R]⟩ ![] h0' (constantI ⟨0, ![]⟩ 32 n) (ix1 r))) (v (ix1 r)) = _
  rw [HostLin.scalar_bcast_apply, HostLin.scalar_bcast_apply, constantI_apply, constantI_apply]
  rfl

/-- The host's decode of R pairs at entry r: the dot product of the two gathered rows. -/
theorem hostDots_apply {N C R : ℕ} (hN : 0 < N)
    (wf : GatherDims.WF ⟨2, ![N, C]⟩ ⟨2, ![R, 1]⟩ ⟨2, ![R, C]⟩ [1] [0] [] [0] [] 1 ![1, C])
    (dU dV : GatherDims ⟨2, ![N, C]⟩ ⟨2, ![R, 1]⟩ ⟨2, ![R, C]⟩) (hdU : dU = RowGather.rowDims N C R wf) (hdV : dV = RowGather.rowDims N C R wf)
    (hred : (⟨2, ![R, C]⟩ : Shape).ReducesTo [1] ⟨1, ![R]⟩) (hu : 0 < (⟨0, ![]⟩ : Shape).numel)
    (z : FVec Ideal ⟨2, ![N, C]⟩ .f32) (iu iv : IVec ⟨2, ![R, 1]⟩ 32) (r : Fin R) :
    Host.reduceAdd (mulf (Host.gather dU z iu) (Host.gather dV z iv)) (constant (F := Ideal) ⟨0, ![]⟩ .f32 0x00000000#32) hred hu (ix1 r)
      = rowPair hN z (iu (ix2 r (0 : Fin 1))) (iv (ix2 r (0 : Fin 1))) := by
  subst hdU hdV
  have h : (⟨2, ![R, C]⟩ : Shape).Reduces [1] ⟨1, ![R]⟩ := ⟨hred.1, Nat.one_pos, hred.2⟩
  show Ideal.hostReduceAdd _ _ _ (ix1 r) = _
  rw [Ideal.hostReduceAdd_single hred h, constant_apply, Ideal.ofBits_zero_f32, zero_add]
  unfold rowPair
  refine Finset.sum_congr rfl fun k _ => ?_
  rw [Keepdims.lift_lane h r k, mulf_apply, RowGather.gather_row_apply hN wf, RowGather.gather_row_apply hN wf]
  rfl

/-- R entries of a vector starting at entry o. -/
theorem vecSlice_apply {α : Type} {T R o : ℕ} (ho : o + R ≤ T) (y : (⟨1, ![T]⟩ : Shape).Idx → α)
    (hs : (⟨1, ![T]⟩ : Shape).Slices (![o] : Fin 1 → ℕ) ⟨1, ![R]⟩) (i : Fin R) :
    extractStridedSlice ⟨1, ![R]⟩ ![o] y hs (ix1 i) = y (ix1 (⟨o + i.val, by omega⟩ : Fin T)) := by
  refine extractStridedSlice_apply ![o] y hs (ix1 i) _ fun a => ?_
  match a with
  | ⟨0, _⟩ => rfl

/-- An entry of the first piece of two joined vectors. -/
theorem cat_left_apply {α : Type} {R R' T : ℕ} (h : Shape.Concatenates [(⟨1, ![R]⟩ : Shape), ⟨1, ![R']⟩] ⟨1, ![T]⟩ 0)
    (a : (⟨1, ![R]⟩ : Shape).Idx → α) (b : (⟨1, ![R']⟩ : Shape).Idx → α) (i : Fin R) (hT : i.val < T) :
    concatenate ⟨1, ![T]⟩ 0 [⟨⟨1, ![R]⟩, a⟩, ⟨⟨1, ![R']⟩, b⟩] h (ix1 (⟨i.val, hT⟩ : Fin T)) = a (ix1 i) :=
  concatenate_pair_apply_left 0 a b h _ rfl (ix1 i) (fun c => by match c with | ⟨0, _⟩ => rfl)

/-- An entry of the second piece of two joined vectors. -/
theorem cat_right_apply {α : Type} {R R' T : ℕ} (h : Shape.Concatenates [(⟨1, ![R]⟩ : Shape), ⟨1, ![R']⟩] ⟨1, ![T]⟩ 0)
    (a : (⟨1, ![R]⟩ : Shape).Idx → α) (b : (⟨1, ![R']⟩ : Shape).Idx → α) (i : Fin R') (hT : R + i.val < T) :
    concatenate ⟨1, ![T]⟩ 0 [⟨⟨1, ![R]⟩, a⟩, ⟨⟨1, ![R']⟩, b⟩] h (ix1 (⟨R + i.val, hT⟩ : Fin T)) = b (ix1 i) :=
  concatenate_pair_apply_right 0 a b h _ rfl rfl (ix1 i)
    (fun c hc => by match c with | ⟨0, _⟩ => exact absurd rfl hc)
    (by show i.val + R = R + i.val; omega)

/-- The joint decode cut into its two halves is the two separate decodes. -/
theorem split_decode {N C R T : ℕ} (hN : 0 < N) (hT : R + R = T) (n : BitVec 32)
    (wfT : GatherDims.WF ⟨2, ![N, C]⟩ ⟨2, ![T, 1]⟩ ⟨2, ![T, C]⟩ [1] [0] [] [0] [] 1 ![1, C])
    (wfR : GatherDims.WF ⟨2, ![N, C]⟩ ⟨2, ![R, 1]⟩ ⟨2, ![R, C]⟩ [1] [0] [] [0] [] 1 ![1, C])
    (dT dT' : GatherDims ⟨2, ![N, C]⟩ ⟨2, ![T, 1]⟩ ⟨2, ![T, C]⟩) (hdT : dT = RowGather.rowDims N C T wfT) (hdT' : dT' = RowGather.rowDims N C T wfT)
    (dR dR' : GatherDims ⟨2, ![N, C]⟩ ⟨2, ![R, 1]⟩ ⟨2, ![R, C]⟩) (hdR : dR = RowGather.rowDims N C R wfR) (hdR' : dR' = RowGather.rowDims N C R wfR)
    (hredT : (⟨2, ![T, C]⟩ : Shape).ReducesTo [1] ⟨1, ![T]⟩) (hredR : (⟨2, ![R, C]⟩ : Shape).ReducesTo [1] ⟨1, ![R]⟩)
    (hu : 0 < (⟨0, ![]⟩ : Shape).numel)
    (hcat : Shape.Concatenates [(⟨1, ![R]⟩ : Shape), ⟨1, ![R]⟩] ⟨1, ![T]⟩ 0)
    (t0 t1 t2 t3 : (⟨0, ![]⟩ : Shape).BroadcastsInDim ⟨1, ![T]⟩ (![] : Fin 0 → Fin 1))
    (tc : (⟨1, ![T]⟩ : Shape).BroadcastsInDim ⟨2, ![T, 1]⟩ (![0] : Fin 1 → Fin 2))
    (r0 r1 r2 r3 : (⟨0, ![]⟩ : Shape).BroadcastsInDim ⟨1, ![R]⟩ (![] : Fin 0 → Fin 1))
    (rc : (⟨1, ![R]⟩ : Shape).BroadcastsInDim ⟨2, ![R, 1]⟩ (![0] : Fin 1 → Fin 2))
    (hs0 : (⟨1, ![T]⟩ : Shape).Slices (![0] : Fin 1 → ℕ) ⟨1, ![R]⟩) (hs1 : (⟨1, ![T]⟩ : Shape).Slices (![R] : Fin 1 → ℕ) ⟨1, ![R]⟩)
    (z : FVec Ideal ⟨2, ![N, C]⟩ .f32) (a a' b b' : IVec ⟨1, ![R]⟩ 32) :
    let wrapT := fun (e e' : (⟨0, ![]⟩ : Shape).BroadcastsInDim ⟨1, ![T]⟩ (![] : Fin 0 → Fin 1)) (v : IVec ⟨1, ![T]⟩ 32) =>
      broadcastInDim ⟨2, ![T, 1]⟩ ![0] tc (select (cmpi .slt v (broadcastInDim ⟨1, ![T]⟩ ![] e (constantI ⟨0, ![]⟩ 32 0#32)))
        (addi v (broadcastInDim ⟨1, ![T]⟩ ![] e' (constantI ⟨0, ![]⟩ 32 n))) v)
    let wrapR := fun (e e' : (⟨0, ![]⟩ : Shape).BroadcastsInDim ⟨1, ![R]⟩ (![] : Fin 0 → Fin 1)) (v : IVec ⟨1, ![R]⟩ 32) =>
      broadcastInDim ⟨2, ![R, 1]⟩ ![0] rc (select (cmpi .slt v (broadcastInDim ⟨1, ![R]⟩ ![] e (constantI ⟨0, ![]⟩ 32 0#32)))
        (addi v (broadcastInDim ⟨1, ![R]⟩ ![] e' (constantI ⟨0, ![]⟩ 32 n))) v)
    let joint := Host.reduceAdd (mulf
        (Host.gather dT z (wrapT t0 t1 (concatenate ⟨1, ![T]⟩ 0 [⟨⟨1, ![R]⟩, a⟩, ⟨⟨1, ![R]⟩, b⟩] hcat)))
        (Host.gather dT' z (wrapT t2 t3 (concatenate ⟨1, ![T]⟩ 0 [⟨⟨1, ![R]⟩, a'⟩, ⟨⟨1, ![R]⟩, b'⟩] hcat))))
      (constant (F := Ideal) ⟨0, ![]⟩ .f32 0x00000000#32) hredT hu
    extractStridedSlice ⟨1, ![R]⟩ ![0] joint hs0
        = Host.reduceAdd (mulf (Host.gather dR z (wrapR r0 r1 a)) (Host.gather dR' z (wrapR r2 r3 a')))
            (constant (F := Ideal) ⟨0, ![]⟩ .f32 0x00000000#32) hredR hu
      ∧ extractStridedSlice ⟨1, ![R]⟩ ![R] joint hs1
        = Host.reduceAdd (mulf (Host.gather dR z (wrapR r0 r1 b)) (Host.gather dR' z (wrapR r2 r3 b')))
            (constant (F := Ideal) ⟨0, ![]⟩ .f32 0x00000000#32) hredR hu := by
  intro wrapT wrapR joint
  refine ⟨funext fun j => ?_, funext fun j => ?_⟩
  · obtain ⟨i, rfl⟩ : ∃ i : Fin R, j = ix1 i := ⟨j 0, eq_ix1 j⟩
    have hi : i.val < T := by have := i.isLt; omega
    rw [vecSlice_apply (by omega)]
    simp only [joint, wrapT, wrapR]
    rw [hostDots_apply hN wfT dT dT' hdT hdT', hostDots_apply hN wfR dR dR' hdR hdR']
    rw [wrapCol_apply, wrapCol_apply, wrapCol_apply, wrapCol_apply]
    have e1 := cat_left_apply hcat a b i hi
    have e2 := cat_left_apply hcat a' b' i hi
    have hidx : (⟨0 + i.val, by omega⟩ : Fin T) = ⟨i.val, hi⟩ := Fin.ext (Nat.zero_add _)
    rw [hidx, e1, e2]
  · obtain ⟨i, rfl⟩ : ∃ i : Fin R, j = ix1 i := ⟨j 0, eq_ix1 j⟩
    have hi : R + i.val < T := by have := i.isLt; omega
    rw [vecSlice_apply (by omega)]
    simp only [joint, wrapT, wrapR]
    rw [hostDots_apply hN wfT dT dT' hdT hdT', hostDots_apply hN wfR dR dR' hdR hdR']
    rw [wrapCol_apply, wrapCol_apply, wrapCol_apply, wrapCol_apply]
    have e1 := cat_right_apply hcat a b i hi
    have e2 := cat_right_apply hcat a' b' i hi
    rw [e1, e2]

end PairDecode

end
-- ==== Proof.LibHostRead.lean ====
/-
  Reading a buffer after a stretch of host operations, some of them from outlined functions.

  The contents of a device's buffers after a list of host operations are a fold over the list (`StableHlo.after`): each
  operation replaces its result buffer by its function of its operands' contents and leaves every other buffer. Read at one
  buffer, the fold is that buffer's composed term of the contents before the list.

  An outlined function's operations (a `where`, a `relu`) name their buffers through typed references, and what such an
  operation reads or writes is moved between the value's type and the buffer's own type by a transport along an equation
  between the two types. For a typed reference to a literal buffer that equation holds by computation, so the transport is
  the identity: `toBuf_of` and `ofBuf_of`, by reflexivity, for any signature and any type of values. Rewriting with them
  removes every transport from a composed term. That matters for what comes next: an equation between two composed terms
  with the same operations at the same places is decided argument by argument, but a transport at the head of one side
  hides that, and the comparison then opens `select`, the float comparison or `maximumf` down to their elementwise
  definitions and from there the host's scatter and gather over their whole index ranges.

  `read_results` does the reading: one simp pass over the fold; then, for results the pass leaves standing inside a list
  of operands (the pieces of a `concatenate`), the same two rules by rewriting in place until none applies; then the
  transports. What is left is an equation between terms of the PureOps operations over the contents before the list.
-/
import Idealize.ShloMosaic.Lib.StableHlo.Run

namespace Cert.HostRead

open Idealize.ShloMosaic Idealize.ShloMosaic.StableHlo

variable {sig : RefSig} {Val : EltTy → Type}

/-- Contents moved to a literal buffer's own type are themselves. -/
theorem toBuf_of (r : Ref sig .tc) (h1 : r.ty = r.ty) (h2 : r.space ≠ .host) (h3 : r.isScoped = false)
    (v : r.ty.Contents Val) : (TRef.of r h1 h2 h3 : TRef sig r.ty).toBuf v = v := rfl

/-- Contents moved back from a literal buffer's own type are themselves. -/
theorem ofBuf_of (r : Ref sig .tc) (h1 : r.ty = r.ty) (h2 : r.space ≠ .host) (h3 : r.isScoped = false)
    (v : r.ty.Contents Val) : (TRef.of r h1 h2 h3 : TRef sig r.ty).ofBuf v = v := rfl

/-- Reads a goal `after ops V (Proc.devRef .tc r) = …`, `ops` a literal list of operations over literal buffers, as the
    operations' composed term of `V` at the buffers the list does not write. -/
macro "read_results" : tactic =>
  `(tactic| (after_results_simp
             repeat (first
               | rw [nullary_result] | rw [unary_result] | rw [binary_result] | rw [ternary_result] | rw [reshape_result]
               | (rw [nullary_result_ne]; rotate_left; decide)
               | (rw [unary_result_ne]; rotate_left; decide)
               | (rw [binary_result_ne]; rotate_left; decide)
               | (rw [ternary_result_ne]; rotate_left; decide)
               | (rw [reshape_result_ne]; rotate_left; decide))
             repeat (first | rw [toBuf_of] | rw [ofBuf_of])))

end Cert.HostRead
-- ==== Proof.LibKeep.lean ====
/-
  A buffer that a stretch of host operations does not write keeps its contents through the stretch.

  The contents of a device's buffers after a list of host operations are a fold over the list: each operation replaces the
  buffers it writes and leaves every other buffer. So the fold read at a buffer that no operation of the list writes is
  the contents before the list at that buffer. For a literal list over literal buffers this is decided operation by
  operation: each operation's written buffer is a different reference from the one read.
-/
import Idealize.ShloMosaic.Lib.StableHlo.Run

namespace Cert.Keep

open Idealize.ShloMosaic Idealize.ShloMosaic.StableHlo

/-- `keeps ops` closes a goal `after ops V b = V b` (or one that unfolds to it by abbreviations) when no operation of the
    literal list `ops` — nullary to quaternary operations, reshapes, indexed binary operations, an outlined function's
    typed-reference operations — writes the literal buffer `b`: every operation's written buffer is compared with `b`. -/
macro "keeps " ops:ident : tactic =>
  `(tactic| (refine StableHlo.after_of_forall_not_mem _ _ (List.forall_iff_forall_mem.mp ?_)
             simp only [$ops:ident, List.Forall, StableHlo.nullary_writes, StableHlo.unary_writes, StableHlo.binary_writes,
               StableHlo.ternary_writes, StableHlo.quaternary_writes, StableHlo.reshape_writes, StableHlo.binaryIndexed_writes,
               Finset.mem_singleton]
             repeat' apply And.intro
             all_goals exact StableHlo.devRef_ne_of_ne (by decide)))

end Cert.Keep
-- ==== Proof.Chain.lean ====
/-
  The specification carried through the idealized kernel's nine segments.

  The host stretches before the first grid compute the two degree-factor columns and the first round of messages with the
  same operations the reference uses; the first grid leaves the first dense layer of what it finds; the stretch between
  the grids computes the second round of messages from that; the second grid leaves μ, σ and z of what it finds; the last
  stretch joins the positive and the negative pairs, decodes the joined list in one pass and cuts the result in two. Read
  in that order, each boundary's contents at the buffers the next segment reads are the specification's stages of the
  argument arrays, and the four result buffers end at the decoded positive pairs, the decoded negative pairs, μ and σ.
  No argument buffer is written by any segment.
-/
import proofs.«112123_j61976378081862_2_alg».proof.Proof.Gen.KernelIdeal.Frame
import proofs.«112123_j61976378081862_2_alg».proof.Proof.Spec
import proofs.«112123_j61976378081862_2_alg».proof.Proof.Region0
import proofs.«112123_j61976378081862_2_alg».proof.Proof.Region1
import proofs.«112123_j61976378081862_2_alg».proof.Proof.LibPairDecode
import proofs.«112123_j61976378081862_2_alg».proof.Proof.LibHostRead
import proofs.«112123_j61976378081862_2_alg».proof.Proof.LibKeep

set_option maxRecDepth 16384

noncomputable section

namespace Cert.KernelIdeal.Chain

open Cert.KernelIdeal Cert.KernelIdeal.Gen
open Idealize.ShloMosaic Idealize.ShloMosaic.TcCoe Idealize.SL.Sem Idealize.ShloMosaic.StableHlo
open Idealize.ShloMosaic.Pipeline (Dat)
open Cert.HostRead Cert.Keep

variable (m : (ℓ : Loc nD τ sig) → Buf (Elt Ideal) ℓ) (ρ : Dev nD → PrngReg) (c : Dev nD)

/-! ## The arguments reach every boundary as launched -/

theorem w5_arg1 : W5 m ρ c (Proc.devRef .tc main_arg1) = m ((c.tc : Thread nD τ).loc main_arg1) :=
  calc W5 m ρ c (Proc.devRef .tc main_arg1)
    _ = W4 m ρ c (Proc.devRef .tc main_arg1) := by keeps hostOps0_4
    _ = W3 m ρ c (Proc.devRef .tc main_arg1) := by keeps hostOps0_3
    _ = W2 m ρ c (Proc.devRef .tc main_arg1) := by keeps hostOps0_2
    _ = W1 m ρ c (Proc.devRef .tc main_arg1) := by keeps hostOps0_1
    _ = W0 m ρ c (Proc.devRef .tc main_arg1) := by keeps hostOps0
    _ = m ((c.tc : Thread nD τ).loc main_arg1) := rfl

theorem w5_arg2 : W5 m ρ c (Proc.devRef .tc main_arg2) = m ((c.tc : Thread nD τ).loc main_arg2) :=
  calc W5 m ρ c (Proc.devRef .tc main_arg2)
    _ = W4 m ρ c (Proc.devRef .tc main_arg2) := by keeps hostOps0_4
    _ = W3 m ρ c (Proc.devRef .tc main_arg2) := by keeps hostOps0_3
    _ = W2 m ρ c (Proc.devRef .tc main_arg2) := by keeps hostOps0_2
    _ = W1 m ρ c (Proc.devRef .tc main_arg2) := by keeps hostOps0_1
    _ = W0 m ρ c (Proc.devRef .tc main_arg2) := by keeps hostOps0
    _ = m ((c.tc : Thread nD τ).loc main_arg2) := rfl

theorem w6_arg6 : W6 m ρ c (Proc.devRef .tc main_arg6) = m ((c.tc : Thread nD τ).loc main_arg6) :=
  calc W6 m ρ c (Proc.devRef .tc main_arg6)
    _ = W5 m ρ c (Proc.devRef .tc main_arg6) := W6_of_ne m ρ c main_arg6 (by decide)
    _ = W4 m ρ c (Proc.devRef .tc main_arg6) := by keeps hostOps0_4
    _ = W3 m ρ c (Proc.devRef .tc main_arg6) := by keeps hostOps0_3
    _ = W2 m ρ c (Proc.devRef .tc main_arg6) := by keeps hostOps0_2
    _ = W1 m ρ c (Proc.devRef .tc main_arg6) := by keeps hostOps0_1
    _ = W0 m ρ c (Proc.devRef .tc main_arg6) := by keeps hostOps0
    _ = m ((c.tc : Thread nD τ).loc main_arg6) := rfl

theorem w6_arg7 : W6 m ρ c (Proc.devRef .tc main_arg7) = m ((c.tc : Thread nD τ).loc main_arg7) :=
  calc W6 m ρ c (Proc.devRef .tc main_arg7)
    _ = W5 m ρ c (Proc.devRef .tc main_arg7) := W6_of_ne m ρ c main_arg7 (by decide)
    _ = W4 m ρ c (Proc.devRef .tc main_arg7) := by keeps hostOps0_4
    _ = W3 m ρ c (Proc.devRef .tc main_arg7) := by keeps hostOps0_3
    _ = W2 m ρ c (Proc.devRef .tc main_arg7) := by keeps hostOps0_2
    _ = W1 m ρ c (Proc.devRef .tc main_arg7) := by keeps hostOps0_1
    _ = W0 m ρ c (Proc.devRef .tc main_arg7) := by keeps hostOps0
    _ = m ((c.tc : Thread nD τ).loc main_arg7) := rfl

theorem w7_arg3 : W7 m ρ c (Proc.devRef .tc main_arg3) = m ((c.tc : Thread nD τ).loc main_arg3) :=
  calc W7 m ρ c (Proc.devRef .tc main_arg3)
    _ = W6 m ρ c (Proc.devRef .tc main_arg3) := by keeps hostOps1
    _ = W5 m ρ c (Proc.devRef .tc main_arg3) := W6_of_ne m ρ c main_arg3 (by decide)
    _ = W4 m ρ c (Proc.devRef .tc main_arg3) := by keeps hostOps0_4
    _ = W3 m ρ c (Proc.devRef .tc main_arg3) := by keeps hostOps0_3
    _ = W2 m ρ c (Proc.devRef .tc main_arg3) := by keeps hostOps0_2
    _ = W1 m ρ c (Proc.devRef .tc main_arg3) := by keeps hostOps0_1
    _ = W0 m ρ c (Proc.devRef .tc main_arg3) := by keeps hostOps0
    _ = m ((c.tc : Thread nD τ).loc main_arg3) := rfl

theorem w7_arg4 : W7 m ρ c (Proc.devRef .tc main_arg4) = m ((c.tc : Thread nD τ).loc main_arg4) :=
  calc W7 m ρ c (Proc.devRef .tc main_arg4)
    _ = W6 m ρ c (Proc.devRef .tc main_arg4) := by keeps hostOps1
    _ = W5 m ρ c (Proc.devRef .tc main_arg4) := W6_of_ne m ρ c main_arg4 (by decide)
    _ = W4 m ρ c (Proc.devRef .tc main_arg4) := by keeps hostOps0_4
    _ = W3 m ρ c (Proc.devRef .tc main_arg4) := by keeps hostOps0_3
    _ = W2 m ρ c (Proc.devRef .tc main_arg4) := by keeps hostOps0_2
    _ = W1 m ρ c (Proc.devRef .tc main_arg4) := by keeps hostOps0_1
    _ = W0 m ρ c (Proc.devRef .tc main_arg4) := by keeps hostOps0
    _ = m ((c.tc : Thread nD τ).loc main_arg4) := rfl

theorem w7_arg5 : W7 m ρ c (Proc.devRef .tc main_arg5) = m ((c.tc : Thread nD τ).loc main_arg5) :=
  calc W7 m ρ c (Proc.devRef .tc main_arg5)
    _ = W6 m ρ c (Proc.devRef .tc main_arg5) := by keeps hostOps1
    _ = W5 m ρ c (Proc.devRef .tc main_arg5) := W6_of_ne m ρ c main_arg5 (by decide)
    _ = W4 m ρ c (Proc.devRef .tc main_arg5) := by keeps hostOps0_4
    _ = W3 m ρ c (Proc.devRef .tc main_arg5) := by keeps hostOps0_3
    _ = W2 m ρ c (Proc.devRef .tc main_arg5) := by keeps hostOps0_2
    _ = W1 m ρ c (Proc.devRef .tc main_arg5) := by keeps hostOps0_1
    _ = W0 m ρ c (Proc.devRef .tc main_arg5) := by keeps hostOps0
    _ = m ((c.tc : Thread nD τ).loc main_arg5) := rfl

theorem w8_arg8 : W8 m ρ c (Proc.devRef .tc main_arg8) = m ((c.tc : Thread nD τ).loc main_arg8) :=
  calc W8 m ρ c (Proc.devRef .tc main_arg8)
    _ = W7 m ρ c (Proc.devRef .tc main_arg8) := W8_of_ne m ρ c main_arg8 (by decide)
    _ = W6 m ρ c (Proc.devRef .tc main_arg8) := by keeps hostOps1
    _ = W5 m ρ c (Proc.devRef .tc main_arg8) := W6_of_ne m ρ c main_arg8 (by decide)
    _ = W4 m ρ c (Proc.devRef .tc main_arg8) := by keeps hostOps0_4
    _ = W3 m ρ c (Proc.devRef .tc main_arg8) := by keeps hostOps0_3
    _ = W2 m ρ c (Proc.devRef .tc main_arg8) := by keeps hostOps0_2
    _ = W1 m ρ c (Proc.devRef .tc main_arg8) := by keeps hostOps0_1
    _ = W0 m ρ c (Proc.devRef .tc main_arg8) := by keeps hostOps0
    _ = m ((c.tc : Thread nD τ).loc main_arg8) := rfl

theorem w8_arg9 : W8 m ρ c (Proc.devRef .tc main_arg9) = m ((c.tc : Thread nD τ).loc main_arg9) :=
  calc W8 m ρ c (Proc.devRef .tc main_arg9)
    _ = W7 m ρ c (Proc.devRef .tc main_arg9) := W8_of_ne m ρ c main_arg9 (by decide)
    _ = W6 m ρ c (Proc.devRef .tc main_arg9) := by keeps hostOps1
    _ = W5 m ρ c (Proc.devRef .tc main_arg9) := W6_of_ne m ρ c main_arg9 (by decide)
    _ = W4 m ρ c (Proc.devRef .tc main_arg9) := by keeps hostOps0_4
    _ = W3 m ρ c (Proc.devRef .tc main_arg9) := by keeps hostOps0_3
    _ = W2 m ρ c (Proc.devRef .tc main_arg9) := by keeps hostOps0_2
    _ = W1 m ρ c (Proc.devRef .tc main_arg9) := by keeps hostOps0_1
    _ = W0 m ρ c (Proc.devRef .tc main_arg9) := by keeps hostOps0
    _ = m ((c.tc : Thread nD τ).loc main_arg9) := rfl

theorem w8_arg10 : W8 m ρ c (Proc.devRef .tc main_arg10) = m ((c.tc : Thread nD τ).loc main_arg10) :=
  calc W8 m ρ c (Proc.devRef .tc main_arg10)
    _ = W7 m ρ c (Proc.devRef .tc main_arg10) := W8_of_ne m ρ c main_arg10 (by decide)
    _ = W6 m ρ c (Proc.devRef .tc main_arg10) := by keeps hostOps1
    _ = W5 m ρ c (Proc.devRef .tc main_arg10) := W6_of_ne m ρ c main_arg10 (by decide)
    _ = W4 m ρ c (Proc.devRef .tc main_arg10) := by keeps hostOps0_4
    _ = W3 m ρ c (Proc.devRef .tc main_arg10) := by keeps hostOps0_3
    _ = W2 m ρ c (Proc.devRef .tc main_arg10) := by keeps hostOps0_2
    _ = W1 m ρ c (Proc.devRef .tc main_arg10) := by keeps hostOps0_1
    _ = W0 m ρ c (Proc.devRef .tc main_arg10) := by keeps hostOps0
    _ = m ((c.tc : Thread nD τ).loc main_arg10) := rfl

theorem w8_arg11 : W8 m ρ c (Proc.devRef .tc main_arg11) = m ((c.tc : Thread nD τ).loc main_arg11) :=
  calc W8 m ρ c (Proc.devRef .tc main_arg11)
    _ = W7 m ρ c (Proc.devRef .tc main_arg11) := W8_of_ne m ρ c main_arg11 (by decide)
    _ = W6 m ρ c (Proc.devRef .tc main_arg11) := by keeps hostOps1
    _ = W5 m ρ c (Proc.devRef .tc main_arg11) := W6_of_ne m ρ c main_arg11 (by decide)
    _ = W4 m ρ c (Proc.devRef .tc main_arg11) := by keeps hostOps0_4
    _ = W3 m ρ c (Proc.devRef .tc main_arg11) := by keeps hostOps0_3
    _ = W2 m ρ c (Proc.devRef .tc main_arg11) := by keeps hostOps0_2
    _ = W1 m ρ c (Proc.devRef .tc main_arg11) := by keeps hostOps0_1
    _ = W0 m ρ c (Proc.devRef .tc main_arg11) := by keeps hostOps0
    _ = m ((c.tc : Thread nD τ).loc main_arg11) := rfl

/-! ## Before the first grid: the degree-factor columns and the first round of messages -/

theorem v13_eq : V5 m ρ c main_v13 = Cert.Spec.colOf (Cert.Spec.degNorm (m ((c.tc : Thread nD τ).loc main_arg6))) := by
  show W5 m ρ c (Proc.devRef .tc main_v13) = _
  simp only [W5, W4, W3, W2, W1, hostOps0, hostOps0_1, hostOps0_2, hostOps0_3, hostOps0_4]
  read_results
  unfold Cert.Spec.colOf Cert.Spec.degNorm
  rfl

theorem v14_eq : V5 m ρ c main_v14 = Cert.Spec.colOf (Cert.Spec.degNorm (m ((c.tc : Thread nD τ).loc main_arg7))) := by
  show W5 m ρ c (Proc.devRef .tc main_v14) = _
  simp only [W5, W4, W3, W2, W1, hostOps0, hostOps0_1, hostOps0_2, hostOps0_3, hostOps0_4]
  read_results
  unfold Cert.Spec.colOf Cert.Spec.degNorm
  rfl

theorem v26_eq : V5 m ρ c main_v26 = Cert.Spec.agg1 (m ((c.tc : Thread nD τ).loc main_arg0)) (m ((c.tc : Thread nD τ).loc main_arg6)) (m ((c.tc : Thread nD τ).loc main_arg7)) := by
  show W5 m ρ c (Proc.devRef .tc main_v26) = _
  simp only [W5, W4, W3, W2, W1, hostOps0, hostOps0_1, hostOps0_2, hostOps0_3, hostOps0_4]
  read_results
  unfold Cert.Spec.agg1 Cert.Spec.aggr64 Cert.Spec.scaled64 Cert.Spec.wrapE Cert.Spec.colOf Cert.Spec.degNorm
  rfl

/-! ## The first grid leaves the hidden features -/

theorem w6_v27 : W6 m ρ c (Proc.devRef .tc main_v27) = Cert.Spec.hidden (m ((c.tc : Thread nD τ).loc main_arg0)) (m ((c.tc : Thread nD τ).loc main_arg1)) (m ((c.tc : Thread nD τ).loc main_arg2)) (m ((c.tc : Thread nD τ).loc main_arg6)) (m ((c.tc : Thread nD τ).loc main_arg7)) := by
  refine (W6_arr m ρ c 5).trans ((Cert.KernelIdeal.Region0.final (V5 m ρ) c).trans ?_)
  show Cert.Spec.layer1 (V5 m ρ c main_v26) (V5 m ρ c main_v14) (V5 m ρ c main_arg1) (V5 m ρ c main_arg2) (V5 m ρ c main_v13) = _
  rw [v26_eq, v14_eq, v13_eq, show V5 m ρ c main_arg1 = (m ((c.tc : Thread nD τ).loc main_arg1)) from w5_arg1 m ρ c, show V5 m ρ c main_arg2 = (m ((c.tc : Thread nD τ).loc main_arg2)) from w5_arg2 m ρ c]
  rfl

/-- The column of in-degree factors is an input of the first grid: it leaves the grid as it entered. -/
theorem w6_v14 : W6 m ρ c (Proc.devRef .tc main_v14) = Cert.Spec.colOf (Cert.Spec.degNorm (m ((c.tc : Thread nD τ).loc main_arg7))) :=
  ((W6_arr m ρ c 1).trans (((dat0 (V5 m ρ) c).arrAt_in 1 rfl _).trans (A_eq0 (V5 m ρ) c 1))).trans (v14_eq m ρ c)

/-! ## Between the grids: the second round of messages -/

theorem v37_eq : V7 m ρ c main_v37 = Cert.Spec.agg2 (m ((c.tc : Thread nD τ).loc main_arg0)) (m ((c.tc : Thread nD τ).loc main_arg1)) (m ((c.tc : Thread nD τ).loc main_arg2)) (m ((c.tc : Thread nD τ).loc main_arg6)) (m ((c.tc : Thread nD τ).loc main_arg7)) := by
  show after hostOps1 (W6 m ρ c) (Proc.devRef .tc main_v37) = _
  simp only [hostOps1]
  read_results
  rw [w6_v27 m ρ c, w6_arg6 m ρ c, w6_arg7 m ρ c]
  unfold Cert.Spec.agg2 Cert.Spec.aggr32 Cert.Spec.wrapE
  rfl

theorem v14'_eq : V7 m ρ c main_v14 = Cert.Spec.colOf (Cert.Spec.degNorm (m ((c.tc : Thread nD τ).loc main_arg7))) := by
  show after hostOps1 (W6 m ρ c) (Proc.devRef .tc main_v14) = _
  refine Eq.trans ?_ (w6_v14 m ρ c)
  keeps hostOps1

/-! ## The second grid leaves μ, σ and z -/

theorem acc_eq : Cert.KernelIdeal.Region1.ACC (V7 m ρ) c = Cert.Spec.acc (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg6)) (m ((c.tc : Thread nD τ).loc main_arg7)) := by
  show Cert.Spec.affine2 (V7 m ρ c main_v37) (V7 m ρ c main_v14) (V7 m ρ c main_arg3) (V7 m ρ c main_arg4) = _
  rw [v37_eq, v14'_eq, show V7 m ρ c main_arg3 = (m ((c.tc : Thread nD τ).loc main_arg3)) from w7_arg3 m ρ c, show V7 m ρ c main_arg4 = (m ((c.tc : Thread nD τ).loc main_arg4)) from w7_arg4 m ρ c]
  rfl

theorem w8_mu : W8 m ρ c (Proc.devRef .tc main_v38_0) = Cert.Spec.mu (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg6)) (m ((c.tc : Thread nD τ).loc main_arg7)) := by
  refine (W8_arr m ρ c 5).trans ((Cert.KernelIdeal.Region1.final5 (V7 m ρ) c).trans ?_)
  rw [acc_eq]
  rfl

theorem w8_sigma : W8 m ρ c (Proc.devRef .tc main_v38_1) = Cert.Spec.sigma (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg6)) (m ((c.tc : Thread nD τ).loc main_arg7)) := by
  refine (W8_arr m ρ c 6).trans ((Cert.KernelIdeal.Region1.final6 (V7 m ρ) c).trans ?_)
  rw [acc_eq]
  rfl

theorem w8_z : W8 m ρ c (Proc.devRef .tc main_v38_2) = Cert.Spec.zz (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) := by
  refine (W8_arr m ρ c 7).trans ((Cert.KernelIdeal.Region1.final7 (V7 m ρ) c).trans ?_)
  rw [acc_eq, show V7 m ρ c main_arg5 = (m ((c.tc : Thread nD τ).loc main_arg5)) from w7_arg5 m ρ c]
  rfl

/-! ## After the second grid: the results -/

theorem out2_eq : W9 m ρ c (Proc.devRef .tc main_v38_0) = Cert.Spec.mu (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg6)) (m ((c.tc : Thread nD τ).loc main_arg7)) := by
  refine Eq.trans ?_ (w8_mu m ρ c)
  keeps hostOps2

theorem out3_eq : W9 m ρ c (Proc.devRef .tc main_v38_1) = Cert.Spec.sigma (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg6)) (m ((c.tc : Thread nD τ).loc main_arg7)) := by
  refine Eq.trans ?_ (w8_sigma m ρ c)
  keeps hostOps2

theorem out0_eq : W9 m ρ c (Proc.devRef .tc main_v57)
    = Cert.Spec.decode (Cert.Spec.zz (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))) (m ((c.tc : Thread nD τ).loc main_arg8)) (m ((c.tc : Thread nD τ).loc main_arg9)) := by
  show after hostOps2 (W8 m ρ c) (Proc.devRef .tc main_v57) = _
  simp only [hostOps2]
  read_results
  rw [w8_z m ρ c, w8_arg8 m ρ c, w8_arg9 m ρ c, w8_arg10 m ρ c, w8_arg11 m ρ c]
  unfold Cert.Spec.decode Cert.Spec.wrapP
  have split := PairDecode.split_decode (N := 50000) (C := 32) (R := 500000) (T := 1000000) (by decide) (by norm_num) 50000#32
      Cert.KernelIdeal.Gen.gather_S50000x32_S1000000x1_S1000000x32_1_0_n_n_0_1_132_wf
      Cert.ReferenceIdeal.Gen.gather_S50000x32_S500000x1_S500000x32_1_0_n_n_0_1_132_wf
      gather_S50000x32_S1000000x1_S1000000x32_1_0_n_n_0_1_132 gather_S50000x32_S1000000x1_S1000000x32_1_0_n_n_0_1_132 rfl rfl
      Cert.ReferenceIdeal.gather_S50000x32_S500000x1_S500000x32_1_0_n_n_0_1_132 Cert.ReferenceIdeal.gather_S50000x32_S500000x1_S500000x32_1_0_n_n_0_1_132 rfl rfl
      Cert.KernelIdeal.Gen.reducesTo_S1000000x32_S1000000_d1 Cert.ReferenceIdeal.Gen.reducesTo_S500000x32_S500000_d1 Cert.KernelIdeal.Gen.h_S_
      Cert.KernelIdeal.Gen.concatenates_S500000_S500000_S1000000_d0
      Cert.KernelIdeal.Gen.bcast_S_S1000000 Cert.KernelIdeal.Gen.bcast_S_S1000000 Cert.KernelIdeal.Gen.bcast_S_S1000000 Cert.KernelIdeal.Gen.bcast_S_S1000000
      Cert.KernelIdeal.Gen.bcast_S1000000_S1000000x1_0
      Cert.ReferenceIdeal.Gen.bcast_S_S500000 Cert.ReferenceIdeal.Gen.bcast_S_S500000 Cert.ReferenceIdeal.Gen.bcast_S_S500000 Cert.ReferenceIdeal.Gen.bcast_S_S500000
      Cert.ReferenceIdeal.Gen.bcast_S500000_S500000x1_0
      Cert.KernelIdeal.Gen.slices_S1000000_S500000_0 Cert.KernelIdeal.Gen.slices_S1000000_S500000_500000
  exact (split (Cert.Spec.zz (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))) (m ((c.tc : Thread nD τ).loc main_arg8)) (m ((c.tc : Thread nD τ).loc main_arg9)) (m ((c.tc : Thread nD τ).loc main_arg10)) (m ((c.tc : Thread nD τ).loc main_arg11))).1

theorem out1_eq : W9 m ρ c (Proc.devRef .tc main_v58)
    = Cert.Spec.decode (Cert.Spec.zz (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))) (m ((c.tc : Thread nD τ).loc main_arg10)) (m ((c.tc : Thread nD τ).loc main_arg11)) := by
  show after hostOps2 (W8 m ρ c) (Proc.devRef .tc main_v58) = _
  simp only [hostOps2]
  read_results
  rw [w8_z m ρ c, w8_arg8 m ρ c, w8_arg9 m ρ c, w8_arg10 m ρ c, w8_arg11 m ρ c]
  unfold Cert.Spec.decode Cert.Spec.wrapP
  have split := PairDecode.split_decode (N := 50000) (C := 32) (R := 500000) (T := 1000000) (by decide) (by norm_num) 50000#32
      Cert.KernelIdeal.Gen.gather_S50000x32_S1000000x1_S1000000x32_1_0_n_n_0_1_132_wf
      Cert.ReferenceIdeal.Gen.gather_S50000x32_S500000x1_S500000x32_1_0_n_n_0_1_132_wf
      gather_S50000x32_S1000000x1_S1000000x32_1_0_n_n_0_1_132 gather_S50000x32_S1000000x1_S1000000x32_1_0_n_n_0_1_132 rfl rfl
      Cert.ReferenceIdeal.gather_S50000x32_S500000x1_S500000x32_1_0_n_n_0_1_132 Cert.ReferenceIdeal.gather_S50000x32_S500000x1_S500000x32_1_0_n_n_0_1_132 rfl rfl
      Cert.KernelIdeal.Gen.reducesTo_S1000000x32_S1000000_d1 Cert.ReferenceIdeal.Gen.reducesTo_S500000x32_S500000_d1 Cert.KernelIdeal.Gen.h_S_
      Cert.KernelIdeal.Gen.concatenates_S500000_S500000_S1000000_d0
      Cert.KernelIdeal.Gen.bcast_S_S1000000 Cert.KernelIdeal.Gen.bcast_S_S1000000 Cert.KernelIdeal.Gen.bcast_S_S1000000 Cert.KernelIdeal.Gen.bcast_S_S1000000
      Cert.KernelIdeal.Gen.bcast_S1000000_S1000000x1_0
      Cert.ReferenceIdeal.Gen.bcast_S_S500000 Cert.ReferenceIdeal.Gen.bcast_S_S500000 Cert.ReferenceIdeal.Gen.bcast_S_S500000 Cert.ReferenceIdeal.Gen.bcast_S_S500000
      Cert.ReferenceIdeal.Gen.bcast_S500000_S500000x1_0
      Cert.KernelIdeal.Gen.slices_S1000000_S500000_0 Cert.KernelIdeal.Gen.slices_S1000000_S500000_500000
  exact (split (Cert.Spec.zz (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))) (m ((c.tc : Thread nD τ).loc main_arg8)) (m ((c.tc : Thread nD τ).loc main_arg9)) (m ((c.tc : Thread nD τ).loc main_arg10)) (m ((c.tc : Thread nD τ).loc main_arg11))).2

end Cert.KernelIdeal.Chain

end
-- ==== Proof.RefValue.lean ====
/-
  The reference's four results are the specification's: decode of the positive pairs, decode of the negative pairs, μ and σ,
  each the same composition of operations of the argument arrays, read off the reference's run.
-/
import proofs.«112123_j61976378081862_2_alg».proof.Proof.Gen.ReferenceIdeal.Run
import proofs.«112123_j61976378081862_2_alg».proof.Proof.Spec

set_option maxRecDepth 8192

noncomputable section

namespace Cert.ReferenceIdeal.RefValue

open Cert.ReferenceIdeal Cert.ReferenceIdeal.Value Idealize.ShloMosaic Idealize.ShloMosaic.TcCoe Idealize.SL.Sem

variable (m : (ℓ : Loc nD τ sig) → Buf (Elt Ideal) ℓ) (c : Dev nD)

theorem out2_eq : res_main_v54 m c
    = Cert.Spec.mu (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg6)) (m ((c.tc : Thread nD τ).loc main_arg7)) := by
  unfold res_main_v54 Cert.Spec.mu Cert.Spec.muOf Cert.Spec.acc Cert.Spec.affine2 Cert.Spec.agg2 Cert.Spec.aggr32 Cert.Spec.hidden
    Cert.Spec.layer1 Cert.Spec.agg1 Cert.Spec.aggr64 Cert.Spec.scaled64 Cert.Spec.colOf Cert.Spec.degNorm Cert.Spec.wrapE
  rfl

theorem out3_eq : res_main_v58 m c
    = Cert.Spec.sigma (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg6)) (m ((c.tc : Thread nD τ).loc main_arg7)) := by
  unfold res_main_v58 Cert.Spec.sigma Cert.Spec.sigmaOf Cert.Spec.acc Cert.Spec.affine2 Cert.Spec.agg2 Cert.Spec.aggr32 Cert.Spec.hidden
    Cert.Spec.layer1 Cert.Spec.agg1 Cert.Spec.aggr64 Cert.Spec.scaled64 Cert.Spec.colOf Cert.Spec.degNorm Cert.Spec.wrapE
  rfl

theorem out0_eq : res_main_v76 m c
    = Cert.Spec.decode (Cert.Spec.zz (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)))
        (m ((c.tc : Thread nD τ).loc main_arg8)) (m ((c.tc : Thread nD τ).loc main_arg9)) := by
  unfold res_main_v76 Cert.Spec.decode Cert.Spec.wrapP Cert.Spec.zz Cert.Spec.zOf Cert.Spec.muOf Cert.Spec.sigmaOf Cert.Spec.acc Cert.Spec.affine2 Cert.Spec.agg2
    Cert.Spec.aggr32 Cert.Spec.hidden Cert.Spec.layer1 Cert.Spec.agg1 Cert.Spec.aggr64 Cert.Spec.scaled64 Cert.Spec.colOf Cert.Spec.degNorm Cert.Spec.wrapE
  rfl

theorem out1_eq : res_main_v92 m c
    = Cert.Spec.decode (Cert.Spec.zz (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)))
        (m ((c.tc : Thread nD τ).loc main_arg10)) (m ((c.tc : Thread nD τ).loc main_arg11)) := by
  unfold res_main_v92 Cert.Spec.decode Cert.Spec.wrapP Cert.Spec.zz Cert.Spec.zOf Cert.Spec.muOf Cert.Spec.sigmaOf Cert.Spec.acc Cert.Spec.affine2 Cert.Spec.agg2
    Cert.Spec.aggr32 Cert.Spec.hidden Cert.Spec.layer1 Cert.Spec.agg1 Cert.Spec.aggr64 Cert.Spec.scaled64 Cert.Spec.colOf Cert.Spec.degNorm Cert.Spec.wrapE
  rfl

end Cert.ReferenceIdeal.RefValue

end
-- ==== Proof.lean ====
/-
  The certificate of a variational graph auto-encoder's forward pass: two graph-convolution layers with symmetric degree
  normalisation over 50000 nodes and 1600000 edges, a reparameterisation z = μ + σ · ε, and a dot-product decoder over 500000
  positive and 500000 negative node pairs; the results are the two decoded vectors, μ and σ.

  The kernel keeps the edge-wise gathers and scatter-adds on the host, as the reference does, and computes the two dense
  layers in two grids of 25 blocks of 2000 rows. On the extended reals:
    • narrowing the matrix products' operands to bf16 is the identity, and a product into the zero accumulator is the
      host's product;
    • every entry of a dense layer depends on one row of its inputs, so the row blocks of the layer are the layer's row
      blocks (Region0, Region1), whatever the entries are: no finiteness is used anywhere;
    • σ is exp of half of log σ²: the kernel multiplies by the word of 0.5, the reference divides by the word of 2.0, and the
      quotient by the real 2 is the product with 1/2 at every extended real (LibScaledDense);
    • the kernel decodes the positive and the negative pairs in one pass over the joined lists and cuts the result in two;
      entry i of a cut reads the rows that entry i of the corresponding list names (LibPairDecode).
  Spec states the computation stage by stage; RefValue reads the reference's run as it; Chain carries it through the
  kernel's nine segments (KernelRun: the kernel's run with its result buffers read). The idealization rewrote no operation,
  so the kernel's idealization is its own text read on the extended reals.
-/
import proofs.«112123_j61976378081862_2_alg».proof.Defs
import proofs.«112123_j61976378081862_2_alg».proof.Proof.Gen.Kernel
import proofs.«112123_j61976378081862_2_alg».proof.Proof.Gen.Kernel.Skeleton
import proofs.«112123_j61976378081862_2_alg».proof.Proof.Gen.Kernel.Launch
import proofs.«112123_j61976378081862_2_alg».proof.Proof.Gen.Kernel.Points
import proofs.«112123_j61976378081862_2_alg».proof.Proof.Gen.Kernel.Frame
import proofs.«112123_j61976378081862_2_alg».proof.Proof.Gen.KernelIdeal
import proofs.«112123_j61976378081862_2_alg».proof.Proof.Gen.KernelIdeal.Skeleton
import proofs.«112123_j61976378081862_2_alg».proof.Proof.Gen.KernelIdeal.Launch
import proofs.«112123_j61976378081862_2_alg».proof.Proof.Gen.KernelIdeal.Points
import proofs.«112123_j61976378081862_2_alg».proof.Proof.Gen.KernelIdeal.Frame
import proofs.«112123_j61976378081862_2_alg».proof.Proof.Gen.ReferenceIdeal
import proofs.«112123_j61976378081862_2_alg».proof.Proof.Gen.ReferenceIdeal.Run
import proofs.«112123_j61976378081862_2_alg».proof.Proof.Gen.Pre_finite_inputs
import proofs.«112123_j61976378081862_2_alg».proof.Proof.KernelRun
import proofs.«112123_j61976378081862_2_alg».proof.Proof.Chain
import proofs.«112123_j61976378081862_2_alg».proof.Proof.RefValue
import Idealize.ShloMosaic.Adequacy
import Idealize.ShloMosaic.Init

set_option maxRecDepth 16384

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

/-- The reference's frame is its run with the results dropped. -/
theorem frame_ri : Cert.frame_ReferenceIdeal := fun m ρ _ =>
  (θ_run Cert.ReferenceIdeal.defs _ _).mono (fun _ h c => (h c).2.2.2.2) (Cert.ReferenceIdeal.Value.run (F := Ideal) m ρ)

/-- The idealization rewrote no operation. -/
theorem preserves : Cert.preserves_Kernel_KernelIdeal := trivial

/-- Both runs end with the decoded positive pairs, the decoded negative pairs, μ and σ of the argument arrays. -/
theorem algebraic : Cert.algebraic_KernelIdeal_ReferenceIdeal := by
  intro m ρ m' ρ' _ hagree
  refine ⟨fun c => Cert.Spec.decode (Cert.Spec.zz (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) (m ((c.tc : Thread Cert.KernelIdeal.nD Cert.KernelIdeal.τ).loc Cert.KernelIdeal.main_arg8)) (m ((c.tc : Thread Cert.KernelIdeal.nD Cert.KernelIdeal.τ).loc Cert.KernelIdeal.main_arg9)),
    fun c => Cert.Spec.decode (Cert.Spec.zz (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) (m ((c.tc : Thread Cert.KernelIdeal.nD Cert.KernelIdeal.τ).loc Cert.KernelIdeal.main_arg10)) (m ((c.tc : Thread Cert.KernelIdeal.nD Cert.KernelIdeal.τ).loc Cert.KernelIdeal.main_arg11)),
    fun c => Cert.Spec.mu (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)),
    fun c => Cert.Spec.sigma (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)), ?_, ?_⟩
  · refine (θ_run Cert.KernelIdeal.defs _ _).mono (fun r h c => ?_) (Cert.KernelIdeal.Hand.run_results (F := Ideal) m ρ)
    obtain ⟨h0, h1, h2, h3, hargs⟩ := h c
    exact ⟨h0.trans (Cert.KernelIdeal.Chain.out0_eq m ρ c), h1.trans (Cert.KernelIdeal.Chain.out1_eq m ρ c),
      h2.trans (Cert.KernelIdeal.Chain.out2_eq m ρ c), h3.trans (Cert.KernelIdeal.Chain.out3_eq m ρ c), hargs⟩
  · refine (θ_run Cert.ReferenceIdeal.defs _ _).mono (fun r h c => ?_) (Cert.ReferenceIdeal.Value.run (F := Ideal) m' ρ')
    obtain ⟨h0, h1, h2, h3, hargs⟩ := h c
    obtain ⟨e0, e1, e2, e3, e4, e5, e6, e7, e8, e9, e10, e11⟩ := hagree c
    refine ⟨h0.trans ?_, h1.trans ?_, h2.trans ?_, h3.trans ?_, hargs⟩
    · rw [Cert.ReferenceIdeal.RefValue.out0_eq, e0, e1, e2, e3, e4, e5, e6, e7, e8, e9]
    · rw [Cert.ReferenceIdeal.RefValue.out1_eq, e0, e1, e2, e3, e4, e5, e6, e7, e10, e11]
    · rw [Cert.ReferenceIdeal.RefValue.out2_eq, e0, e1, e2, e3, e4, e6, e7]
    · rw [Cert.ReferenceIdeal.RefValue.out3_eq, e0, e1, e2, e3, e4, e6, e7]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
